-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x5 : Shape := ⟨2, ![1048576, 5]⟩
abbrev S272x128 : Shape := ⟨2, ![272, 128]⟩
abbrev S_ : Shape := ⟨0, ![]⟩
abbrev S96x128 : Shape := ⟨2, ![96, 128]⟩

class Facts : Prop where
  bcast_S_S1048576x5 : S_.BroadcastsInDim S1048576x5 (![] : Fin 0 → Fin S1048576x5.rank)
  reducesTo_S1048576x5_S_d0_1 : S1048576x5.ReducesTo [0, 1] S_
  h_S_ : 0 < S_.numel
  bcast_S_S272x128 : S_.BroadcastsInDim S272x128 (![] : Fin 0 → Fin S272x128.rank)
  reducesTo_S272x128_S_d0_1 : S272x128.ReducesTo [0, 1] S_
  slices_S272x128_S96x128_40_0 : S272x128.Slices ![40, 0] S96x128
  bcast_S_S96x128 : S_.BroadcastsInDim S96x128 (![] : Fin 0 → Fin S96x128.rank)
  reducesTo_S96x128_S_d0_1 : S96x128.ReducesTo [0, 1] S_
  slices_S272x128_S96x128_168_0 : S272x128.Slices ![168, 0] S96x128

variable [Facts]

def fn_part1 {F : FTy → Type} [FloatOps F] (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  main_v18

def fn {F : FTy → Type} [FloatOps F] (main_arg0 : FVec F S1048576x5 .f32) (main_arg1 : FVec F S272x128 .f32) : IVec S_ 1 :=
  let main_v0 : FVec F S1048576x5 .f32 := Host.absf main_arg0
  let main_cst : FVec F S_ .f32 := constant S_ .f32 0x7F800000#32
  let main_v1 : FVec F S1048576x5 .f32 := broadcastInDim S1048576x5 ![] bcast_S_S1048576x5 main_cst
  let main_v2 : IVec S1048576x5 1 := cmpf .olt main_v0 main_v1
  let main_c : IVec S_ 1 := constantI S_ 1 1#1
  let main_v3 : IVec S_ 1 := (fun x v => Host.reduce IntOp.andi x v reducesTo_S1048576x5_S_d0_1 h_S_) main_v2 main_c
  let main_v4 : FVec F S272x128 .f32 := Host.absf main_arg1
  let main_cst_0 : FVec F S_ .f32 := constant S_ .f32 0x7F800000#32
  let main_v5 : FVec F S272x128 .f32 := broadcastInDim S272x128 ![] bcast_S_S272x128 main_cst_0
  let main_v6 : IVec S272x128 1 := cmpf .olt main_v4 main_v5
  let main_c_1 : IVec S_ 1 := constantI S_ 1 1#1
  let main_v7 : IVec S_ 1 := (fun x v => Host.reduce IntOp.andi x v reducesTo_S272x128_S_d0_1 h_S_) main_v6 main_c_1
  let main_v8 : IVec S_ 1 := andi main_v3 main_v7
  let main_v9 : FVec F S96x128 .f32 := (extractStridedSlice S96x128 ![40, 0] · slices_S272x128_S96x128_40_0) main_arg1
  let main_cst_2 : FVec F S_ .f32 := constant S_ .f32 0x00000000#32
  let main_v10 : FVec F S96x128 .f32 := broadcastInDim S96x128 ![] bcast_S_S96x128 main_cst_2
  let main_v11 : IVec S96x128 1 := cmpf .oeq main_v9 main_v10
  let main_c_3 : IVec S_ 1 := constantI S_ 1 1#1
  let main_v12 : IVec S_ 1 := (fun x v => Host.reduce IntOp.andi x v reducesTo_S96x128_S_d0_1 h_S_) main_v11 main_c_3
  let main_v13 : IVec S_ 1 := andi main_v8 main_v12
  let main_v14 : FVec F S96x128 .f32 := (extractStridedSlice S96x128 ![168, 0] · slices_S272x128_S96x128_168_0) main_arg1
  let main_cst_4 : FVec F S_ .f32 := constant S_ .f32 0x00000000#32
  let main_v15 : FVec F S96x128 .f32 := broadcastInDim S96x128 ![] bcast_S_S96x128 main_cst_4
  let main_v16 : IVec S96x128 1 := cmpf .oeq main_v14 main_v15
  fn_part1 (F := F) main_v13 main_v16
-- ==== Kernel.lean ====
abbrev S1048576x5 : Shape := ⟨2, ![1048576, 5]⟩
abbrev S272x128 : Shape := ⟨2, ![272, 128]⟩
abbrev S_ : Shape := ⟨0, ![]⟩
abbrev S8x1048576 : Shape := ⟨2, ![8, 1048576]⟩
abbrev S5x1048576 : Shape := ⟨2, ![5, 1048576]⟩
abbrev S1 : Shape := ⟨1, ![1]⟩
abbrev S8x32 : Shape := ⟨2, ![8, 32]⟩
abbrev S32x32 : Shape := ⟨2, ![32, 32]⟩
abbrev S32x8 : Shape := ⟨2, ![32, 8]⟩
abbrev S80x128 : Shape := ⟨2, ![80, 128]⟩
abbrev S2 : Shape := ⟨1, ![2]⟩
abbrev S32x128 : Shape := ⟨2, ![32, 128]⟩
abbrev S1x32 : Shape := ⟨2, ![1, 32]⟩
abbrev S32 : Shape := ⟨1, ![32]⟩
abbrev S1x8 : Shape := ⟨2, ![1, 8]⟩
abbrev S8 : Shape := ⟨1, ![8]⟩
abbrev S8x131072 : Shape := ⟨2, ![8, 131072]⟩
abbrev S16x32 : Shape := ⟨2, ![16, 32]⟩
abbrev S32x1 : Shape := ⟨2, ![32, 1]⟩
abbrev S8x1 : Shape := ⟨2, ![8, 1]⟩
abbrev S32x131072 : Shape := ⟨2, ![32, 131072]⟩
abbrev S16x131072 : Shape := ⟨2, ![16, 131072]⟩
abbrev S2x1048576 : Shape := ⟨2, ![2, 1048576]⟩
abbrev S1048576x2 : Shape := ⟨2, ![1048576, 2]⟩

abbrev nBuf : Space → Nat
  | .hbm => 62
  | .vmem => 6
  | .smem => 0
  | _ => 0

abbrev bufTy : (tb : Table) → Fin (tcTables nBuf tb) → BufTy
  | .hbm, ⟨0, _⟩ => ⟨S1048576x5, .f32⟩
  | .hbm, ⟨1, _⟩ => ⟨S272x128, .f32⟩
  | .hbm, ⟨2, _⟩ => ⟨S_, .bf16⟩
  | .hbm, ⟨3, _⟩ => ⟨S8x1048576, .bf16⟩
  | .hbm, ⟨4, _⟩ => ⟨S5x1048576, .f32⟩
  | .hbm, ⟨5, _⟩ => ⟨S5x1048576, .bf16⟩
  | .hbm, ⟨6, _⟩ => ⟨S_, .i32⟩
  | .hbm, ⟨7, _⟩ => ⟨S1, .i32⟩
  | .hbm, ⟨8, _⟩ => ⟨S8x1048576, .bf16⟩
  | .hbm, ⟨9, _⟩ => ⟨S8x32, .f32⟩
  | .hbm, ⟨10, _⟩ => ⟨S32x32, .f32⟩
  | .hbm, ⟨11, _⟩ => ⟨S32x8, .f32⟩
  | .hbm, ⟨12, _⟩ => ⟨S_, .bf16⟩
  | .hbm, ⟨13, _⟩ => ⟨S80x128, .bf16⟩
  | .hbm, ⟨14, _⟩ => ⟨S32x8, .f32⟩
  | .hbm, ⟨15, _⟩ => ⟨S32x8, .bf16⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S80x128, .bf16⟩
  | .hbm, ⟨22, _⟩ => ⟨S32x32, .f32⟩
  | .hbm, ⟨23, _⟩ => ⟨S32x32, .bf16⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S80x128, .bf16⟩
  | .hbm, ⟨30, _⟩ => ⟨S8x32, .f32⟩
  | .hbm, ⟨31, _⟩ => ⟨S8x32, .bf16⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S80x128, .bf16⟩
  | .hbm, ⟨38, _⟩ => ⟨S_, .f32⟩
  | .hbm, ⟨39, _⟩ => ⟨S32x128, .f32⟩
  | .hbm, ⟨40, _⟩ => ⟨S1x32, .f32⟩
  | .hbm, ⟨41, _⟩ => ⟨S32, .f32⟩
  | .hbm, ⟨42, _⟩ => ⟨S_, .i32⟩
  | .hbm, ⟨43, _⟩ => ⟨S1, .i32⟩
  | .hbm, ⟨44, _⟩ => ⟨S32x128, .f32⟩
  | .hbm, ⟨45, _⟩ => ⟨S1x32, .f32⟩
  | .hbm, ⟨46, _⟩ => ⟨S32, .f32⟩
  | .hbm, ⟨47, _⟩ => ⟨S_, .i32⟩
  | .hbm, ⟨48, _⟩ => ⟨S1, .i32⟩
  | .hbm, ⟨49, _⟩ => ⟨S32x128, .f32⟩
  | .hbm, ⟨50, _⟩ => ⟨S1x8, .f32⟩
  | .hbm, ⟨51, _⟩ => ⟨S8, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S32x128, .f32⟩
  | .hbm, ⟨58, _⟩ => ⟨S8x1048576, .bf16⟩
  | .hbm, ⟨59, _⟩ => ⟨S2x1048576, .bf16⟩
  | .hbm, ⟨60, _⟩ => ⟨S1048576x2, .bf16⟩
  | .hbm, ⟨61, _⟩ => ⟨S1048576x2, .f32⟩
  | .local _ .vmem, ⟨0, _⟩ => ⟨S8x131072, .bf16⟩
  | .local _ .vmem, ⟨1, _⟩ => ⟨S8x131072, .bf16⟩
  | .local _ .vmem, ⟨2, _⟩ => ⟨S80x128, .bf16⟩
  | .local _ .vmem, ⟨3, _⟩ => ⟨S32x128, .f32⟩
  | .local _ .vmem, ⟨4, _⟩ => ⟨S8x131072, .bf16⟩
  | .local _ .vmem, ⟨5, _⟩ => ⟨S8x131072, .bf16⟩
  | _, _ => ⟨S1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_10 : Ref sig .tc := ⟨.hbm, 52, rfl⟩
abbrev main_v38 : Ref sig .tc := ⟨.hbm, 53, rfl⟩
abbrev main_c_11 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x131072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x131072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x1048576 : S_.BroadcastsInDim S8x1048576 (![] : Fin 0 → Fin S8x1048576.rank)
  transposes_S1048576x5_S5x1048576_1_0 : S1048576x5.Transposes [1, 0] S5x1048576
  bitsLt_bf16_f32 : FTy.bits .bf16 < FTy.bits .f32
  bcast_S_S1 : S_.BroadcastsInDim S1 (![] : Fin 0 → Fin S1.rank)
  slices_S272x128_S8x32_0_0 : S272x128.Slices ![0, 0] S8x32
  slices_S272x128_S32x32_8_0 : S272x128.Slices ![8, 0] S32x32
  slices_S272x128_S32x8_136_0 : S272x128.Slices ![136, 0] S32x8
  bcast_S_S80x128 : S_.BroadcastsInDim S80x128 (![] : Fin 0 → Fin S80x128.rank)
  transposes_S8x32_S32x8_1_0 : S8x32.Transposes [1, 0] S32x8
  concatenates_S1_S1_S2_d0 : Shape.Concatenates [S1, S1] S2 0
  transposes_S32x32_S32x32_1_0 : S32x32.Transposes [1, 0] S32x32
  transposes_S32x8_S8x32_1_0 : S32x8.Transposes [1, 0] S8x32
  bcast_S_S32x128 : S_.BroadcastsInDim S32x128 (![] : Fin 0 → Fin S32x128.rank)
  slices_S272x128_S1x32_264_0 : S272x128.Slices ![264, 0] S1x32
  shapeCasts_S1x32_S32 : S1x32.ShapeCasts S32
  slices_S272x128_S1x32_265_0 : S272x128.Slices ![265, 0] S1x32
  slices_S272x128_S1x8_266_0 : S272x128.Slices ![266, 0] S1x8
  shapeCasts_S1x8_S8 : S1x8.ShapeCasts S8
  inb_S8x131072_S8x131072_0_0 : ∀ a, (![0, 0] : Fin 2 → Nat) a + S8x131072.size a ≤ S8x131072.size a
  h_S8x131072 : 0 < S8x131072.numel
  shapeCasts_S8x131072_S8x131072 : S8x131072.ShapeCasts S8x131072
  inb_S80x128_S32x8_0_0 : ∀ a, (![0, 0] : Fin 2 → Nat) a + S32x8.size a ≤ S80x128.size a
  h_S32x8 : 0 < S32x8.numel
  shapeCasts_S32x8_S32x8 : S32x8.ShapeCasts S32x8
  inb_S80x128_S32x32_32_0 : ∀ a, (![32, 0] : Fin 2 → Nat) a + S32x32.size a ≤ S80x128.size a
  h_S32x32 : 0 < S32x32.numel
  shapeCasts_S32x32_S32x32 : S32x32.ShapeCasts S32x32
  inb_S80x128_S16x32_64_0 : ∀ a, (![64, 0] : Fin 2 → Nat) a + S16x32.size a ≤ S80x128.size a
  h_S16x32 : 0 < S16x32.numel
  shapeCasts_S16x32_S16x32 : S16x32.ShapeCasts S16x32
  inb_S32x128_S32x1_0_0 : ∀ a, (![0, 0] : Fin 2 → Nat) a + S32x1.size a ≤ S32x128.size a
  h_S32x1 : 0 < S32x1.numel
  shapeCasts_S32x1_S32x1 : S32x1.ShapeCasts S32x1
  inb_S32x128_S32x1_0_1 : ∀ a, (![0, 1] : Fin 2 → Nat) a + S32x1.size a ≤ S32x128.size a
  inb_S32x128_S8x1_0_2 : ∀ a, (![0, 2] : Fin 2 → Nat) a + S8x1.size a ≤ S32x128.size a
  h_S8x1 : 0 < S8x1.numel
  shapeCasts_S8x1_S8x1 : S8x1.ShapeCasts S8x1
  broadcasts_S32x1_S32x131072 : S32x1.Broadcasts S32x131072
  slices_S16x131072_o0_0_S8x131072 : S16x131072.Slices ![0, 0] S8x131072
  broadcasts_S8x1_S8x131072 : S8x1.Broadcasts S8x131072
  packedbf16_S8x131072_S8x131072_0_0 : (Rect.unit (s := S8x131072) ![0, 0] S8x131072.size inb_S8x131072_S8x131072_0_0).PackedRows (EltTy.packing .bf16)
  slices_S8x1048576_S2x1048576_0_0 : S8x1048576.Slices ![0, 0] S2x1048576
  transposes_S2x1048576_S1048576x2_1_0 : S2x1048576.Transposes [1, 0] S1048576x2
  scatter_S8x1048576_S1_S5x1048576_01_n_0_0_wf : ScatterDims.WF S8x1048576 S1 S5x1048576 [0, 1] [] [0] 0
  scatter_S80x128_S2_S32x8_01_n_01_0_wf : ScatterDims.WF S80x128 S2 S32x8 [0, 1] [] [0, 1] 0
  scatter_S80x128_S2_S32x32_01_n_01_0_wf : ScatterDims.WF S80x128 S2 S32x32 [0, 1] [] [0, 1] 0
  scatter_S80x128_S2_S8x32_01_n_01_0_wf : ScatterDims.WF S80x128 S2 S8x32 [0, 1] [] [0, 1] 0
  scatter_S32x128_S1_S32_0_1_1_0_wf : ScatterDims.WF S32x128 S1 S32 [0] [1] [1] 0
  scatter_S32x128_S2_S8_0_1_01_0_wf : ScatterDims.WF S32x128 S2 S8 [0] [1] [0, 1] 0
  dot_S32x8_S8x131072_S32x131072_1_0_0_1_n_n_wf : DotDims.WF S32x8 S8x131072 S32x131072 [1] [0] [0] [1] [] []
  dot_S32x32_S32x131072_S32x131072_1_0_0_1_n_n_wf : DotDims.WF S32x32 S32x131072 S32x131072 [1] [0] [0] [1] [] []
  dot_S16x32_S32x131072_S16x131072_1_0_0_1_n_n_wf : DotDims.WF S16x32 S32x131072 S16x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S8x1048576.size a
  hwx0_0 : ∀ i : grid0.Coords, EltTy.bits .bf16 = 32 ∨ (Rect.block (s := S8x1048576) S8x131072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x128.size a ≤ S80x128.size a
  hwx0_1 : ∀ i : grid0.Coords, EltTy.bits .bf16 = 32 ∨ (Rect.block (s := S80x128) S80x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x131072.size a ≤ S8x1048576.size a
  hwx0_3 : ∀ i : grid0.Coords, EltTy.bits .bf16 = 32 ∨ (Rect.block (s := S8x1048576) S8x131072.size (cc0_transform_3 i) (hinb0_3 i)).WholeWords (EltTy.packing .bf16)

variable [Facts₀]

def scatter_S8x1048576_S1_S5x1048576_01_n_0_0 : ScatterDims S8x1048576 S1 S5x1048576 where
  updateWindowDims := [0, 1]
  insertedWindowDims := []
  scatterDimsToOperandDims := [0]
  indexVectorDim := 0
  wf := scatter_S8x1048576_S1_S5x1048576_01_n_0_0_wf
def scatter_S80x128_S2_S32x8_01_n_01_0 : ScatterDims S80x128 S2 S32x8 where
  updateWindowDims := [0, 1]
  insertedWindowDims := []
  scatterDimsToOperandDims := [0, 1]
  indexVectorDim := 0
  wf := scatter_S80x128_S2_S32x8_01_n_01_0_wf
def scatter_S80x128_S2_S32x32_01_n_01_0 : ScatterDims S80x128 S2 S32x32 where
  updateWindowDims := [0, 1]
  insertedWindowDims := []
  scatterDimsToOperandDims := [0, 1]
  indexVectorDim := 0
  wf := scatter_S80x128_S2_S32x32_01_n_01_0_wf
def scatter_S80x128_S2_S8x32_01_n_01_0 : ScatterDims S80x128 S2 S8x32 where
  updateWindowDims := [0, 1]
  insertedWindowDims := []
  scatterDimsToOperandDims := [0, 1]
  indexVectorDim := 0
  wf := scatter_S80x128_S2_S8x32_01_n_01_0_wf
def scatter_S32x128_S1_S32_0_1_1_0 : ScatterDims S32x128 S1 S32 where
  updateWindowDims := [0]
  insertedWindowDims := [1]
  scatterDimsToOperandDims := [1]
  indexVectorDim := 0
  wf := scatter_S32x128_S1_S32_0_1_1_0_wf
def scatter_S32x128_S2_S8_0_1_01_0 : ScatterDims S32x128 S2 S8 where
  updateWindowDims := [0]
  insertedWindowDims := [1]
  scatterDimsToOperandDims := [0, 1]
  indexVectorDim := 0
  wf := scatter_S32x128_S2_S8_0_1_01_0_wf
def dot_S32x8_S8x131072_S32x131072_1_0_0_1_n_n : DotDims S32x8 S8x131072 S32x131072 where
  lhsContracting := [1]
  rhsContracting := [0]
  lhsNonContracting := [0]
  rhsNonContracting := [1]
  lhsBatch := []
  rhsBatch := []
  wf := dot_S32x8_S8x131072_S32x131072_1_0_0_1_n_n_wf
def dot_S32x32_S32x131072_S32x131072_1_0_0_1_n_n : DotDims S32x32 S32x131072 S32x131072 where
  lhsContracting := [1]
  rhsContracting := [0]
  lhsNonContracting := [0]
  rhsNonContracting := [1]
  lhsBatch := []
  rhsBatch := []
  wf := dot_S32x32_S32x131072_S32x131072_1_0_0_1_n_n_wf
def dot_S16x32_S32x131072_S16x131072_1_0_0_1_n_n : DotDims S16x32 S32x131072 S16x131072 where
  lhsContracting := [1]
  rhsContracting := [0]
  lhsNonContracting := [0]
  rhsNonContracting := [1]
  lhsBatch := []
  rhsBatch := []
  wf := dot_S16x32_S32x131072_S16x131072_1_0_0_1_n_n_wf

abbrev win0_0 : Pipeline.Window sig grid0 :=
  Pipeline.Window.ofSpec (Memref.whole main_v4) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S80x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S8x131072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x5 : Shape := ⟨2, ![1048576, 5]⟩
abbrev S272x128 : Shape := ⟨2, ![272, 128]⟩
abbrev S_ : Shape := ⟨0, ![]⟩
abbrev S1048576x8 : Shape := ⟨2, ![1048576, 8]⟩
abbrev S1 : Shape := ⟨1, ![1]⟩
abbrev S1048576x128 : Shape := ⟨2, ![1048576, 128]⟩
abbrev S512x8 : Shape := ⟨2, ![512, 8]⟩
abbrev S512x128 : Shape := ⟨2, ![512, 128]⟩
abbrev S8x128 : Shape := ⟨2, ![8, 128]⟩
abbrev S128x128 : Shape := ⟨2, ![128, 128]⟩
abbrev S1x128 : Shape := ⟨2, ![1, 128]⟩
abbrev S1048576x2 : Shape := ⟨2, ![1048576, 2]⟩

abbrev nBuf : Space → Nat
  | .hbm => 9
  | .vmem => 5
  | .smem => 0
  | _ => 0

abbrev bufTy : (tb : Table) → Fin (tcTables nBuf tb) → BufTy
  | .hbm, ⟨0, _⟩ => ⟨S1048576x5, .f32⟩
  | .hbm, ⟨1, _⟩ => ⟨S272x128, .f32⟩
  | .hbm, ⟨2, _⟩ => ⟨S_, .f32⟩
  | .hbm, ⟨3, _⟩ => ⟨S1048576x8, .f32⟩
  | .hbm, ⟨4, _⟩ => ⟨S_, .i32⟩
  | .hbm, ⟨5, _⟩ => ⟨S1, .i32⟩
  | .hbm, ⟨6, _⟩ => ⟨S1048576x8, .f32⟩
  | .hbm, ⟨7, _⟩ => ⟨S1048576x128, .f32⟩
  | .hbm, ⟨8, _⟩ => ⟨S1048576x2, .f32⟩
  | .local _ .vmem, ⟨0, _⟩ => ⟨S512x8, .f32⟩
  | .local _ .vmem, ⟨1, _⟩ => ⟨S512x8, .f32⟩
  | .local _ .vmem, ⟨2, _⟩ => ⟨S272x128, .f32⟩
  | .local _ .vmem, ⟨3, _⟩ => ⟨S512x128, .f32⟩
  | .local _ .vmem, ⟨4, _⟩ => ⟨S512x128, .f32⟩
  | _, _ => ⟨S1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1048576x8 : S_.BroadcastsInDim S1048576x8 (![] : Fin 0 → Fin S1048576x8.rank)
  bcast_S_S1 : S_.BroadcastsInDim S1 (![] : Fin 0 → Fin S1.rank)
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S272x128_S8x128_0_0 : ∀ a, (![0, 0] : Fin 2 → Nat) a + S8x128.size a ≤ S272x128.size a
  h_S8x128 : 0 < S8x128.numel
  inb_S272x128_S128x128_8_0 : ∀ a, (![8, 0] : Fin 2 → Nat) a + S128x128.size a ≤ S272x128.size a
  h_S128x128 : 0 < S128x128.numel
  inb_S272x128_S128x128_136_0 : ∀ a, (![136, 0] : Fin 2 → Nat) a + S128x128.size a ≤ S272x128.size a
  inb_S272x128_S1x128_264_0 : ∀ a, (![264, 0] : Fin 2 → Nat) a + S1x128.size a ≤ S272x128.size a
  h_S1x128 : 0 < S1x128.numel
  inb_S272x128_S1x128_265_0 : ∀ a, (![265, 0] : Fin 2 → Nat) a + S1x128.size a ≤ S272x128.size a
  inb_S272x128_S1x128_266_0 : ∀ a, (![266, 0] : Fin 2 → Nat) a + S1x128.size a ≤ S272x128.size a
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S1048576x128_S1048576x2_0_0 : S1048576x128.Slices ![0, 0] S1048576x2
  scatter_S1048576x8_S1_S1048576x5_01_n_1_0_wf : ScatterDims.WF S1048576x8 S1 S1048576x5 [0, 1] [] [1] 0
  dot_S512x8_S8x128_S512x128_1_0_0_1_n_n_wf : DotDims.WF S512x8 S8x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S1048576x8.size a
  hwx0_0 : ∀ i : grid0.Coords, EltTy.bits .f32 = 32 ∨ (Rect.block (s := S1048576x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S272x128.size a ≤ S272x128.size a
  hwx0_1 : ∀ i : grid0.Coords, EltTy.bits .f32 = 32 ∨ (Rect.block (s := S272x128) S272x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S1048576x128.size a
  hwx0_2 : ∀ i : grid0.Coords, EltTy.bits .f32 = 32 ∨ (Rect.block (s := S1048576x128) S512x128.size (cc0_transform_2 i) (hinb0_2 i)).WholeWords (EltTy.packing .f32)

variable [Facts₀]

def scatter_S1048576x8_S1_S1048576x5_01_n_1_0 : ScatterDims S1048576x8 S1 S1048576x5 where
  updateWindowDims := [0, 1]
  insertedWindowDims := []
  scatterDimsToOperandDims := [1]
  indexVectorDim := 0
  wf := scatter_S1048576x8_S1_S1048576x5_01_n_1_0_wf
def dot_S512x8_S8x128_S512x128_1_0_0_1_n_n : DotDims S512x8 S8x128 S512x128 where
  lhsContracting := [1]
  rhsContracting := [0]
  lhsNonContracting := [0]
  rhsNonContracting := [1]
  lhsBatch := []
  rhsBatch := []
  wf := dot_S512x8_S8x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v2) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S272x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.PreZero.lean ====
/-
  The precondition's two "zero rows" conjuncts, read back at the ideal values.

  The precondition is a conjunction (by `and` on one-bit words) of four reductions by `and` over all
  axes.  Its last two conjuncts compare, element by element, the slices of rows 40..135 and of rows
  168..263 of the second argument (a 272 x 128 array) with a broadcast zero constant for equality.  A
  conjunction that is 1 has every conjunct 1; a reduction by `and` that is 1 met only 1s; an equality
  comparison of two extended reals that is 1 says the two are equal; and the bit pattern 0x00000000
  denotes the extended real 0.  Hence every element of those rows is 0.
-/
import proofs.«108916_g2000504823889788_pallasbulk_511_31_alg».proof.Pre_finite_inputs
import proofs.«108916_g2000504823889788_pallasbulk_511_31_alg».proof.Proof.Gen.Pre_finite_inputs
import proofs.«108916_g2000504823889788_pallasbulk_511_31_alg».proof.Defs
import Idealize.ShloMosaic.Lib.ValueIdx
import Idealize.ShloMosaic.Lib.ReduceAll
import Idealize.ShloMosaic.Lib.Pipeline.Value
import Idealize.ShloMosaic.PureOps.Ideal.Laws

noncomputable section

namespace Cert.PreZero

open Idealize.ShloMosaic Idealize.ShloMosaic.ValueIdx Idealize.SL.Sem
open Cert.Pre_finite_inputs (S1048576x5 S272x128 S_ S96x128)

/-- The scalar shape has exactly one index. -/
instance subsingleton_S_ : Subsingleton S_.Idx := ⟨fun a b => funext fun d => d.elim0⟩

/-- An equality comparison of two extended reals whose bit is 1 says that they are equal. -/
theorem eq_of_cmp_oeq {x y : EReal} (h : Ideal.cmp .oeq x y = 1#1) : x = y := by
  by_contra hne
  have h0 : Ideal.cmp .oeq x y = 0#1 := by simp [Ideal.cmp, hne]
  rw [h0] at h
  exact absurd h (by decide)

/-- One conjunct read at an element: if the comparison of the 96-row slice starting at row `off` with the
    broadcast zero constant is 1 everywhere, then every element of rows `off .. off + 95` is 0. -/
theorem row_zero (off : Nat) (a1 : FVec Ideal S272x128 .f32) (hs : S272x128.Slices ![off, 0] S96x128)
    (hb : S_.BroadcastsInDim S96x128 (![] : Fin 0 → Fin S96x128.rank))
    (H : ∀ j : S96x128.Idx,
      cmpf .oeq (extractStridedSlice S96x128 ![off, 0] a1 hs)
        (broadcastInDim S96x128 ![] hb (constant (F := Ideal) S_ .f32 0x00000000#32)) j = 1#1)
    (r : Fin 272) (c : Fin 128) (h1 : off ≤ r.val) (h2 : r.val < off + 96) : a1 (ix2 r c) = 0 := by
  have e := H (ix2 (⟨r.val - off, by omega⟩ : Fin 96) c)
  rw [cmpf_apply, Ideal.cmpf_def] at e
  have e' := eq_of_cmp_oeq e
  rw [extractStridedSlice_apply ![off, 0] a1 hs _ (ix2 r c) (fun a => by
    match a with
    | ⟨0, _⟩ => show r.val = off + (r.val - off); omega
    | ⟨1, _⟩ => show c.val = 0 + c.val; omega)] at e'
  rw [e']
  show Ideal.ofBits .f32 0x00000000#32 = 0
  exact Ideal.ofBits_zero_f32

/-- THE PRECONDITION DECODED: rows 40..135 and rows 168..263 of the second argument are zero. -/
theorem rows_zero [Cert.Pre_finite_inputs.Facts] (a0 : FVec Ideal Cert.Pre_finite_inputs.S1048576x5 .f32)
    (a1 : FVec Ideal Cert.Pre_finite_inputs.S272x128 .f32)
    (h : Cert.Pre_finite_inputs.fn (F := Ideal) a0 a1 = fun _ => 1#1) :
    (∀ (r : Fin 272) (c : Fin 128), 40 ≤ r.val → r.val < 136 → a1 (ix2 r c) = 0) ∧
    (∀ (r : Fin 272) (c : Fin 128), 168 ≤ r.val → r.val < 264 → a1 (ix2 r c) = 0) := by
  have h0 := congrFun h ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  have A := Host.reduce_andi_all _ _ _ _ _ h12
  have B := Host.reduce_andi_all _ _ _ _ _ h17
  exact ⟨fun r c h1 h2 => row_zero 40 a1 _ _ A r c h1 (by omega),
         fun r c h1 h2 => row_zero 168 a1 _ _ B r c h1 (by omega)⟩

/-- The decoded precondition on the idealized kernel's launch memory: on every device, rows 40..135 and rows
    168..263 of the second argument array are zero (as extended reals). -/
theorem ker_rows_zero [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ (r : Fin 272) (k : Fin 128), 40 ≤ r.val → r.val < 136 →
      @Eq EReal (m ((c.tc : Thread Cert.KernelIdeal.nD Cert.KernelIdeal.τ).loc Cert.KernelIdeal.main_arg1) (ix2 r k)) 0) ∧
    (∀ (r : Fin 272) (k : Fin 128), 168 ≤ r.val → r.val < 264 →
      @Eq EReal (m ((c.tc : Thread Cert.KernelIdeal.nD Cert.KernelIdeal.τ).loc Cert.KernelIdeal.main_arg1) (ix2 r k)) 0) :=
  rows_zero _ _ (hpre c)

/-- The same on the idealized reference's launch memory. -/
theorem ref_rows_zero [hPre_finite_inputs : Cert.Pre_finite_inputs.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    (∀ (r : Fin 272) (k : Fin 128), 40 ≤ r.val → r.val < 136 →
      @Eq EReal (m ((c.tc : Thread Cert.ReferenceIdeal.nD Cert.ReferenceIdeal.τ).loc Cert.ReferenceIdeal.main_arg1) (ix2 r k)) 0) ∧
    (∀ (r : Fin 272) (k : Fin 128), 168 ≤ r.val → r.val < 264 →
      @Eq EReal (m ((c.tc : Thread Cert.ReferenceIdeal.nD Cert.ReferenceIdeal.τ).loc Cert.ReferenceIdeal.main_arg1) (ix2 r k)) 0) :=
  rows_zero _ _ (hpre c)

end Cert.PreZero

end
-- ==== Proof.Spec.lean ====
/-
  The network both programs compute, at one batch row, on the extended reals.

  A dense unit is the bias added to the contraction of the activations with one weight column; the network is
  three layers of such units, a ReLU after the first two, and `tanh(·) · 10` after the third.  The parameters
  come packed in one 272 × 128 slab `P`: rows 0–7 the first layer's weights, rows 8–135 the second's, rows
  136–263 the third's, rows 264, 265, 266 the three biases; the hidden layers are 32 units wide, padded to the
  slab's 128 lanes.  `netWide` contracts over all 128 padded hidden units, `netNarrow` over the 32 real ones.
  When the slab's rows that belong to padded hidden units (rows 40–135 and 168–263) are zero, every padded term
  of the two wide contractions is a product with zero, so the two agree: `netWide_eq_netNarrow`.
  Nothing here needs finiteness: on the extended reals a product with zero is zero.
-/
import Idealize.ShloMosaic.PureOps.Ideal.Laws

noncomputable section

open scoped BigOperators

namespace Cert.Spec

open Idealize.ShloMosaic

/-- One dense unit: the activations contracted with a weight column, plus the bias. -/
def unit {n : ℕ} (h w : Fin n → EReal) (b : EReal) : EReal := (∑ k, h k * w k) + b

/-- Units with equal activations, weights and bias, entry by entry, are equal. -/
theorem unit_congr {n : ℕ} {h h' w w' : Fin n → EReal} {b b' : EReal} (hh : ∀ k, h k = h' k) (hw : ∀ k, w k = w' k)
    (hb : b = b') : unit h w b = unit h' w' b' := by
  rw [show h = h' from funext hh, show w = w' from funext hw, hb]

/-- The output nonlinearity: `tanh y · 10`. -/
def act (y : EReal) : EReal := Ideal.tanh y * Ideal.ofBits .f32 0x41200000#32

/-- A contraction whose terms vanish from position `n` on is the contraction over the first `n` positions. -/
theorem sum_pad {n N : ℕ} (hnN : n ≤ N) (f : Fin N → EReal) (hz : ∀ k : Fin N, n ≤ k.val → f k = 0) :
    ∑ k, f k = ∑ k : Fin n, f (Fin.castLE hnN k) := by
  have h1 : ∑ k : Fin n, f (Fin.castLE hnN k) = ∑ k ∈ (Finset.univ.map (Fin.castLEEmb hnN)), f k := by
    rw [Finset.sum_map]; rfl
  rw [h1]
  symm
  apply Finset.sum_subset (Finset.subset_univ _)
  intro k _ hk
  apply hz
  by_contra hlt
  rw [not_le] at hlt
  exact hk (Finset.mem_map.mpr ⟨⟨k.val, hlt⟩, Finset.mem_univ _, Fin.ext rfl⟩)

/-- A unit whose weights vanish from position `n` on is the unit over the first `n` positions. -/
theorem unit_pad {n N : ℕ} (hnN : n ≤ N) (h w : Fin N → EReal) (b : EReal) (hz : ∀ k : Fin N, n ≤ k.val → w k = 0) :
    unit h w b = unit (fun k => h (Fin.castLE hnN k)) (fun k => w (Fin.castLE hnN k)) b := by
  unfold unit
  rw [sum_pad hnN (fun k => h k * w k) (fun k hk => by rw [hz k hk, mul_zero])]

/-- A row of the slab at a literal offset. -/
def row {n : ℕ} (o : ℕ) (h : o + n ≤ 272) (k : Fin n) : Fin 272 := ⟨o + k.val, by have := k.isLt; omega⟩

/-- The first hidden layer's unit `k` (any of the 128 lanes). -/
def hid1 (X : Fin 8 → EReal) (P : Fin 272 → Fin 128 → EReal) (k : Fin 128) : EReal :=
  max (unit X (fun i => P (row 0 (by decide) i) k) (P ⟨264, by decide⟩ k)) 0

/-- The network contracting over all 128 padded hidden units. -/
def netWide (X : Fin 8 → EReal) (P : Fin 272 → Fin 128 → EReal) (c : Fin 128) : EReal :=
  act (unit (fun k : Fin 128 => max (unit (fun k' : Fin 128 => hid1 X P k') (fun k' => P (row 8 (by decide) k') k) (P ⟨265, by decide⟩ k)) 0)
    (fun k => P (row 136 (by decide) k) c) (P ⟨266, by decide⟩ c))

/-- The network contracting over the 32 real hidden units. -/
def netNarrow (X : Fin 8 → EReal) (P : Fin 272 → Fin 128 → EReal) (c : Fin 128) : EReal :=
  act (unit (fun k : Fin 32 => max (unit (fun k' : Fin 32 => hid1 X P (Fin.castLE (by decide) k'))
      (fun k' => P (row 8 (by decide) k') (Fin.castLE (by decide) k)) (P ⟨265, by decide⟩ (Fin.castLE (by decide) k))) 0)
    (fun k => P (row 136 (by decide) k) c) (P ⟨266, by decide⟩ c))

/-- With the padded hidden units' rows of the second and third weight blocks zero, the wide network is the narrow one. -/
theorem netWide_eq_netNarrow (X : Fin 8 → EReal) (P : Fin 272 → Fin 128 → EReal) (c : Fin 128)
    (hz2 : ∀ (r : Fin 272) (l : Fin 128), 40 ≤ r.val → r.val < 136 → P r l = 0)
    (hz3 : ∀ (r : Fin 272) (l : Fin 128), 168 ≤ r.val → r.val < 264 → P r l = 0) :
    netWide X P c = netNarrow X P c := by
  have inner : ∀ l : Fin 128, unit (fun k' : Fin 128 => hid1 X P k') (fun k' => P (row 8 (by decide) k') l) (P ⟨265, by decide⟩ l)
      = unit (fun k' : Fin 32 => hid1 X P (Fin.castLE (by decide) k')) (fun k' => P (row 8 (by decide) k') l) (P ⟨265, by decide⟩ l) := by
    intro l
    rw [unit_pad (by decide : 32 ≤ 128) _ _ _ (fun k' hk => hz2 _ _ (by show 40 ≤ 8 + k'.val; omega) (by show 8 + k'.val < 136; have := k'.isLt; omega))]
    rfl
  unfold netWide netNarrow
  refine congrArg act ?_
  rw [unit_pad (by decide : 32 ≤ 128) _ _ _ (fun k hk => hz3 _ _ (by show 168 ≤ 136 + k.val; omega) (by show 136 + k.val < 264; have := k.isLt; omega))]
  simp only [inner]
  rfl

/-- The bf16 zero word is the extended real zero. -/
theorem ofBits_zero_bf16 : Ideal.ofBits .bf16 0x0000#16 = 0 := by simp [Ideal.ofBits, Ideal.ieee]

end Cert.Spec

end
-- ==== Proof.RefBody.lean ====
/-
  The reference program's kernel body at one index.

  The body multiplies a 512 × 8 tile of batch rows through three weight blocks of the parameter slab, adding a
  bias row after each product, a ReLU after the first two and `tanh(·) · 10` after the third.  Read at row `r` and
  lane `c` of the tile, every product is a sum over its contraction index, every bias a lane of a one-row block, so
  the stored value is the three-layer network of the specification at batch row `r`, contracting over all 128
  lanes of the padded hidden layers.
-/
import proofs.«108916_g2000504823889788_pallasbulk_511_31_alg».proof.Proof.Gen.ReferenceIdeal.Skeleton
import proofs.«108916_g2000504823889788_pallasbulk_511_31_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Body

open Idealize.ShloMosaic Idealize.ShloMosaic.ValueIdx Cert.ReferenceIdeal Cert.ReferenceIdeal.Gen Cert.Spec

/-- A tile times the first weight block, at (r, c): the sum over the 8 input features. -/
theorem mm8 (lhs : FVec Ideal S512x8 .f32) (rhs : FVec Ideal S8x128 .f32) (r : Fin 512) (c : Fin 128) :
    matmul dot_S512x8_S8x128_S512x128_1_0_0_1_n_n none lhs rhs (constant S512x128 .f32 0x00000000#32) (ix2 r c)
      = ∑ k : Fin 8, lhs (ix2 r k) * rhs (ix2 k c) := by
  refine (Ideal.matmul_constant_zero_apply _ _ _ _ _).trans ?_
  refine Fintype.sum_equiv (contrEquiv1 dot_S512x8_S8x128_S512x128_1_0_0_1_n_n 8 rfl rfl) _ _ (fun q => ?_)
  have hl : dot_S512x8_S8x128_S512x128_1_0_0_1_n_n.lhsIdx (ix2 r c) q
      = ix2 r ((contrEquiv1 dot_S512x8_S8x128_S512x128_1_0_0_1_n_n 8 rfl rfl) q) := by
    funext a; apply Fin.ext
    match a with
    | ⟨0, _⟩ => rfl
    | ⟨1, _⟩ => rfl
  have hr : dot_S512x8_S8x128_S512x128_1_0_0_1_n_n.rhsIdx (ix2 r c) q
      = ix2 ((contrEquiv1 dot_S512x8_S8x128_S512x128_1_0_0_1_n_n 8 rfl rfl) q) c := by
    funext a; apply Fin.ext
    match a with
    | ⟨0, _⟩ => rfl
    | ⟨1, _⟩ => rfl
  rw [hl, hr]

/-- A tile of hidden activations times a 128 × 128 weight block, at (r, c): the sum over the 128 lanes. -/
theorem mm128 (lhs : FVec Ideal S512x128 .f32) (rhs : FVec Ideal S128x128 .f32) (r : Fin 512) (c : Fin 128) :
    matmul dot_S512x128_S128x128_S512x128_1_0_0_1_n_n none lhs rhs (constant S512x128 .f32 0x00000000#32) (ix2 r c)
      = ∑ k : Fin 128, lhs (ix2 r k) * rhs (ix2 k c) := by
  refine (Ideal.matmul_constant_zero_apply _ _ _ _ _).trans ?_
  refine Fintype.sum_equiv (contrEquiv1 dot_S512x128_S128x128_S512x128_1_0_0_1_n_n 128 rfl rfl) _ _ (fun q => ?_)
  have hl : dot_S512x128_S128x128_S512x128_1_0_0_1_n_n.lhsIdx (ix2 r c) q
      = ix2 r ((contrEquiv1 dot_S512x128_S128x128_S512x128_1_0_0_1_n_n 128 rfl rfl) q) := by
    funext a; apply Fin.ext
    match a with
    | ⟨0, _⟩ => rfl
    | ⟨1, _⟩ => rfl
  have hr : dot_S512x128_S128x128_S512x128_1_0_0_1_n_n.rhsIdx (ix2 r c) q
      = ix2 ((contrEquiv1 dot_S512x128_S128x128_S512x128_1_0_0_1_n_n 128 rfl rfl) q) c := by
    funext a; apply Fin.ext
    match a with
    | ⟨0, _⟩ => rfl
    | ⟨1, _⟩ => rfl
  rw [hl, hr]

/-- A one-row block repeated down the tile, at (r, c): the row's lane c. -/
theorem bias_apply (v : FVec Ideal S1x128 .f32) (r : Fin 512) (c : Fin 128) :
    broadcastTo S512x128 v broadcasts_S1x128_S512x128 (ix2 r c) = v (ix2 (0 : Fin 1) c) := by
  refine broadcastTo_apply v _ (ix2 r c) (ix2 (0 : Fin 1) c) (fun a => ?_)
  match a with
  | ⟨0, _⟩ => rfl
  | ⟨1, _⟩ => rfl

/-- The vector `tanh` at an index is the extended reals' `tanh` of the entry. -/
theorem tanh_apply {s : Shape} (x : FVec Ideal s .f32) (i : s.Idx) : tanh x i = Ideal.tanh (x i) := rfl

/-- THE BODY'S STORED VALUE at row `r`, lane `c` of the tile: the three-layer network over the row's 8 features, the
    weight blocks and the bias rows as loaded, contracting over all 128 lanes of each hidden layer. -/
theorem pay_apply (v0 : Vec Ideal S512x8 .f32) (v2 : Vec Ideal S8x128 .f32) (v3 v4 : Vec Ideal S128x128 .f32)
    (v5 v6 v7 : Vec Ideal S1x128 .f32) (r : Fin 512) (c : Fin 128) :
    (k0_pay1 (F := Ideal) v0 v2 v3 v4 v5 v6 v7 : S512x128.Idx → EReal) (ix2 r c)
      = act (unit (fun k : Fin 128 => max (unit (fun k' : Fin 128 => max (unit (fun i : Fin 8 => v0 (ix2 r i)) (fun i => v2 (ix2 i k')) (v5 (ix2 (0 : Fin 1) k'))) 0)
            (fun k' => v3 (ix2 k' k)) (v6 (ix2 (0 : Fin 1) k))) 0)
          (fun k => v4 (ix2 k c)) (v7 (ix2 (0 : Fin 1) c))) := by
  have hs : ∀ b : BitVec 32, Scalar.ofBits (F := Ideal) .f32 b = Ideal.ofBits .f32 b := fun _ => rfl
  unfold k0_pay1
  simp only [mulf_apply, tanh_apply, addf_apply, maximumf_apply, broadcast_apply, mm128, mm8, bias_apply, shapeCast_self, hs,
    Ideal.ofBits_zero_f32]
  rfl

end Cert.ReferenceIdeal.Body

end
-- ==== Proof.LibScatter.lean ====
/-
  A `stablehlo.scatter` whose body returns the update (jax's `x.at[...].set(v)`), read at one operand index.

  The scatter is a left fold over the update indices in row-major order; each step overwrites the operand element
  the update index lands on.  When the update indices that land on a given operand index `i` are at most one,
  the fold at `i` is that update's value, and when no update index lands on `i` it is the operand's own value:
  an induction over the list of update positions, with the statement "the value at `i` is the update's once its
  position has been met, the operand's before".
-/
import Idealize.ShloMosaic.PureOps

namespace Idealize.ShloMosaic.ScatterSet

variable {α : Type} {s si u : Shape} {w : Nat}

/-- One step of the scatter's fold: update position `n` overwrites the element it lands on, if it lands. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- A step whose position lands on `i` leaves the update there. -/
theorem step_hit (d : ScatterDims s si u) (idx : IVec si w) (upd : u.Idx → α) (r : s.Idx → α) (n : Fin u.numel)
    (i : s.Idx) (h : d.resultIdx? (u.rowMajor.symm n) idx = some i) :
    step d (fun _ b => b) idx upd r n i = upd (u.rowMajor.symm n) := by
  unfold step
  rw [h]
  exact if_pos rfl

/-- A step whose position does not land on `i` leaves `i` alone. -/
theorem step_miss (d : ScatterDims s si u) (f : α → α → α) (idx : IVec si w) (upd : u.Idx → α) (r : s.Idx → α) (n : Fin u.numel)
    (i : s.Idx) (h : d.resultIdx? (u.rowMajor.symm n) idx ≠ some i) :
    step d f idx upd r n i = r i := by
  unfold step
  cases h' : d.resultIdx? (u.rowMajor.symm n) idx with
  | none => rfl
  | some i0 =>
    have hne : i ≠ i0 := fun e => h (by rw [h', e])
    exact if_neg hne

/-- The fold over any list of positions, at an index that only position `n0` lands on. -/
theorem foldl_apply (d : ScatterDims s si u) (idx : IVec si w) (upd : u.Idx → α) (i : s.Idx) (n0 : Fin u.numel)
    (hhit : d.resultIdx? (u.rowMajor.symm n0) idx = some i)
    (huniq : ∀ n, d.resultIdx? (u.rowMajor.symm n) idx = some i → n = n0) :
    ∀ (l : List (Fin u.numel)) (x : s.Idx → α),
      l.foldl (step d (fun _ b => b) idx upd) x i = if n0 ∈ l then upd (u.rowMajor.symm n0) else x i := by
  intro l
  induction l with
  | nil => intro x; simp
  | cons n l ih =>
    intro x
    rw [List.foldl_cons, ih]
    by_cases hl : n0 ∈ l
    · rw [if_pos hl, if_pos (List.mem_cons_of_mem _ hl)]
    · rw [if_neg hl]
      by_cases hn : n = n0
      · subst hn
        rw [if_pos (List.mem_cons_self ..), step_hit d idx upd x n i hhit]
      · have hmiss : d.resultIdx? (u.rowMajor.symm n) idx ≠ some i := fun e => hn (huniq n e)
        rw [step_miss d _ idx upd x n i hmiss, if_neg]
        intro hmem
        rcases List.mem_cons.mp hmem with e | e
        · exact hn e.symm
        · exact hl e

/-- The fold over any list of positions, at an index no position lands on. -/
theorem foldl_apply_miss (d : ScatterDims s si u) (f : α → α → α) (idx : IVec si w) (upd : u.Idx → α) (i : s.Idx)
    (hmiss : ∀ n, d.resultIdx? (u.rowMajor.symm n) idx ≠ some i) :
    ∀ (l : List (Fin u.numel)) (x : s.Idx → α), l.foldl (step d f idx upd) x i = x i := by
  intro l
  induction l with
  | nil => intro x; rfl
  | cons n l ih => intro x; rw [List.foldl_cons, ih, step_miss d f idx upd x n i (hmiss n)]

/-- THE SET-SCATTER AT A HIT: if update index `j` lands on `i` and no other update index does, the result at `i` is the update at `j`. -/
theorem scatter_apply_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have h0 : u.rowMajor.symm (u.rowMajor j) = j := Equiv.symm_apply_apply _ _
  rw [foldl_apply d idx upd i (u.rowMajor j) (by rw [h0]; exact hj)
    (fun n hn => by rw [← huniq _ hn]; exact (Equiv.apply_symm_apply _ _).symm), if_pos (List.mem_finRange _), h0]

/-- THE SET-SCATTER AT A MISS: where no update index lands, the operand's element stays. -/
theorem scatter_apply_miss (d : ScatterDims s si u) (f : α → α → α) (x : s.Idx → α) (idx : IVec si w) (upd : u.Idx → α) (i : s.Idx)
    (hmiss : ∀ j', d.resultIdx? j' idx ≠ some i) :
    Host.scatter d f x idx upd i = x i := by
  rw [scatter_eq_foldl]
  exact foldl_apply_miss d f idx upd i (fun n => hmiss _) _ x

end Idealize.ShloMosaic.ScatterSet
-- ==== Proof.ScatterRef.lean ====
/-
  The window scatters of the reference program, read at one operand index.

  Each scatter writes a rank-2 block of updates into a rank-2 operand at a constant start: the update at window
  coordinates (r, c) lands on the operand index (start₀ + r, start₁ + c).  That map is injective, so an operand index
  inside the window reads the one update that lands on it, and an operand index outside the window keeps the
  operand's own element.
-/
import proofs.«108916_g2000504823889788_pallasbulk_511_31_alg».proof.ReferenceIdeal
import proofs.«108916_g2000504823889788_pallasbulk_511_31_alg».proof.Proof.LibScatter
import Idealize.ShloMosaic.Lib.ValueIdx

namespace Cert.ReferenceIdeal.Scat

open Idealize.ShloMosaic Idealize.ShloMosaic.ValueIdx Idealize.ShloMosaic.ScatterSet Cert.ReferenceIdeal

variable [Facts₀] {α : Type}

/-! ## The landing index from the per-axis start and window coordinate -/

/-- If on every axis the start plus the window coordinate is the coordinate of `i`, the update index lands on `i`. -/
theorem resultIdx?_eq {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos]
  · congr 1
    funext a
    apply Fin.ext
    show (d.start j idx a + (d.window j a : Int)).toNat = (i a).val
    rw [h a]
    exact Int.toNat_natCast _
  · intro a
    rw [h a]
    exact ⟨Int.natCast_nonneg _, by exact_mod_cast (i a).isLt⟩

/-- If the update index lands on `i`, on every axis the start plus the window coordinate is the coordinate of `i`. -/
theorem resultIdx?_some {s si u : Shape} {w : Nat} (d : ScatterDims s si u) (j : u.Idx) (idx : IVec si w) (i : s.Idx)
    (h : d.resultIdx? j idx = some i) (a : Fin s.rank) : d.start j idx a + (d.window j a : Int) = ((i a).val : Int) := by
  unfold ScatterDims.resultIdx? at h
  split at h
  · rename_i hr
    have e := Option.some.inj h
    have ea := congrFun e a
    have ev : (d.start j idx a + (d.window j a : Int)).toNat = (i a).val := congrArg Fin.val ea
    rw [← ev]
    exact (Int.toNat_of_nonneg (hr a).1).symm
  · exact absurd h (by simp)

/-! ## The scatter of the 1048576×5 updates into the 1048576×8 operand at column 0 -/

theorem r1_siIdx (j : S1048576x5.Idx) (c : Fin scatter_S1048576x8_S1_S1048576x5_01_n_1_0.scatterDimsToOperandDims.length) :
    scatter_S1048576x8_S1_S1048576x5_01_n_1_0.siIdx j c = ix1 0 := by
  funext b
  match b with
  | ⟨0, _⟩ =>
    apply Fin.ext
    have hc : c.val < 1 := c.isLt
    unfold ScatterDims.siIdx
    rw [dif_pos]
    · show c.val = 0
      omega
    · rfl

theorem r1_start0 (j : S1048576x5.Idx) (idx : IVec S1 32) :
    scatter_S1048576x8_S1_S1048576x5_01_n_1_0.start j idx ⟨0, by decide⟩ = 0 := by
  unfold ScatterDims.start
  rw [dif_neg]
  show ¬ (_ ∈ ([1] : List (Fin 2)))
  decide

theorem r1_start1 (j : S1048576x5.Idx) (idx : IVec S1 32) :
    scatter_S1048576x8_S1_S1048576x5_01_n_1_0.start j idx ⟨1, by decide⟩ = (idx (ix1 0)).toInt := by
  unfold ScatterDims.start
  rw [dif_pos, r1_siIdx]
  show _ ∈ ([1] : List (Fin 2))
  decide

theorem r1_window0 (j : S1048576x5.Idx) :
    scatter_S1048576x8_S1_S1048576x5_01_n_1_0.window j ⟨0, by decide⟩ = (j 0).val := by
  unfold ScatterDims.window
  rw [dif_pos]
  · rfl
  · show _ ∈ ([0, 1] : List (Fin 2))
    decide

theorem r1_window1 (j : S1048576x5.Idx) :
    scatter_S1048576x8_S1_S1048576x5_01_n_1_0.window j ⟨1, by decide⟩ = (j 1).val := by
  unfold ScatterDims.window
  rw [dif_pos]
  · rfl
  · show _ ∈ ([0, 1] : List (Fin 2))
    decide

/-- The update at (b, i) lands on the operand index (b, i). -/
theorem r1_landing (idx : IVec S1 32) (h0 : idx (ix1 0) = 0#32) (b : Fin 1048576) (i : Fin 5) :
    scatter_S1048576x8_S1_S1048576x5_01_n_1_0.resultIdx? (ix2 b i) idx
      = some (ix2 b (⟨i.val, by omega⟩ : Fin 8)) := by
  apply resultIdx?_eq
  intro a
  match a with
  | ⟨0, _⟩ =>
    have hs := r1_start0 (ix2 b i) idx
    have hw := r1_window0 (ix2 b i)
    rw [hs, hw]
    show (0 : Int) + (b.val : Int) = (b.val : Int)
    omega
  | ⟨1, _⟩ =>
    have hs := r1_start1 (ix2 b i) idx
    have hw := r1_window1 (ix2 b i)
    rw [hs, hw, h0]
    show (0#32 : BitVec 32).toInt + (i.val : Int) = (i.val : Int)
    have : (0#32 : BitVec 32).toInt = 0 := by decide
    omega

/-- The coordinates of an update index that lands on a given operand index. -/
theorem r1_coords (idx : IVec S1 32) (h0 : idx (ix1 0) = 0#32) (j : S1048576x5.Idx) (i : S1048576x8.Idx)
    (h : scatter_S1048576x8_S1_S1048576x5_01_n_1_0.resultIdx? j idx = some i) :
    (j 0).val = (i 0).val ∧ (j 1).val = (i 1).val := by
  have e0 := resultIdx?_some _ j idx i h ⟨0, by decide⟩
  have e1 := resultIdx?_some _ j idx i h ⟨1, by decide⟩
  rw [r1_start0, r1_window0] at e0
  rw [r1_start1, r1_window1, h0] at e1
  have hz : (0#32 : BitVec 32).toInt = 0 := by decide
  rw [hz] at e1
  constructor
  · have : ((j 0).val : Int) = ((i 0).val : Int) := by simpa using e0
    exact_mod_cast this
  · have : ((j 1).val : Int) = ((i 1).val : Int) := by simpa using e1
    exact_mod_cast this

/-- Inside the window the scatter reads the update. -/
theorem r1_hit (x : S1048576x8.Idx → α) (idx : IVec S1 32) (upd : S1048576x5.Idx → α) (h0 : idx (ix1 0) = 0#32)
    (b : Fin 1048576) (i : Fin 5) :
    Host.scatter scatter_S1048576x8_S1_S1048576x5_01_n_1_0 (fun _ b => b) x idx upd
      (ix2 b (⟨i.val, by omega⟩ : Fin 8)) = upd (ix2 b i) := by
  apply scatter_apply_hit _ x idx upd _ (ix2 b i) (r1_landing idx h0 b i)
  intro j' hj'
  obtain ⟨e0, e1⟩ := r1_coords idx h0 j' _ hj'
  rw [eq_ix2 j']
  have a0 : j' 0 = b := Fin.ext e0
  have a1 : j' 1 = i := Fin.ext e1
  rw [a0, a1]
  rfl

/-- Outside the window the scatter keeps the operand. -/
theorem r1_miss (x : S1048576x8.Idx → α) (idx : IVec S1 32) (upd : S1048576x5.Idx → α) (h0 : idx (ix1 0) = 0#32)
    (b : Fin 1048576) (i : Fin 8) (hi : 5 ≤ i.val) :
    Host.scatter scatter_S1048576x8_S1_S1048576x5_01_n_1_0 (fun _ b => b) x idx upd (ix2 b i) = x (ix2 b i) := by
  apply scatter_apply_miss
  intro j' hj'
  obtain ⟨_, e1⟩ := r1_coords idx h0 j' _ hj'
  have hlt := idx2_lt1 j'
  have : ((ix2 b i : S1048576x8.Idx) 1).val = i.val := rfl
  omega

end Cert.ReferenceIdeal.Scat
-- ==== Proof.RefHost.lean ====
/-
  The reference program's padded input as its kernel finds it.

  Before the kernel runs, the host writes the 1048576 × 5 input into the first five columns of a 1048576 × 8
  array of zeros.  Read at (b, i): the input's entry for i < 5, zero for the three padding columns.
-/
import proofs.«108916_g2000504823889788_pallasbulk_511_31_alg».proof.Proof.Gen.ReferenceIdeal.Frame
import proofs.«108916_g2000504823889788_pallasbulk_511_31_alg».proof.Proof.ScatterRef
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

noncomputable section

namespace Cert.ReferenceIdeal.HostIn

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (c : Dev nD)

/-- The padded input is the scatter of the input into a zero array at column offset 0. -/
theorem v2_eq : (V (F := Ideal) m c main_v2 : S1048576x8.Idx → EReal)
    = Host.scatter scatter_S1048576x8_S1_S1048576x5_01_n_1_0 (fun _ b => b)
        (broadcastInDim S1048576x8 ![] bcast_S_S1048576x8 (constant (F := Ideal) S_ .f32 0x00000000#32))
        (broadcastInDim S1 ![] bcast_S_S1 (constantI S_ 32 0#32))
        (m ((c : Thread nD τ).loc main_arg0) : S1048576x5.Idx → EReal) := by
  show StableHlo.after hostOps0 (fun b => m (c, b)) (Proc.devRef .tc main_v2) = _
  after_results

/-- A real feature column of the padded input is the input's. -/
theorem xp_real (b : Fin 1048576) (i : Fin 5) :
    (V (F := Ideal) m c main_v2 : S1048576x8.Idx → EReal) (ix2 b (⟨i.val, by omega⟩ : Fin 8))
      = (m ((c : Thread nD τ).loc main_arg0) : S1048576x5.Idx → EReal) (ix2 b i) := by
  rw [v2_eq]
  exact Scat.r1_hit _ _ _ rfl b i

/-- A padding column of the padded input is zero. -/
theorem xp_pad (b : Fin 1048576) (i : Fin 8) (hi : 5 ≤ i.val) :
    @Eq EReal ((V (F := Ideal) m c main_v2 : S1048576x8.Idx → EReal) (ix2 b i)) 0 := by
  rw [v2_eq]
  refine (Scat.r1_miss _ _ _ rfl b i hi).trans ?_
  exact Ideal.ofBits_zero_f32

end Cert.ReferenceIdeal.HostIn

end
-- ==== Proof.RefValue.lean ====
/-
  What the reference program computes: its result array as one function of its two arguments.

  The kernel's grid has 2048 points; point `t` reads rows 512·t … 512·t + 511 of the padded input and the whole
  parameter slab, and writes rows 512·t … 512·t + 511 of a 1048576 × 128 array.  Each written row is the
  three-layer network of that batch row (contracting over all 128 padded hidden lanes); the blocks tile the
  array, so the array ends holding the network row by row, and the host's final slice keeps its first two lanes.
-/
import proofs.«108916_g2000504823889788_pallasbulk_511_31_alg».proof.Proof.Gen.ReferenceIdeal.Frame
import proofs.«108916_g2000504823889788_pallasbulk_511_31_alg».proof.Proof.RefBody
import proofs.«108916_g2000504823889788_pallasbulk_511_31_alg».proof.Proof.RefHost
import Idealize.ShloMosaic.Lib.Pipeline.Value
import Idealize.ShloMosaic.Lib.StableHlo.Run
import Idealize.ShloMosaic.Lib.Tactic

noncomputable section

namespace Cert.ReferenceIdeal.Val

open Idealize.ShloMosaic Idealize.ShloMosaic.TcCoe Idealize.ShloMosaic.ValueIdx Idealize.SL.Sem
open Idealize.ShloMosaic.Pipeline (Dat)
open Cert.ReferenceIdeal Cert.ReferenceIdeal.Gen Cert.Spec

theorem hz : (![0, 0] : Fin 2 → Nat) = fun _ => 0 := funext fun a => by fin_cases a <;> rfl

/-! ## The loads of the body, over a variable slab -/

theorem ld_w1 (x1 : Vec Ideal S272x128 .f32) (i : Fin 8) (k : Fin 128) :
    View.ld x1 r0_1 (ix2 i k) = x1 (ix2 (row 0 (by decide) i) k) := by
  show x1 (r0_1.idx (ix2 i k)) = _
  refine congrArg x1 (funext fun a => Fin.ext ?_)
  match a with
  | ⟨0, _⟩ => show 0 + 1 * i.val = 0 + i.val; omega
  | ⟨1, _⟩ => show 0 + 1 * k.val = k.val; omega

theorem ld_w2 (x1 : Vec Ideal S272x128 .f32) (i : Fin 128) (k : Fin 128) :
    View.ld x1 r0_2 (ix2 i k) = x1 (ix2 (row 8 (by decide) i) k) := by
  show x1 (r0_2.idx (ix2 i k)) = _
  refine congrArg x1 (funext fun a => Fin.ext ?_)
  match a with
  | ⟨0, _⟩ => show 8 + 1 * i.val = 8 + i.val; omega
  | ⟨1, _⟩ => show 0 + 1 * k.val = k.val; omega

theorem ld_w3 (x1 : Vec Ideal S272x128 .f32) (i : Fin 128) (k : Fin 128) :
    View.ld x1 r0_3 (ix2 i k) = x1 (ix2 (row 136 (by decide) i) k) := by
  show x1 (r0_3.idx (ix2 i k)) = _
  refine congrArg x1 (funext fun a => Fin.ext ?_)
  match a with
  | ⟨0, _⟩ => show 136 + 1 * i.val = 136 + i.val; omega
  | ⟨1, _⟩ => show 0 + 1 * k.val = k.val; omega

theorem ld_b1 (x1 : Vec Ideal S272x128 .f32) (k : Fin 128) :
    View.ld x1 r0_4 (ix2 (0 : Fin 1) k) = x1 (ix2 (⟨264, by decide⟩ : Fin 272) k) := by
  show x1 (r0_4.idx (ix2 (0 : Fin 1) k)) = _
  refine congrArg x1 (funext fun a => Fin.ext ?_)
  match a with
  | ⟨0, _⟩ => show 264 + 1 * 0 = 264; omega
  | ⟨1, _⟩ => show 0 + 1 * k.val = k.val; omega

theorem ld_b2 (x1 : Vec Ideal S272x128 .f32) (k : Fin 128) :
    View.ld x1 r0_5 (ix2 (0 : Fin 1) k) = x1 (ix2 (⟨265, by decide⟩ : Fin 272) k) := by
  show x1 (r0_5.idx (ix2 (0 : Fin 1) k)) = _
  refine congrArg x1 (funext fun a => Fin.ext ?_)
  match a with
  | ⟨0, _⟩ => show 265 + 1 * 0 = 265; omega
  | ⟨1, _⟩ => show 0 + 1 * k.val = k.val; omega

theorem ld_b3 (x1 : Vec Ideal S272x128 .f32) (k : Fin 128) :
    View.ld x1 r0_6 (ix2 (0 : Fin 1) k) = x1 (ix2 (⟨266, by decide⟩ : Fin 272) k) := by
  show x1 (r0_6.idx (ix2 (0 : Fin 1) k)) = _
  refine congrArg x1 (funext fun a => Fin.ext ?_)
  match a with
  | ⟨0, _⟩ => show 266 + 1 * 0 = 266; omega
  | ⟨1, _⟩ => show 0 + 1 * k.val = k.val; omega

/-- What the body leaves in the output tile at (r, l), over variable input blocks: the wide network of tile row r. -/
theorem out_apply (x0 : Vec Ideal S512x8 .f32) (x1 : Vec Ideal S272x128 .f32) (r : Fin 512) (l : Fin 128) :
    (out0_2 (F := Ideal) x0 x1 : S512x128.Idx → EReal) (ix2 r l)
      = netWide (fun i => x0 (ix2 r i)) (fun a k => x1 (ix2 a k)) l := by
  unfold out0_2
  rw [View.canon_unit_zero hz]
  refine (Body.pay_apply _ _ _ _ _ _ _ r l).trans ?_
  exact congrArg act (unit_congr
    (fun k => congrArg (max · 0) (unit_congr
      (fun k' => congrArg (max · 0) (unit_congr (fun i => congrFun (View.ld_unit_zero (S := S512x8) hz _ x0) (ix2 r i))
        (fun i => ld_w1 x1 i k') (ld_b1 x1 k')))
      (fun k' => ld_w2 x1 k' k) (ld_b2 x1 k)))
    (fun k => ld_w3 x1 k l) (ld_b3 x1 l))

/-! ## The grid -/

variable (m : (ℓ : Loc nD τ sig) → Buf (Elt Ideal) ℓ) (ρ : Dev nD → PrngReg)

/-- The printed index maps over the 2048 points: the input tile and the output tile are block `t` along the batch
    axis, the parameter slab is its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The parameter slab as launched. -/
abbrev slab (c : Dev nD) : S272x128.Idx → EReal := m ((c : Thread nD τ).loc main_arg1)

/-- The network at batch row `b`, lane `l`, over a padded input array and a slab. -/
def rowNetOf (XP : S1048576x8.Idx → EReal) (A : S272x128.Idx → EReal) (b : Fin 1048576) (l : Fin 128) : EReal :=
  netWide (fun i : Fin 8 => XP (ix2 b i)) (fun a k => A (ix2 a k)) l

/-- The kernel's whole output array, over a padded input array and a slab. -/
def GoutOf (XP : S1048576x8.Idx → EReal) (A : S272x128.Idx → EReal) : S1048576x128.Idx → EReal :=
  fun i => rowNetOf XP A (i 0) (i 1)

/-- The kernel's output array of the run: over the padded input as the region finds it and the slab as launched. -/
def Gout (c : Dev nD) : S1048576x128.Idx → EReal := GoutOf (V (F := Ideal) m c main_v2) (slab m c)

/-- The slab's block at any point is the slab. -/
theorem iblk1_apply (c : Dev nD) (t : Fin cfg0.N) (a : Fin 272) (k : Fin 128) :
    (iblk (F := Ideal) m c 1 t : Vec Ideal S272x128 .f32) (ix2 a k) = slab m c (ix2 a k) := by
  obtain ⟨-, -, e2, e3, -, -⟩ := idx_facts t
  unfold iblk
  rw [View.read_apply]
  show V m c main_arg1 _ = _
  rw [V_main_arg1]
  refine congrArg (m ((c : Thread nD τ).loc main_arg1)) (funext fun d => Fin.ext ?_)
  match d with
  | ⟨0, _⟩ => show win0_1.index t (0 : Fin 2) * 272 + 1 * a.val = a.val; rw [e2]; omega
  | ⟨1, _⟩ => show win0_1.index t (1 : Fin 2) * 128 + 1 * k.val = k.val; rw [e3]; omega

/-- The input tile at point `t`, row `r`: row `512·t + r` of the padded input — the row the output tile's row `r` lands on. -/
theorem iblk0_apply (c : Dev nD) (t : Fin cfg0.N) (r : Fin 512) (l : Fin 128) (i : Fin 8) :
    (iblk (F := Ideal) m c 0 t : Vec Ideal S512x8 .f32) (ix2 r i)
      = (V (F := Ideal) m c main_v2 : S1048576x8.Idx → EReal) (ix2 ((((cfg0.win 2).blk t).view.emb (ix2 r l) : S1048576x128.Idx) 0) i) := by
  obtain ⟨e0, e1, -, -, e4, e5⟩ := idx_facts t
  unfold iblk
  rw [View.read_apply, cast_eq]
  refine congrArg (V m c main_v2) (funext fun d => Fin.ext ?_)
  match d with
  | ⟨0, _⟩ => show win0_0.index t (0 : Fin 2) * 512 + 1 * r.val = win0_2.index t (0 : Fin 2) * 512 + 1 * r.val; rw [e0, e4]
  | ⟨1, _⟩ => show win0_0.index t (1 : Fin 2) * 8 + 1 * i.val = i.val; rw [e1]; omega

/-- Over variable blocks that hold the matching rows of a padded input `XP` and a slab `A`: what the body leaves, cut
    to the block, is block `t` of the output array function. -/
theorem flushed_gen (t : Fin cfg0.N) (x0 : Vec Ideal S512x8 .f32) (x1 : Vec Ideal S272x128 .f32)
    (XP : S1048576x8.Idx → EReal) (A : S272x128.Idx → EReal)
    (h0 : ∀ (r : Fin 512) (l : Fin 128) (i : Fin 8),
      x0 (ix2 r i) = XP (ix2 ((((cfg0.win 2).blk t).view.emb (ix2 r l) : S1048576x128.Idx) 0) i))
    (h1 : ∀ (a : Fin 272) (k : Fin 128), x1 (ix2 a k) = A (ix2 a k)) :
    (cfg0.win 2).cut (grid0.coords t) (out0_2 (F := Ideal) x0 x1)
      = ((cfg0.win 2).blk t).view.read (Elt Ideal) (GoutOf XP A) := by
  obtain ⟨-, -, -, -, -, e5⟩ := idx_facts t
  funext y
  obtain ⟨r, l, rfl⟩ : ∃ (r : Fin 512) (l : Fin 128), y = ix2 r l := ⟨y 0, y 1, eq_ix2 y⟩
  rw [View.read_apply, cast_eq]
  show (out0_2 (F := Ideal) x0 x1 : S512x128.Idx → EReal) (ix2 r l) = GoutOf XP A (((cfg0.win 2).blk t).view.emb (ix2 r l))
  rw [out_apply]
  unfold GoutOf rowNetOf
  refine congr (congr (congrArg netWide (funext fun i => h0 r l i)) (funext fun a => funext fun k => h1 a k)) (Fin.ext ?_)
  show l.val = win0_2.index t (1 : Fin 2) * 128 + 1 * l.val
  rw [e5]; omega

/-- WHAT POINT `t` WRITES BACK is block `t` of the output array function. -/
theorem flushed_eq (c : Dev nD) (t : Fin cfg0.N) :
    (dats m 0 c).flushed 2 t = ((cfg0.win 2).blk t).view.read (Elt Ideal) (Gout m c) := by
  show (cfg0.win 2).cut (grid0.coords t) ((dats m 0 c).after 2 t) = _
  rw [after0_2]
  exact flushed_gen t (iblk m c 0 t) (iblk m c 1 t) (V m c main_v2) (slab m c)
    (fun r l i => iblk0_apply m c t r l i) (fun a k => iblk1_apply m c t a k)

/-- An index of the array is in point `t`'s block iff each coordinate is in the block's range on its axis. -/
theorem mem_blk (t : Fin cfg0.N) (i : S1048576x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v3).slice (win0_2.rect t)).set ↔ _
  rw [View.set_slice_whole, Rect.mem_set_unit]
  exact Iff.rfl

/-- The 2048 row blocks tile the array: row `b` is in block `b / 512`. -/
theorem cover (i : S1048576x128.Idx) : ∃ t : Fin cfg0.N, (cfg0.win 2).flush t = true ∧ i ∈ ((cfg0.win 2).blk t).view.set := by
  have hi0 : (i 0).val < 1048576 := (i 0).isLt
  have hi1 : (i 1).val < 128 := (i 1).isLt
  have hN : cfg0.N = 2048 := N_0
  let t : Fin cfg0.N := ⟨(i 0).val / 512, by rw [hN]; omega⟩
  obtain ⟨-, -, -, -, e4, e5⟩ := idx_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    rw [e4]; show (i 0).val / 512 * 512 ≤ (i 0).val ∧ (i 0).val < (i 0).val / 512 * 512 + 512; omega
  | ⟨1, _⟩ =>
    show win0_2.index t (1 : Fin 2) * 128 ≤ (i 1).val ∧ (i 1).val < win0_2.index t (1 : Fin 2) * 128 + 128
    rw [e5]; omega

/-- THE OUTPUT ARRAY after the run. -/
theorem final (c : Dev nD) : (dats m 0 c).arrAt 2 cfg0.N = Gout m c :=
  (dats m 0 c).arrAt_eq_of_cover 2 (Gout m c) (fun t _ => flushed_eq m c t) cover

end Cert.ReferenceIdeal.Val

end
-- ==== Proof.RefTail.lean ====
/-
  The reference program's result after its region: the one host operation after the region keeps the first two columns
  of the region's output array.
-/
import proofs.«108916_g2000504823889788_pallasbulk_511_31_alg».proof.Proof.Gen.ReferenceIdeal.Frame
import Idealize.ShloMosaic.Lib.ValueIdx
import Idealize.ShloMosaic.Lib.Pipeline.Value
import Idealize.ShloMosaic.Lib.StableHlo.Run
import Idealize.ShloMosaic.Lib.Tactic

noncomputable section

namespace Cert.ReferenceIdeal.Tail

open Idealize.ShloMosaic Idealize.ShloMosaic.TcCoe Idealize.ShloMosaic.ValueIdx Idealize.SL.Sem Cert.ReferenceIdeal Cert.ReferenceIdeal.Gen
open Idealize.ShloMosaic.Pipeline (Dat)

variable (m : (ℓ : Loc nD τ sig) → Buf (Elt Ideal) ℓ) (c : Dev nD)

/-- The result: entry `(i, k)`, `k < 2`, is entry `(i, k)` of the region's output array as it stands after the last grid point. -/
theorem tail_eq (G : S1048576x128.Idx → EReal) (hfinal : (dats (F := Ideal) m 0 c).arrAt 2 cfg0.N = G) :
    (Pipeline.afterTail₀ cfgs (dats (F := Ideal) m) 0 (V0 m) [hostOps1] c main_v4 : S1048576x2.Idx → EReal)
      = fun j => G (ix2 (j 0) (Fin.castLE (by decide) (j 1 : Fin 2))) := by
  unfold Pipeline.afterTail₀
  show StableHlo.after hostOps1 _ (Proc.devRef .tc main_v4) = _
  after_results
  rw [(Pipeline.withArrays_arr spec0 launch0.win.arr_inj c _ _ 2).trans hfinal]
  funext j
  refine extractStridedSlice_apply _ G _ j _ ?_
  intro a
  match a with
  | ⟨0, _⟩ => show (j 0).val = 0 + (j 0).val; omega
  | ⟨1, _⟩ => show (j 1).val = 0 + (j 1).val; omega

end Cert.ReferenceIdeal.Tail

end
-- ==== Proof.Result.lean ====
/-
  The common result of the two programs: for batch row `b` and output channel `o` (0 or 1), the three-layer
  network over the row's five features padded with three zeros, the parameter slab, and lane `o`, contracting
  over the 32 real hidden units.
-/
import proofs.«108916_g2000504823889788_pallasbulk_511_31_alg».proof.Proof.Spec
import Idealize.ShloMosaic.Lib.ValueIdx

noncomputable section

namespace Cert.Spec

open Idealize.ShloMosaic Idealize.ShloMosaic.ValueIdx

/-- A batch row of the 1048576 × 5 input, padded with zeros to 8 features. -/
def padRow (X : (⟨2, ![1048576, 5]⟩ : Shape).Idx → EReal) (b : Fin 1048576) : Fin 8 → EReal :=
  fun i => if h : i.val < 5 then X (ix2 b (⟨i.val, h⟩ : Fin 5)) else 0

/-- The network at batch row `b`, lane `l`, over the input and the slab. -/
def rowResult (X : (⟨2, ![1048576, 5]⟩ : Shape).Idx → EReal) (A : (⟨2, ![272, 128]⟩ : Shape).Idx → EReal)
    (b : Fin 1048576) (l : Fin 128) : EReal :=
  netNarrow (padRow X b) (fun a k => A (ix2 a k)) l

/-- The 1048576 × 2 result both programs end with. -/
def result (X : (⟨2, ![1048576, 5]⟩ : Shape).Idx → EReal) (A : (⟨2, ![272, 128]⟩ : Shape).Idx → EReal) :
    (⟨2, ![1048576, 2]⟩ : Shape).Idx → EReal :=
  fun j => rowResult X A (j 0) (Fin.castLE (by decide) (j 1 : Fin 2))

end Cert.Spec

end
-- ==== Proof.RefAlg.lean ====
/-
  The reference's network over its padded input, and its agreement with the common result.

  The reference contracts over all 128 padded hidden units, on a batch row padded from five features to eight.  The
  slab's rows that belong to padded hidden units are zero, so the wide contractions are the narrow ones; and the padded
  row is the batch row's five features followed by zeros, which is the common result's input.
-/
import proofs.«108916_g2000504823889788_pallasbulk_511_31_alg».proof.Proof.Result
import Idealize.ShloMosaic.Lib.ValueIdx

noncomputable section

namespace Cert.Spec

open Idealize.ShloMosaic Idealize.ShloMosaic.ValueIdx

/-- With the padded hidden units' slab rows zero and the padded input holding the batch rows then zeros, the wide network is the common result. -/
theorem wideNet_eq (XP : (⟨2, ![1048576, 8]⟩ : Shape).Idx → EReal) (X : (⟨2, ![1048576, 5]⟩ : Shape).Idx → EReal)
    (A : (⟨2, ![272, 128]⟩ : Shape).Idx → EReal)
    (hz2 : ∀ (r : Fin 272) (k : Fin 128), 40 ≤ r.val → r.val < 136 → A (ix2 r k) = 0)
    (hz3 : ∀ (r : Fin 272) (k : Fin 128), 168 ≤ r.val → r.val < 264 → A (ix2 r k) = 0)
    (hx_real : ∀ (b : Fin 1048576) (i : Fin 5), XP (ix2 b (⟨i.val, by omega⟩ : Fin 8)) = X (ix2 b i))
    (hx_pad : ∀ (b : Fin 1048576) (i : Fin 8), 5 ≤ i.val → XP (ix2 b i) = 0)
    (b : Fin 1048576) (l : Fin 128) :
    netWide (fun i : Fin 8 => XP (ix2 b i)) (fun a k => A (ix2 a k)) l = rowResult X A b l := by
  -- the padded row is the batch row's features, then zeros
  have hrow : (fun i : Fin 8 => XP (ix2 b i)) = padRow X b := by
    funext i
    unfold padRow
    by_cases h : i.val < 5
    · rw [dif_pos h]
      exact hx_real b ⟨i.val, h⟩
    · rw [dif_neg h]
      exact hx_pad b i (by omega)
  rw [netWide_eq_netNarrow _ _ _ (fun r k => hz2 r k) (fun r k => hz3 r k)]
  unfold rowResult
  exact congrArg (fun f => netNarrow f (fun a k => A (ix2 a k)) l) hrow

end Cert.Spec

end
-- ==== Proof.RefRun.lean ====
/-
  The reference program's run, read: from any memory whose parameter slab has zero rows for the padded hidden
  units, every weakly fair execution terminates with the result buffer at the common result function of the two
  argument arrays, and the arguments unchanged.

  The kernel's output array is the wide network row by row (the blocks-to-array argument), the host slice keeps
  lanes 0 and 1, and under the zero rows the wide network is the narrow one over the row's five features padded
  with zeros.
-/
import proofs.«108916_g2000504823889788_pallasbulk_511_31_alg».proof.Proof.RefValue
import proofs.«108916_g2000504823889788_pallasbulk_511_31_alg».proof.Proof.RefTail
import proofs.«108916_g2000504823889788_pallasbulk_511_31_alg».proof.Proof.RefAlg

noncomputable section

namespace Cert.ReferenceIdeal.Val

open Idealize.ShloMosaic Idealize.ShloMosaic.TcCoe Idealize.ShloMosaic.ValueIdx Idealize.SL.Sem
open Idealize.ShloMosaic.Pipeline (Dat)
open Cert.ReferenceIdeal Cert.ReferenceIdeal.Gen Cert.Spec

variable (m : (ℓ : Loc nD τ sig) → Buf (Elt Ideal) ℓ) (ρ : Dev nD → PrngReg)

/-- The result buffer after the host's slice, under the zero rows: the common result. -/
theorem result_eq (c : Dev nD)
    (hz2 : ∀ (r : Fin 272) (k : Fin 128), 40 ≤ r.val → r.val < 136 → @Eq EReal (slab m c (ix2 r k)) 0)
    (hz3 : ∀ (r : Fin 272) (k : Fin 128), 168 ≤ r.val → r.val < 264 → @Eq EReal (slab m c (ix2 r k)) 0) :
    (Pipeline.afterTail₀ cfgs (dats (F := Ideal) m) 0 (V0 m) [hostOps1] c main_v4 : S1048576x2.Idx → EReal)
      = result (m ((c : Thread nD τ).loc main_arg0)) (m ((c : Thread nD τ).loc main_arg1)) := by
  rw [Tail.tail_eq m c (Gout m c) (final m c)]
  funext j
  unfold Gout GoutOf rowNetOf result
  exact wideNet_eq _ _ _ hz2 hz3 (fun b i => HostIn.xp_real m c b i) (fun b i hi => HostIn.xp_pad m c b i hi) _ _

/-- THE RUN. -/
theorem run
    (hz2 : ∀ (c : Dev nD) (r : Fin 272) (k : Fin 128), 40 ≤ r.val → r.val < 136 → @Eq EReal (slab m c (ix2 r k)) 0)
    (hz3 : ∀ (c : Dev nD) (r : Fin 272) (k : Fin 128), 168 ≤ r.val → r.val < 264 → @Eq EReal (slab m c (ix2 r k)) 0) :
    θ_run defs (onTc (τ := τ) (main (F := Ideal))) ⟨m, fun _ => 0, ρ⟩ (fun r => ∀ c : Dev nD,
      r.2.mem ((c.tc : Thread nD τ).loc main_v4) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (result_eq m c (hz2 c) (hz3 c)),
     ((h c).2 main_arg0 (Pipeline.mem_restRefs_of main_arg0 (by decide) (by decide))).trans (W_main_arg0 m (dats m) c),
     ((h c).1 1).trans ((((dats m) 0 c).arrAt_in 1 rfl _).trans ((A_eq m c 1).trans (V_main_arg1 m c)))⟩)
    (run_main m ρ)

end Cert.ReferenceIdeal.Val

end
-- ==== Proof.KerBody.lean ====
/-
  The kernel body's stored value, read at one element, on the extended reals.

  The body computes a three-layer network on a block of batch columns: each layer is a matrix product of a
  weight block (on the left) with the activations (on the right) into a zero accumulator, plus a bias column
  broadcast along the lanes; after the first two layers a maximum with zero; of the third product only the
  first 8 of 16 rows are kept; then `tanh` and a product with the constant 10.  The format changes are the
  identity on extended reals.  Read at row `j` and column `b`, every matrix product is a finite sum over its
  one contracted axis, and the whole value is the three nested dense units of the specification at column `b`.
  The specification multiplies activation by weight, the matrix products weight by activation: multiplication
  of extended reals commutes, and the three product lemmas below are stated activation first.
-/
import proofs.«108916_g2000504823889788_pallasbulk_511_31_alg».proof.Proof.Gen.KernelIdeal.Skeleton
import proofs.«108916_g2000504823889788_pallasbulk_511_31_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.Spec

/-- The first product at an element: weights [32, 8] times activations [8, N] into zero is the sum over the 8 inputs
    (written activation first: multiplication of extended reals commutes). -/
theorem mm1 (lhs : FVec Ideal S32x8 .bf16) (rhs : FVec Ideal S8x131072 .bf16) (k : Fin 32) (b : Fin 131072) :
    matmul dot_S32x8_S8x131072_S32x131072_1_0_0_1_n_n none lhs rhs (constant S32x131072 .f32 0x00000000#32) (ix2 k b)
      = ∑ i : Fin 8, rhs (ix2 i b) * lhs (ix2 k i) := by
  refine (Ideal.matmul_constant_zero_apply dot_S32x8_S8x131072_S32x131072_1_0_0_1_n_n none lhs rhs (ix2 k b)).trans ?_
  refine Fintype.sum_equiv (contrEquiv1 dot_S32x8_S8x131072_S32x131072_1_0_0_1_n_n 8 rfl rfl) _ _ (fun q => ?_)
  have hl : dot_S32x8_S8x131072_S32x131072_1_0_0_1_n_n.lhsIdx (ix2 k b) q = ix2 k (contrEquiv1 dot_S32x8_S8x131072_S32x131072_1_0_0_1_n_n 8 rfl rfl q) := by
    funext a; apply Fin.ext
    match a with
    | ⟨0, _⟩ => rfl
    | ⟨1, _⟩ => rfl
  have hr : dot_S32x8_S8x131072_S32x131072_1_0_0_1_n_n.rhsIdx (ix2 k b) q = ix2 (contrEquiv1 dot_S32x8_S8x131072_S32x131072_1_0_0_1_n_n 8 rfl rfl q) b := by
    funext a; apply Fin.ext
    match a with
    | ⟨0, _⟩ => rfl
    | ⟨1, _⟩ => rfl
  rw [hl, hr]
  exact mul_comm _ _

/-- The second product at an element: weights [32, 32] times activations [32, N] into zero, a sum over the 32 hidden units. -/
theorem mm2 (lhs : FVec Ideal S32x32 .bf16) (rhs : FVec Ideal S32x131072 .bf16) (k : Fin 32) (b : Fin 131072) :
    matmul dot_S32x32_S32x131072_S32x131072_1_0_0_1_n_n none lhs rhs (constant S32x131072 .f32 0x00000000#32) (ix2 k b)
      = ∑ i : Fin 32, rhs (ix2 i b) * lhs (ix2 k i) := by
  refine (Ideal.matmul_constant_zero_apply dot_S32x32_S32x131072_S32x131072_1_0_0_1_n_n none lhs rhs (ix2 k b)).trans ?_
  refine Fintype.sum_equiv (contrEquiv1 dot_S32x32_S32x131072_S32x131072_1_0_0_1_n_n 32 rfl rfl) _ _ (fun q => ?_)
  have hl : dot_S32x32_S32x131072_S32x131072_1_0_0_1_n_n.lhsIdx (ix2 k b) q = ix2 k (contrEquiv1 dot_S32x32_S32x131072_S32x131072_1_0_0_1_n_n 32 rfl rfl q) := by
    funext a; apply Fin.ext
    match a with
    | ⟨0, _⟩ => rfl
    | ⟨1, _⟩ => rfl
  have hr : dot_S32x32_S32x131072_S32x131072_1_0_0_1_n_n.rhsIdx (ix2 k b) q = ix2 (contrEquiv1 dot_S32x32_S32x131072_S32x131072_1_0_0_1_n_n 32 rfl rfl q) b := by
    funext a; apply Fin.ext
    match a with
    | ⟨0, _⟩ => rfl
    | ⟨1, _⟩ => rfl
  rw [hl, hr]
  exact mul_comm _ _

/-- The third product at an element: weights [16, 32] times activations [32, N] into zero, a sum over the 32 hidden units. -/
theorem mm3 (lhs : FVec Ideal S16x32 .bf16) (rhs : FVec Ideal S32x131072 .bf16) (k : Fin 16) (b : Fin 131072) :
    matmul dot_S16x32_S32x131072_S16x131072_1_0_0_1_n_n none lhs rhs (constant S16x131072 .f32 0x00000000#32) (ix2 k b)
      = ∑ i : Fin 32, rhs (ix2 i b) * lhs (ix2 k i) := by
  refine (Ideal.matmul_constant_zero_apply dot_S16x32_S32x131072_S16x131072_1_0_0_1_n_n none lhs rhs (ix2 k b)).trans ?_
  refine Fintype.sum_equiv (contrEquiv1 dot_S16x32_S32x131072_S16x131072_1_0_0_1_n_n 32 rfl rfl) _ _ (fun q => ?_)
  have hl : dot_S16x32_S32x131072_S16x131072_1_0_0_1_n_n.lhsIdx (ix2 k b) q = ix2 k (contrEquiv1 dot_S16x32_S32x131072_S16x131072_1_0_0_1_n_n 32 rfl rfl q) := by
    funext a; apply Fin.ext
    match a with
    | ⟨0, _⟩ => rfl
    | ⟨1, _⟩ => rfl
  have hr : dot_S16x32_S32x131072_S16x131072_1_0_0_1_n_n.rhsIdx (ix2 k b) q = ix2 (contrEquiv1 dot_S16x32_S32x131072_S16x131072_1_0_0_1_n_n 32 rfl rfl q) b := by
    funext a; apply Fin.ext
    match a with
    | ⟨0, _⟩ => rfl
    | ⟨1, _⟩ => rfl
  rw [hl, hr]
  exact mul_comm _ _

/-- A bias column [32, 1] broadcast along the lanes, read at (k, b), is the column's row k. -/
theorem bcol32 (v : FVec Ideal S32x1 .f32) (h : S32x1.Broadcasts S32x131072) (k : Fin 32) (b : Fin 131072) :
    broadcastTo S32x131072 v h (ix2 k b) = v (ix2 k 0) := by
  refine broadcastTo_apply v h (ix2 k b) (ix2 k 0) (fun a => ?_)
  match a with
  | ⟨0, _⟩ => rfl
  | ⟨1, _⟩ => rfl

/-- A bias column [8, 1] broadcast along the lanes, read at (j, b), is the column's row j. -/
theorem bcol8 (v : FVec Ideal S8x1 .f32) (h : S8x1.Broadcasts S8x131072) (j : Fin 8) (b : Fin 131072) :
    broadcastTo S8x131072 v h (ix2 j b) = v (ix2 j 0) := by
  refine broadcastTo_apply v h (ix2 j b) (ix2 j 0) (fun a => ?_)
  match a with
  | ⟨0, _⟩ => rfl
  | ⟨1, _⟩ => rfl

/-- The first 8 of 16 rows, read at (j, b), is the operand at the same row and column. -/
theorem slice_rows (x : FVec Ideal S16x131072 .f32) (h : S16x131072.Slices ![0, 0] S8x131072) (j : Fin 8) (b : Fin 131072) :
    extractStridedSlice S8x131072 ![0, 0] x h (ix2 j b) = x (ix2 (⟨j.val, by omega⟩ : Fin 16) b) := by
  refine extractStridedSlice_apply ![0, 0] x h (ix2 j b) (ix2 (⟨j.val, by omega⟩ : Fin 16) b) (fun a => ?_)
  match a with
  | ⟨0, _⟩ => show j.val = 0 + j.val; omega
  | ⟨1, _⟩ => show b.val = 0 + b.val; omega

/-- The hyperbolic tangent of a vector at an index is the extended reals' of the element. -/
theorem tanh_apply {s : Shape} (x : FVec Ideal s .f32) (i : s.Idx) : tanh x i = Ideal.tanh (x i) := rfl

/-- The bf16 zero word a maximum is taken with is the extended real zero. -/
theorem zero_bf16 : (Scalar.ofBits (F := Ideal) .bf16 0x0000#16 : EReal) = 0 := ofBits_zero_bf16

/-- A scalar f32 constant is the extended real its word encodes. -/
theorem scalar_f32 (w : BitVec 32) : (Scalar.ofBits (F := Ideal) .f32 w : EReal) = Ideal.ofBits .f32 w := rfl

/-- THE BODY'S STORED VALUE AT AN ELEMENT: row `j`, column `b` is the network's output unit `j` on batch column `b`. -/
theorem pay_apply (v0 : Vec Ideal S8x131072 .bf16) (v2 : Vec Ideal S32x8 .bf16) (v4 : Vec Ideal S32x32 .bf16)
    (v6 : Vec Ideal S16x32 .bf16) (v8 v10 : Vec Ideal S32x1 .f32) (v12 : Vec Ideal S8x1 .f32) (j : Fin 8) (b : Fin 131072) :
    (k0_pay1 (F := Ideal) v0 v2 v4 v6 v8 v10 v12 : S8x131072.Idx → EReal) (ix2 j b)
      = act (unit (fun k : Fin 32 =>
                max (unit (fun k' : Fin 32 =>
                      max (unit (fun i : Fin 8 => v0 (ix2 i b)) (fun i => v2 (ix2 k' i)) (v8 (ix2 k' 0))) 0)
                    (fun k' => v4 (ix2 k k')) (v10 (ix2 k 0))) 0)
              (fun k => v6 (ix2 (⟨j.val, by omega⟩ : Fin 16) k)) (v12 (ix2 j 0))) := by
  unfold k0_pay1
  simp only [truncf_apply, mulf_apply, tanh_apply, broadcast_apply, addf_apply, maximumf_apply, shapeCast_self,
    slice_rows, bcol8, bcol32, mm1, mm2, mm3, zero_bf16, scalar_f32]
  rfl

end Cert.KernelIdeal.Body

end
-- ==== Proof.KerOut.lean ====
/-
  What the kernel's body leaves in its output tile, over variable input blocks.

  The body stores one value, through the whole tile, so the tile ends holding that value.  The value is the
  network of the body read at an element; its operands are loads of rectangles of the three input blocks: the
  whole 8 × N block of batch columns; from the 80 × 128 weight block the rectangles 32 × 8 at row 0, 32 × 32 at
  row 32 and 16 × 32 at row 64; from the 32 × 128 bias block the columns 0, 1 and 2 (32, 32 and 8 rows).  A load of
  a rectangle at an index reads the block at the rectangle's offset plus the index, coordinate by coordinate.
-/
import proofs.«108916_g2000504823889788_pallasbulk_511_31_alg».proof.Proof.Gen.KernelIdeal.Frame
import proofs.«108916_g2000504823889788_pallasbulk_511_31_alg».proof.Proof.KerBody
import Idealize.ShloMosaic.Lib.Pipeline.Value
import Idealize.ShloMosaic.Lib.ValueIdx

noncomputable section

namespace Cert.KernelIdeal.Out

open Idealize.ShloMosaic Idealize.ShloMosaic.TcCoe Idealize.ShloMosaic.ValueIdx Idealize.SL.Sem
open Cert.KernelIdeal Cert.KernelIdeal.Gen Cert.Spec

/-- The zero offset of a whole-block rectangle. -/
theorem hz : (![0, 0] : Fin 2 → Nat) = fun _ => 0 := funext fun a => by fin_cases a <;> rfl

/-! ## The loads of the body, over variable blocks -/

/-- The first layer's weights: entry (k', i) of the 32 × 8 rectangle at row 0 of the weight block. -/
theorem ld_w1 (x1 : Vec Ideal S80x128 .bf16) (k' : Fin 32) (i : Fin 8) :
    View.ld x1 r0_1 (ix2 k' i) = x1 (ix2 (⟨k'.val, by omega⟩ : Fin 80) (⟨i.val, by omega⟩ : Fin 128)) := by
  show x1 (r0_1.idx (ix2 k' i)) = _
  refine congrArg x1 (funext fun a => Fin.ext ?_)
  match a with
  | ⟨0, _⟩ => show 0 + 1 * k'.val = k'.val; omega
  | ⟨1, _⟩ => show 0 + 1 * i.val = i.val; omega

/-- The second layer's weights: entry (k, k') of the 32 × 32 rectangle at row 32 of the weight block. -/
theorem ld_w2 (x1 : Vec Ideal S80x128 .bf16) (k k' : Fin 32) :
    View.ld x1 r0_2 (ix2 k k') = x1 (ix2 (⟨32 + k.val, by omega⟩ : Fin 80) (⟨k'.val, by omega⟩ : Fin 128)) := by
  show x1 (r0_2.idx (ix2 k k')) = _
  refine congrArg x1 (funext fun a => Fin.ext ?_)
  match a with
  | ⟨0, _⟩ => show 32 + 1 * k.val = 32 + k.val; omega
  | ⟨1, _⟩ => show 0 + 1 * k'.val = k'.val; omega

/-- The third layer's weights: entry (j, k), j among the first 8 rows, of the 16 × 32 rectangle at row 64 of the weight block. -/
theorem ld_w3 (x1 : Vec Ideal S80x128 .bf16) (j : Fin 8) (k : Fin 32) :
    View.ld x1 r0_3 (ix2 (⟨j.val, by omega⟩ : Fin 16) k) = x1 (ix2 (⟨64 + j.val, by omega⟩ : Fin 80) (⟨k.val, by omega⟩ : Fin 128)) := by
  show x1 (r0_3.idx (ix2 (⟨j.val, by omega⟩ : Fin 16) k)) = _
  refine congrArg x1 (funext fun a => Fin.ext ?_)
  match a with
  | ⟨0, _⟩ => show 64 + 1 * j.val = 64 + j.val; omega
  | ⟨1, _⟩ => show 0 + 1 * k.val = k.val; omega

/-- The first layer's biases: row k' of column 0 of the bias block. -/
theorem ld_b1 (x2 : Vec Ideal S32x128 .f32) (k' : Fin 32) :
    View.ld x2 r0_4 (ix2 k' (0 : Fin 1)) = x2 (ix2 k' (⟨0, by decide⟩ : Fin 128)) := by
  show x2 (r0_4.idx (ix2 k' (0 : Fin 1))) = _
  refine congrArg x2 (funext fun a => Fin.ext ?_)
  match a with
  | ⟨0, _⟩ => show 0 + 1 * k'.val = k'.val; omega
  | ⟨1, _⟩ => show 0 + 1 * 0 = 0; omega

/-- The second layer's biases: row k of column 1 of the bias block. -/
theorem ld_b2 (x2 : Vec Ideal S32x128 .f32) (k : Fin 32) :
    View.ld x2 r0_5 (ix2 k (0 : Fin 1)) = x2 (ix2 k (⟨1, by decide⟩ : Fin 128)) := by
  show x2 (r0_5.idx (ix2 k (0 : Fin 1))) = _
  refine congrArg x2 (funext fun a => Fin.ext ?_)
  match a with
  | ⟨0, _⟩ => show 0 + 1 * k.val = k.val; omega
  | ⟨1, _⟩ => show 1 + 1 * 0 = 1; omega

/-- The third layer's biases: row j of column 2 of the bias block. -/
theorem ld_b3 (x2 : Vec Ideal S32x128 .f32) (j : Fin 8) :
    View.ld x2 r0_6 (ix2 j (0 : Fin 1)) = x2 (ix2 (⟨j.val, by omega⟩ : Fin 32) (⟨2, by decide⟩ : Fin 128)) := by
  show x2 (r0_6.idx (ix2 j (0 : Fin 1))) = _
  refine congrArg x2 (funext fun a => Fin.ext ?_)
  match a with
  | ⟨0, _⟩ => show 0 + 1 * j.val = j.val; omega
  | ⟨1, _⟩ => show 2 + 1 * 0 = 2; omega

/-- What the body leaves in the output tile at (j, b), over variable input blocks: output unit `j` of the network on the
    batch column `b` of the first block, with weights and biases read from the other two blocks. -/
theorem out_apply (x0 : Vec Ideal S8x131072 .bf16) (x1 : Vec Ideal S80x128 .bf16) (x2 : Vec Ideal S32x128 .f32)
    (j : Fin 8) (b : Fin 131072) :
    (out0_3 (F := Ideal) x0 x1 x2 : S8x131072.Idx → EReal) (ix2 j b)
      = act (unit (fun k : Fin 32 =>
                max (unit (fun k' : Fin 32 =>
                      max (unit (fun i : Fin 8 => x0 (ix2 i b))
                            (fun i => x1 (ix2 (⟨k'.val, by omega⟩ : Fin 80) (⟨i.val, by omega⟩ : Fin 128)))
                            (x2 (ix2 k' (⟨0, by decide⟩ : Fin 128)))) 0)
                    (fun k' => x1 (ix2 (⟨32 + k.val, by omega⟩ : Fin 80) (⟨k'.val, by omega⟩ : Fin 128)))
                    (x2 (ix2 k (⟨1, by decide⟩ : Fin 128)))) 0)
              (fun k => x1 (ix2 (⟨64 + j.val, by omega⟩ : Fin 80) (⟨k.val, by omega⟩ : Fin 128)))
              (x2 (ix2 (⟨j.val, by omega⟩ : Fin 32) (⟨2, by decide⟩ : Fin 128)))) := by
  unfold out0_3
  rw [View.canon_unit_zero hz]
  refine (Body.pay_apply _ _ _ _ _ _ _ j b).trans ?_
  exact congrArg act (unit_congr
    (fun k => congrArg (max · 0) (unit_congr
      (fun k' => congrArg (max · 0) (unit_congr
        (fun i => congrFun (View.ld_unit_zero (S := S8x131072) hz _ x0) (ix2 i b))
        (fun i => ld_w1 x1 k' i) (ld_b1 x2 k')))
      (fun k' => ld_w2 x1 k k') (ld_b2 x2 k)))
    (fun k => ld_w3 x1 j k) (ld_b3 x2 j))

end Cert.KernelIdeal.Out

end
-- ==== Proof.KerValue.lean ====
/-
  The kernel program's output array after the run, as one function of the arrays the region finds.

  The grid has 8 points.  Point `t` reads columns 131072·t … 131072·t + 131071 of the 8 × 1048576 input slab, the
  whole 80 × 128 weight slab and the whole 32 × 128 bias slab, and writes columns 131072·t … 131072·t + 131071 of
  the 8 × 1048576 output array.  Each written column is the three-layer network of that batch column; the 8 column
  blocks tile the array, so the array ends holding the network column by column.

  Every fact about blocks is proved first over VARIABLE arrays; the arrays the region finds (the results of the
  host operations before it) are substituted last, as opaque values, so that they are never computed with.
-/
import proofs.«108916_g2000504823889788_pallasbulk_511_31_alg».proof.Proof.Gen.KernelIdeal.Frame
import proofs.«108916_g2000504823889788_pallasbulk_511_31_alg».proof.Proof.KerOut
import Idealize.ShloMosaic.Lib.Pipeline.Value
import Idealize.ShloMosaic.Lib.ValueIdx
import Idealize.ShloMosaic.Lib.Tactic

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Spec

/-! ## The grid -/

/-- The printed index maps over the 8 points: the input slab's and the output array's block is block `t` along the
    batch axis; the weight slab and the bias slab are each their one block. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The network at output unit `j` and batch column `b`, over an input slab, a weight slab and a bias slab. -/
def colNet (XT : S8x1048576.Idx → EReal) (WT : S80x128.Idx → EReal) (BS : S32x128.Idx → EReal)
    (j : Fin 8) (b : Fin 1048576) : EReal :=
  act (unit (fun k : Fin 32 =>
        max (unit (fun k' : Fin 32 =>
              max (unit (fun i : Fin 8 => XT (ix2 i b))
                    (fun i => WT (ix2 (⟨k'.val, by omega⟩ : Fin 80) (⟨i.val, by omega⟩ : Fin 128)))
                    (BS (ix2 k' (⟨0, by decide⟩ : Fin 128)))) 0)
            (fun k' => WT (ix2 (⟨32 + k.val, by omega⟩ : Fin 80) (⟨k'.val, by omega⟩ : Fin 128)))
            (BS (ix2 k (⟨1, by decide⟩ : Fin 128)))) 0)
      (fun k => WT (ix2 (⟨64 + j.val, by omega⟩ : Fin 80) (⟨k.val, by omega⟩ : Fin 128)))
      (BS (ix2 (⟨j.val, by omega⟩ : Fin 32) (⟨2, by decide⟩ : Fin 128))))

/-- Column `b` of point `t`'s block is column `131072·t + b` of the array. -/
def colOf (t : Fin cfg0.N) (b : Fin 131072) : Fin 1048576 :=
  ⟨t.val * 131072 + b.val, by have := t.isLt; have hN : cfg0.N = 8 := N_0; have := b.isLt; omega⟩

/-! ## The blocks, over variable arrays -/

/-- The input slab's block at point `t`: columns `131072·t …` of the slab. -/
theorem blk0_apply (A : S8x1048576.Idx → EReal) (t : Fin cfg0.N) (i : Fin 8) (b : Fin 131072) :
    (((cfg0.win 0).blk t).view.read (Elt Ideal) A : S8x131072.Idx → EReal) (ix2 i b) = A (ix2 i (colOf t b)) := by
  obtain ⟨e0, e1, -, -, -, -, -, -⟩ := idx_facts t
  show A (((cfg0.win 0).blk t).view.emb (ix2 i b)) = _
  refine congrArg A (funext fun a => Fin.ext ?_)
  match a with
  | ⟨0, _⟩ => show win0_0.index t (0 : Fin 2) * 8 + 1 * i.val = i.val; rw [e0]; omega
  | ⟨1, _⟩ => show win0_0.index t (1 : Fin 2) * 131072 + 1 * b.val = t.val * 131072 + b.val; rw [e1]; omega

/-- The weight slab's block at any point is the slab. -/
theorem blk1_apply (A : S80x128.Idx → EReal) (t : Fin cfg0.N) (r : Fin 80) (l : Fin 128) :
    (((cfg0.win 1).blk t).view.read (Elt Ideal) A : S80x128.Idx → EReal) (ix2 r l) = A (ix2 r l) := by
  obtain ⟨-, -, e2, e3, -, -, -, -⟩ := idx_facts t
  show A (((cfg0.win 1).blk t).view.emb (ix2 r l)) = _
  refine congrArg A (funext fun a => Fin.ext ?_)
  match a with
  | ⟨0, _⟩ => show win0_1.index t (0 : Fin 2) * 80 + 1 * r.val = r.val; rw [e2]; omega
  | ⟨1, _⟩ => show win0_1.index t (1 : Fin 2) * 128 + 1 * l.val = l.val; rw [e3]; omega

/-- The bias slab's block at any point is the slab. -/
theorem blk2_apply (A : S32x128.Idx → EReal) (t : Fin cfg0.N) (r : Fin 32) (l : Fin 128) :
    (((cfg0.win 2).blk t).view.read (Elt Ideal) A : S32x128.Idx → EReal) (ix2 r l) = A (ix2 r l) := by
  obtain ⟨-, -, -, -, e4, e5, -, -⟩ := idx_facts t
  show A (((cfg0.win 2).blk t).view.emb (ix2 r l)) = _
  refine congrArg A (funext fun a => Fin.ext ?_)
  match a with
  | ⟨0, _⟩ => show win0_2.index t (0 : Fin 2) * 32 + 1 * r.val = r.val; rw [e4]; omega
  | ⟨1, _⟩ => show win0_2.index t (1 : Fin 2) * 128 + 1 * l.val = l.val; rw [e5]; omega

/-! ## What a point writes back, over variable arrays -/

/-- What the body leaves at point `t`, read at (j, b), over variable arrays: the network at column `b` of the point's block. -/
theorem out_blk (A0 : S8x1048576.Idx → EReal) (A1 : S80x128.Idx → EReal) (A2 : S32x128.Idx → EReal)
    (t : Fin cfg0.N) (j : Fin 8) (b : Fin 131072) :
    (out0_3 (F := Ideal) (((cfg0.win 0).blk t).view.read (Elt Ideal) A0) (((cfg0.win 1).blk t).view.read (Elt Ideal) A1)
        (((cfg0.win 2).blk t).view.read (Elt Ideal) A2) : S8x131072.Idx → EReal) (ix2 j b)
      = colNet A0 A1 A2 j (colOf t b) := by
  refine (Out.out_apply _ _ _ j b).trans ?_
  unfold colNet
  exact congrArg act (unit_congr
    (fun k => congrArg (max · 0) (unit_congr
      (fun k' => congrArg (max · 0) (unit_congr (fun i => blk0_apply A0 t i b)
        (fun i => blk1_apply A1 t _ _) (blk2_apply A2 t _ _)))
      (fun k' => blk1_apply A1 t _ _) (blk2_apply A2 t _ _)))
    (fun k => blk1_apply A1 t _ _) (blk2_apply A2 t _ _))

/-- What point `t` writes back is block `t` of the network taken column by column, over variable arrays. -/
theorem flushed_gen (A0 : S8x1048576.Idx → EReal) (A1 : S80x128.Idx → EReal) (A2 : S32x128.Idx → EReal) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (fun i : S8x1048576.Idx => colNet A0 A1 A2 (i 0) (i 1)) := by
  funext y
  obtain ⟨j, b, rfl⟩ : ∃ (j : Fin 8) (b : Fin 131072), y = ix2 j b := ⟨y 0, y 1, eq_ix2 y⟩
  show (out0_3 (F := Ideal) (((cfg0.win 0).blk t).view.read (Elt Ideal) A0) (((cfg0.win 1).blk t).view.read (Elt Ideal) A1)
          (((cfg0.win 2).blk t).view.read (Elt Ideal) A2) : S8x131072.Idx → EReal) (ix2 j b)
      = colNet A0 A1 A2 ((((cfg0.win 3).blk t).view.emb (ix2 j b) : S8x1048576.Idx) 0) ((((cfg0.win 3).blk t).view.emb (ix2 j b) : S8x1048576.Idx) 1)
  refine (out_blk A0 A1 A2 t j b).trans ?_
  obtain ⟨-, -, -, -, -, -, e6, e7⟩ := idx_facts t
  refine congr (congrArg (colNet A0 A1 A2) (Fin.ext ?_)) (Fin.ext ?_)
  · show j.val = win0_3.index t (0 : Fin 2) * 8 + 1 * j.val
    rw [e6]; omega
  · show t.val * 131072 + b.val = win0_3.index t (1 : Fin 2) * 131072 + 1 * b.val
    rw [e7]; omega

/-! ## The arrays the region finds, substituted -/

variable (m : (ℓ : Loc nD τ sig) → Buf (Elt Ideal) ℓ)

/-- THE KERNEL'S WHOLE OUTPUT ARRAY: at (j, b) the network's output unit `j` on batch column `b`, over the input slab, the
    weight slab and the bias slab as the region finds them. -/
def Gker (c : Dev nD) : S8x1048576.Idx → EReal := fun i =>
  colNet (V (F := Ideal) m c main_v4) (V (F := Ideal) m c main_v26) (V (F := Ideal) m c main_v41) (i 0) (i 1)

/-- The windows' arrays are the three slabs (two spellings of one reference each). -/
theorem arr0 (c : Dev nD) : V (F := Ideal) m c (Pipeline.arrRef spec0 0) = V (F := Ideal) m c main_v4 := rfl
theorem arr1 (c : Dev nD) : V (F := Ideal) m c (Pipeline.arrRef spec0 1) = V (F := Ideal) m c main_v26 := rfl
theorem arr2 (c : Dev nD) : V (F := Ideal) m c (Pipeline.arrRef spec0 2) = V (F := Ideal) m c main_v41 := rfl

/-- WHAT POINT `t` WRITES BACK is block `t` of the output array function. -/
theorem flushed_eq (c : Dev nD) (t : Fin cfg0.N) :
    (dats (F := Ideal) m 0 c).flushed 3 t = ((cfg0.win 3).blk t).view.read (Elt Ideal) (Gker m c) := by
  show (cfg0.win 3).cut (grid0.coords t) ((dats m 0 c).after 3 t) = _
  rw [after0_3]
  unfold iblk Gker
  rw [arr0, arr1, arr2]
  generalize V (F := Ideal) m c main_v4 = A0
  generalize V (F := Ideal) m c main_v26 = A1
  generalize V (F := Ideal) m c main_v41 = A2
  exact flushed_gen A0 A1 A2 t

/-! ## The blocks tile the array -/

/-- An index of the array is in point `t`'s block iff each coordinate is in the block's range on its axis. -/
theorem mem_blk (t : Fin cfg0.N) (i : S8x1048576.Idx) :
    i ∈ ((cfg0.win 3).blk t).view.set ↔ ∀ a : Fin 2, win0_3.index t a * S8x131072.size a ≤ (i a).val ∧ (i a).val < win0_3.index t a * S8x131072.size a + S8x131072.size a := by
  show i ∈ ((View.whole main_v42).slice (win0_3.rect t)).set ↔ _
  rw [View.set_slice_whole, Rect.mem_set_unit]
  exact Iff.rfl

/-- The 8 column blocks tile the array: column `b` is in block `b / 131072`. -/
theorem cover (i : S8x1048576.Idx) : ∃ t : Fin cfg0.N, (cfg0.win 3).flush t = true ∧ i ∈ ((cfg0.win 3).blk t).view.set := by
  have hi0 : (i 0).val < 8 := (i 0).isLt
  have hi1 : (i 1).val < 1048576 := (i 1).isLt
  have hN : cfg0.N = 8 := N_0
  let t : Fin cfg0.N := ⟨(i 1).val / 131072, by rw [hN]; omega⟩
  obtain ⟨-, -, -, -, -, -, e6, e7⟩ := idx_facts t
  refine ⟨t, flush0_3 t, ?_⟩
  rw [mem_blk]
  intro a
  match a with
  | ⟨0, _⟩ =>
    show win0_3.index t (0 : Fin 2) * 8 ≤ (i 0).val ∧ (i 0).val < win0_3.index t (0 : Fin 2) * 8 + 8
    rw [e6]; omega
  | ⟨1, _⟩ =>
    show win0_3.index t (1 : Fin 2) * 131072 ≤ (i 1).val ∧ (i 1).val < win0_3.index t (1 : Fin 2) * 131072 + 131072
    rw [e7]; show (i 1).val / 131072 * 131072 ≤ (i 1).val ∧ (i 1).val < (i 1).val / 131072 * 131072 + 131072; omega

/-- THE OUTPUT ARRAY after the run. -/
theorem final (c : Dev nD) : (dats (F := Ideal) m 0 c).arrAt 3 cfg0.N = Gker m c :=
  (dats m 0 c).arrAt_eq_of_cover 3 (Gker m c) (fun t _ => flushed_eq m c t) cover

end Cert.KernelIdeal.Val

end
-- ==== Proof.KerTail.lean ====
/-
  The kernel program's result after its region: the three host operations after the region keep the first two rows of
  the region's output array, transpose them, and widen the float format (the identity on extended reals).
-/
import proofs.«108916_g2000504823889788_pallasbulk_511_31_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.Tail

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (c : Dev nD)

/-- The result: entry `(i, k)`, `k < 2`, is entry `(k, i)` of the region's output array as it stands after the last grid point. -/
theorem tail_eq (G : S8x1048576.Idx → EReal) (hfinal : (dats (F := Ideal) m 0 c).arrAt 3 cfg0.N = G) :
    (Pipeline.afterTail₀ cfgs (dats (F := Ideal) m) 0 (V0 m) [hostOps1] c main_v45 : S1048576x2.Idx → EReal)
      = fun j => G (ix2 (Fin.castLE (by decide) (j 1 : Fin 2)) (j 0)) := by
  unfold Pipeline.afterTail₀
  show StableHlo.after hostOps1 _ (Proc.devRef .tc main_v45) = _
  after_results
  rw [(Pipeline.withArrays_arr spec0 launch0.win.arr_inj c _ _ 3).trans hfinal]
  funext j
  -- the widening is the identity
  refine (extf_apply (φ := .bf16) (ψ := .f32) _ bitsLt_bf16_f32 j).trans ?_
  -- the transpose reads the slice at the swapped index
  refine (transpose_apply [1, 0] _ transposes_S2x1048576_S1048576x2_1_0 j (ix2 (j 1 : Fin 2) (j 0)) ?_).trans ?_
  · intro b
    match b with
    | ⟨0, _⟩ => rfl
    | ⟨1, _⟩ => rfl
  -- the slice starts at the origin
  · refine extractStridedSlice_apply _ G _ (ix2 (j 1 : Fin 2) (j 0)) _ ?_
    intro a
    match a with
    | ⟨0, _⟩ => show (j 1).val = 0 + (j 1).val; omega
    | ⟨1, _⟩ => show (j 0).val = 0 + (j 0).val; omega

end Cert.KernelIdeal.Tail

end
-- ==== Proof.KerAlg.lean ====
/-
  The kernel's network over its three slabs, and its agreement with the common result.

  The kernel reads a feature-major input slab (8 × 1048576: the five features of every batch row, then three zero rows),
  a slab of transposed weights (80 × 128: rows 0–31 the first layer, rows 32–63 the second, rows 64–71 the third, each
  row the weights INTO one unit) and a bias slab (32 × 128: columns 0, 1, 2 the three biases).  When the slabs hold the
  input and the packed parameters in that layout, the kernel's three layers are, unit by unit, those of the common
  result: the same activations, the same weights, the same bias.
-/
import proofs.«108916_g2000504823889788_pallasbulk_511_31_alg».proof.Proof.Result
import Idealize.ShloMosaic.Lib.ValueIdx

noncomputable section

namespace Cert.Spec

open Idealize.ShloMosaic Idealize.ShloMosaic.ValueIdx

/-- The kernel's network at output row `j`, batch column `b`, over its three slabs. -/
def kerNet (XT : (⟨2, ![8, 1048576]⟩ : Shape).Idx → EReal) (WT : (⟨2, ![80, 128]⟩ : Shape).Idx → EReal)
    (BS : (⟨2, ![32, 128]⟩ : Shape).Idx → EReal) (j : Fin 8) (b : Fin 1048576) : EReal :=
  act (unit (fun k : Fin 32 => max (unit (fun k' : Fin 32 => max (unit (fun i : Fin 8 => XT (ix2 i b))
            (fun i => WT (ix2 (⟨k'.val, by omega⟩ : Fin 80) (⟨i.val, by omega⟩ : Fin 128)))
            (BS (ix2 k' (⟨0, by decide⟩ : Fin 128)))) 0)
        (fun k' => WT (ix2 (⟨32 + k.val, by omega⟩ : Fin 80) (⟨k'.val, by omega⟩ : Fin 128)))
        (BS (ix2 k (⟨1, by decide⟩ : Fin 128)))) 0)
      (fun k => WT (ix2 (⟨64 + j.val, by omega⟩ : Fin 80) (⟨k.val, by omega⟩ : Fin 128)))
      (BS (ix2 (⟨j.val, by omega⟩ : Fin 32) (⟨2, by decide⟩ : Fin 128))))

/-- With the slabs holding the input and the packed parameters in the kernel's layout, the kernel's network is the common result. -/
theorem kerNet_eq (XT : (⟨2, ![8, 1048576]⟩ : Shape).Idx → EReal) (WT : (⟨2, ![80, 128]⟩ : Shape).Idx → EReal)
    (BS : (⟨2, ![32, 128]⟩ : Shape).Idx → EReal)
    (X : (⟨2, ![1048576, 5]⟩ : Shape).Idx → EReal) (A : (⟨2, ![272, 128]⟩ : Shape).Idx → EReal)
    (hx_real : ∀ (i : Fin 5) (b : Fin 1048576), XT (ix2 (⟨i.val, by omega⟩ : Fin 8) b) = X (ix2 b i))
    (hx_pad : ∀ (i : Fin 8), 5 ≤ i.val → ∀ b : Fin 1048576, XT (ix2 i b) = 0)
    (hw1 : ∀ (k : Fin 32) (i : Fin 8), WT (ix2 (⟨k.val, by omega⟩ : Fin 80) (⟨i.val, by omega⟩ : Fin 128))
      = A (ix2 (⟨i.val, by omega⟩ : Fin 272) (⟨k.val, by omega⟩ : Fin 128)))
    (hw2 : ∀ (k k' : Fin 32), WT (ix2 (⟨32 + k.val, by omega⟩ : Fin 80) (⟨k'.val, by omega⟩ : Fin 128))
      = A (ix2 (⟨8 + k'.val, by omega⟩ : Fin 272) (⟨k.val, by omega⟩ : Fin 128)))
    (hw3 : ∀ (j : Fin 8) (k : Fin 32), WT (ix2 (⟨64 + j.val, by omega⟩ : Fin 80) (⟨k.val, by omega⟩ : Fin 128))
      = A (ix2 (⟨136 + k.val, by omega⟩ : Fin 272) (⟨j.val, by omega⟩ : Fin 128)))
    (hb1 : ∀ k : Fin 32, BS (ix2 k (⟨0, by decide⟩ : Fin 128)) = A (ix2 (⟨264, by decide⟩ : Fin 272) (⟨k.val, by omega⟩ : Fin 128)))
    (hb2 : ∀ k : Fin 32, BS (ix2 k (⟨1, by decide⟩ : Fin 128)) = A (ix2 (⟨265, by decide⟩ : Fin 272) (⟨k.val, by omega⟩ : Fin 128)))
    (hb3 : ∀ j : Fin 8, BS (ix2 (⟨j.val, by omega⟩ : Fin 32) (⟨2, by decide⟩ : Fin 128))
      = A (ix2 (⟨266, by decide⟩ : Fin 272) (⟨j.val, by omega⟩ : Fin 128)))
    (j : Fin 8) (b : Fin 1048576) :
    kerNet XT WT BS j b = rowResult X A b (⟨j.val, by omega⟩ : Fin 128) := by
  unfold kerNet rowResult netNarrow
  refine congrArg act (unit_congr (fun k => congrArg (max · 0) (unit_congr (fun k' => ?_) (fun k' => ?_) ?_)) (fun k => ?_) ?_)
  · -- the first hidden layer's unit k'
    unfold hid1
    refine congrArg (max · 0) (unit_congr (fun i => ?_) (fun i => ?_) ?_)
    · -- the activations: the batch row's features, then zeros
      unfold padRow
      by_cases h : i.val < 5
      · rw [dif_pos h]
        exact hx_real ⟨i.val, h⟩ b
      · rw [dif_neg h]
        exact hx_pad i (by omega) b
    · -- the first layer's weights: row i of the slab (the offset 0 added)
      refine (hw1 k' i).trans (congrArg A ?_)
      exact congrArg (fun r : Fin 272 => ix2 r (⟨k'.val, by omega⟩ : Fin 128)) (Fin.ext (Nat.zero_add i.val).symm)
    · exact hb1 k'
  · exact hw2 k k'
  · exact hb2 k
  · exact hw3 j k
  · exact hb3 j

end Cert.Spec

end
-- ==== Proof.ScatterKer.lean ====
/-
  The window scatters of the kernel program, read at one operand index.

  Each scatter writes a rank-2 block of updates into a rank-2 operand at a constant start: the update at window
  coordinates (r, c) lands on the operand index (start₀ + r, start₁ + c).  That map is injective, so an operand index
  inside the window reads the one update that lands on it, and an operand index outside the window keeps the
  operand's own element.
-/
import proofs.«108916_g2000504823889788_pallasbulk_511_31_alg».proof.KernelIdeal
import proofs.«108916_g2000504823889788_pallasbulk_511_31_alg».proof.Proof.LibScatter
import Idealize.ShloMosaic.Lib.ValueIdx

namespace Cert.KernelIdeal.Scat

open Idealize.ShloMosaic Idealize.ShloMosaic.ValueIdx Idealize.ShloMosaic.ScatterSet Cert.KernelIdeal

variable [Facts₀] {α : Type}

/-! ## The landing index from the per-axis start and window coordinate -/

/-- If on every axis the start plus the window coordinate is the coordinate of `i`, the update index lands on `i`. -/
theorem resultIdx?_eq {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos]
  · congr 1
    funext a
    apply Fin.ext
    show (d.start j idx a + (d.window j a : Int)).toNat = (i a).val
    rw [h a]
    exact Int.toNat_natCast _
  · intro a
    rw [h a]
    exact ⟨Int.natCast_nonneg _, by exact_mod_cast (i a).isLt⟩

/-- If the update index lands on `i`, on every axis the start plus the window coordinate is the coordinate of `i`. -/
theorem resultIdx?_some {s si u : Shape} {w : Nat} (d : ScatterDims s si u) (j : u.Idx) (idx : IVec si w) (i : s.Idx)
    (h : d.resultIdx? j idx = some i) (a : Fin s.rank) : d.start j idx a + (d.window j a : Int) = ((i a).val : Int) := by
  unfold ScatterDims.resultIdx? at h
  split at h
  · rename_i hr
    have e := Option.some.inj h
    have ea := congrFun e a
    have ev : (d.start j idx a + (d.window j a : Int)).toNat = (i a).val := congrArg Fin.val ea
    rw [← ev]
    exact (Int.toNat_of_nonneg (hr a).1).symm
  · exact absurd h (by simp)

/-! ## The scatter of the 5×1048576 updates into the 8×1048576 operand at row 0 -/

theorem k1_siIdx (j : S5x1048576.Idx) (c : Fin scatter_S8x1048576_S1_S5x1048576_01_n_0_0.scatterDimsToOperandDims.length) :
    scatter_S8x1048576_S1_S5x1048576_01_n_0_0.siIdx j c = ix1 0 := by
  funext b
  match b with
  | ⟨0, _⟩ =>
    apply Fin.ext
    have hc : c.val < 1 := c.isLt
    unfold ScatterDims.siIdx
    rw [dif_pos]
    · show c.val = 0
      omega
    · rfl

theorem k1_start0 (j : S5x1048576.Idx) (idx : IVec S1 32) :
    scatter_S8x1048576_S1_S5x1048576_01_n_0_0.start j idx ⟨0, by decide⟩ = (idx (ix1 0)).toInt := by
  unfold ScatterDims.start
  rw [dif_pos, k1_siIdx]
  show _ ∈ ([0] : List (Fin 2))
  decide

theorem k1_start1 (j : S5x1048576.Idx) (idx : IVec S1 32) :
    scatter_S8x1048576_S1_S5x1048576_01_n_0_0.start j idx ⟨1, by decide⟩ = 0 := by
  unfold ScatterDims.start
  rw [dif_neg]
  show ¬ (_ ∈ ([0] : List (Fin 2)))
  decide

theorem k1_window0 (j : S5x1048576.Idx) :
    scatter_S8x1048576_S1_S5x1048576_01_n_0_0.window j ⟨0, by decide⟩ = (j 0).val := by
  unfold ScatterDims.window
  rw [dif_pos]
  · rfl
  · show _ ∈ ([0, 1] : List (Fin 2))
    decide

theorem k1_window1 (j : S5x1048576.Idx) :
    scatter_S8x1048576_S1_S5x1048576_01_n_0_0.window j ⟨1, by decide⟩ = (j 1).val := by
  unfold ScatterDims.window
  rw [dif_pos]
  · rfl
  · show _ ∈ ([0, 1] : List (Fin 2))
    decide

/-- The update at (r, b) lands on the operand index (r, b). -/
theorem k1_landing (idx : IVec S1 32) (h0 : idx (ix1 0) = 0#32) (r : Fin 5) (b : Fin 1048576) :
    scatter_S8x1048576_S1_S5x1048576_01_n_0_0.resultIdx? (ix2 r b) idx
      = some (ix2 (⟨r.val, by omega⟩ : Fin 8) b) := by
  apply resultIdx?_eq
  intro a
  have hz : (0#32 : BitVec 32).toInt = 0 := by decide
  match a with
  | ⟨0, _⟩ =>
    have hs := k1_start0 (ix2 r b) idx
    have hw := k1_window0 (ix2 r b)
    rw [hs, hw, h0, hz]
    show (0 : Int) + (r.val : Int) = (r.val : Int)
    omega
  | ⟨1, _⟩ =>
    have hs := k1_start1 (ix2 r b) idx
    have hw := k1_window1 (ix2 r b)
    rw [hs, hw]
    show (0 : Int) + (b.val : Int) = (b.val : Int)
    omega

/-- The coordinates of an update index that lands on a given operand index. -/
theorem k1_coords (idx : IVec S1 32) (h0 : idx (ix1 0) = 0#32) (j : S5x1048576.Idx) (i : S8x1048576.Idx)
    (h : scatter_S8x1048576_S1_S5x1048576_01_n_0_0.resultIdx? j idx = some i) :
    (j 0).val = (i 0).val ∧ (j 1).val = (i 1).val := by
  have e0 := resultIdx?_some _ j idx i h ⟨0, by decide⟩
  have e1 := resultIdx?_some _ j idx i h ⟨1, by decide⟩
  have hz : (0#32 : BitVec 32).toInt = 0 := by decide
  rw [k1_start0, k1_window0, h0, hz] at e0
  rw [k1_start1, k1_window1] at e1
  have e0' : (0 : Int) + ((j 0).val : Int) = ((i 0).val : Int) := e0
  have e1' : (0 : Int) + ((j 1).val : Int) = ((i 1).val : Int) := e1
  omega

/-- Inside the window the scatter reads the update. -/
theorem k1_hit (x : S8x1048576.Idx → α) (idx : IVec S1 32) (upd : S5x1048576.Idx → α) (h0 : idx (ix1 0) = 0#32)
    (r : Fin 5) (b : Fin 1048576) :
    Host.scatter scatter_S8x1048576_S1_S5x1048576_01_n_0_0 (fun _ b => b) x idx upd
      (ix2 (⟨r.val, by omega⟩ : Fin 8) b) = upd (ix2 r b) := by
  apply scatter_apply_hit _ x idx upd _ (ix2 r b) (k1_landing idx h0 r b)
  intro j' hj'
  obtain ⟨e0, e1⟩ := k1_coords idx h0 j' _ hj'
  rw [eq_ix2 j']
  have a0 : j' 0 = r := Fin.ext e0
  have a1 : j' 1 = b := Fin.ext e1
  rw [a0, a1]
  rfl

/-- Outside the window the scatter keeps the operand. -/
theorem k1_miss (x : S8x1048576.Idx → α) (idx : IVec S1 32) (upd : S5x1048576.Idx → α) (h0 : idx (ix1 0) = 0#32)
    (r : Fin 8) (b : Fin 1048576) (hr : 5 ≤ r.val) :
    Host.scatter scatter_S8x1048576_S1_S5x1048576_01_n_0_0 (fun _ b => b) x idx upd (ix2 r b) = x (ix2 r b) := by
  apply scatter_apply_miss
  intro j' hj'
  obtain ⟨e0, _⟩ := k1_coords idx h0 j' _ hj'
  have hlt := idx2_lt0 j'
  have e0' : (j' 0).val = r.val := e0
  omega

/-! ## The scatter of the 32×8 updates into the 80×128 operand at (0, 0) -/

theorem k2_siIdx (j : S32x8.Idx) (c : Fin scatter_S80x128_S2_S32x8_01_n_01_0.scatterDimsToOperandDims.length) :
    scatter_S80x128_S2_S32x8_01_n_01_0.siIdx j c = ix1 (⟨c.val, c.isLt⟩ : Fin 2) := by
  funext b
  match b with
  | ⟨0, _⟩ =>
    apply Fin.ext
    unfold ScatterDims.siIdx
    rw [dif_pos]
    all_goals rfl

theorem k2_start0 (j : S32x8.Idx) (idx : IVec S2 32) :
    scatter_S80x128_S2_S32x8_01_n_01_0.start j idx ⟨0, by decide⟩ = (idx (ix1 0)).toInt := by
  have hm : (⟨0, by decide⟩ : Fin S80x128.rank) ∈ scatter_S80x128_S2_S32x8_01_n_01_0.scatterDimsToOperandDims := by
    show _ ∈ ([0, 1] : List (Fin 2))
    decide
  unfold ScatterDims.start
  rw [dif_pos hm, k2_siIdx]
  rfl

theorem k2_start1 (j : S32x8.Idx) (idx : IVec S2 32) :
    scatter_S80x128_S2_S32x8_01_n_01_0.start j idx ⟨1, by decide⟩ = (idx (ix1 1)).toInt := by
  have hm : (⟨1, by decide⟩ : Fin S80x128.rank) ∈ scatter_S80x128_S2_S32x8_01_n_01_0.scatterDimsToOperandDims := by
    show _ ∈ ([0, 1] : List (Fin 2))
    decide
  unfold ScatterDims.start
  rw [dif_pos hm, k2_siIdx]
  rfl

theorem k2_window0 (j : S32x8.Idx) :
    scatter_S80x128_S2_S32x8_01_n_01_0.window j ⟨0, by decide⟩ = (j 0).val := by
  unfold ScatterDims.window
  rw [dif_pos]
  · rfl
  · show _ ∈ ([0, 1] : List (Fin 2))
    decide

theorem k2_window1 (j : S32x8.Idx) :
    scatter_S80x128_S2_S32x8_01_n_01_0.window j ⟨1, by decide⟩ = (j 1).val := by
  unfold ScatterDims.window
  rw [dif_pos]
  · rfl
  · show _ ∈ ([0, 1] : List (Fin 2))
    decide

/-- The update at (r, c) lands on the operand index (r, c). -/
theorem k2_landing (idx : IVec S2 32) (h0 : idx (ix1 0) = 0#32) (h1 : idx (ix1 1) = 0#32) (r : Fin 32) (c : Fin 8) :
    scatter_S80x128_S2_S32x8_01_n_01_0.resultIdx? (ix2 r c) idx
      = some (ix2 (⟨r.val, by omega⟩ : Fin 80) (⟨c.val, by omega⟩ : Fin 128)) := by
  apply resultIdx?_eq
  intro a
  have hs0 : (0#32 : BitVec 32).toInt = 0 := by decide
  have hz : (0#32 : BitVec 32).toInt = 0 := by decide
  match a with
  | ⟨0, _⟩ =>
    have hs := k2_start0 (ix2 r c) idx
    have hw := k2_window0 (ix2 r c)
    rw [hs, hw, h0, hs0]
    show (0 : Int) + (r.val : Int) = ((r.val : Nat) : Int)
    omega
  | ⟨1, _⟩ =>
    have hs := k2_start1 (ix2 r c) idx
    have hw := k2_window1 (ix2 r c)
    rw [hs, hw, h1, hz]
    show (0 : Int) + (c.val : Int) = (c.val : Int)
    omega

/-- The coordinates of an update index that lands on a given operand index. -/
theorem k2_coords (idx : IVec S2 32) (h0 : idx (ix1 0) = 0#32) (h1 : idx (ix1 1) = 0#32) (j : S32x8.Idx) (i : S80x128.Idx)
    (h : scatter_S80x128_S2_S32x8_01_n_01_0.resultIdx? j idx = some i) :
    0 + (j 0).val = (i 0).val ∧ (j 1).val = (i 1).val := by
  have e0 := resultIdx?_some _ j idx i h ⟨0, by decide⟩
  have e1 := resultIdx?_some _ j idx i h ⟨1, by decide⟩
  have hs0 : (0#32 : BitVec 32).toInt = 0 := by decide
  have hz : (0#32 : BitVec 32).toInt = 0 := by decide
  rw [k2_start0, k2_window0, h0, hs0] at e0
  rw [k2_start1, k2_window1, h1, hz] at e1
  have e0' : (0 : Int) + ((j 0).val : Int) = ((i 0).val : Int) := e0
  have e1' : (0 : Int) + ((j 1).val : Int) = ((i 1).val : Int) := e1
  omega

/-- Inside the window the scatter reads the update. -/
theorem k2_hit (x : S80x128.Idx → α) (idx : IVec S2 32) (upd : S32x8.Idx → α)
    (h0 : idx (ix1 0) = 0#32) (h1 : idx (ix1 1) = 0#32) (r : Fin 32) (c : Fin 8) :
    Host.scatter scatter_S80x128_S2_S32x8_01_n_01_0 (fun _ b => b) x idx upd
      (ix2 (⟨r.val, by omega⟩ : Fin 80) (⟨c.val, by omega⟩ : Fin 128)) = upd (ix2 r c) := by
  apply scatter_apply_hit _ x idx upd _ (ix2 r c) (k2_landing idx h0 h1 r c)
  intro j' hj'
  obtain ⟨e0, e1⟩ := k2_coords idx h0 h1 j' _ hj'
  have e0' : 0 + (j' 0).val = r.val := e0
  have e1' : (j' 1).val = c.val := e1
  rw [eq_ix2 j']
  have a0 : j' 0 = r := Fin.ext (by omega)
  have a1 : j' 1 = c := Fin.ext e1'
  rw [a0, a1]
  rfl

/-- Outside the window the scatter keeps the operand. -/
theorem k2_miss (x : S80x128.Idx → α) (idx : IVec S2 32) (upd : S32x8.Idx → α)
    (h0 : idx (ix1 0) = 0#32) (h1 : idx (ix1 1) = 0#32) (r : Fin 80) (c : Fin 128)
    (hrc : ¬(r.val < 32 ∧ c.val < 8)) :
    Host.scatter scatter_S80x128_S2_S32x8_01_n_01_0 (fun _ b => b) x idx upd (ix2 r c) = x (ix2 r c) := by
  apply scatter_apply_miss
  intro j' hj'
  obtain ⟨e0, e1⟩ := k2_coords idx h0 h1 j' _ hj'
  have e0' : 0 + (j' 0).val = r.val := e0
  have e1' : (j' 1).val = c.val := e1
  have hlt0 := idx2_lt0 j'
  have hlt1 := idx2_lt1 j'
  omega

/-! ## The scatter of the 32×32 updates into the 80×128 operand at (32, 0) -/

theorem k3_siIdx (j : S32x32.Idx) (c : Fin scatter_S80x128_S2_S32x32_01_n_01_0.scatterDimsToOperandDims.length) :
    scatter_S80x128_S2_S32x32_01_n_01_0.siIdx j c = ix1 (⟨c.val, c.isLt⟩ : Fin 2) := by
  funext b
  match b with
  | ⟨0, _⟩ =>
    apply Fin.ext
    unfold ScatterDims.siIdx
    rw [dif_pos]
    all_goals rfl

theorem k3_start0 (j : S32x32.Idx) (idx : IVec S2 32) :
    scatter_S80x128_S2_S32x32_01_n_01_0.start j idx ⟨0, by decide⟩ = (idx (ix1 0)).toInt := by
  have hm : (⟨0, by decide⟩ : Fin S80x128.rank) ∈ scatter_S80x128_S2_S32x32_01_n_01_0.scatterDimsToOperandDims := by
    show _ ∈ ([0, 1] : List (Fin 2))
    decide
  unfold ScatterDims.start
  rw [dif_pos hm, k3_siIdx]
  rfl

theorem k3_start1 (j : S32x32.Idx) (idx : IVec S2 32) :
    scatter_S80x128_S2_S32x32_01_n_01_0.start j idx ⟨1, by decide⟩ = (idx (ix1 1)).toInt := by
  have hm : (⟨1, by decide⟩ : Fin S80x128.rank) ∈ scatter_S80x128_S2_S32x32_01_n_01_0.scatterDimsToOperandDims := by
    show _ ∈ ([0, 1] : List (Fin 2))
    decide
  unfold ScatterDims.start
  rw [dif_pos hm, k3_siIdx]
  rfl

theorem k3_window0 (j : S32x32.Idx) :
    scatter_S80x128_S2_S32x32_01_n_01_0.window j ⟨0, by decide⟩ = (j 0).val := by
  unfold ScatterDims.window
  rw [dif_pos]
  · rfl
  · show _ ∈ ([0, 1] : List (Fin 2))
    decide

theorem k3_window1 (j : S32x32.Idx) :
    scatter_S80x128_S2_S32x32_01_n_01_0.window j ⟨1, by decide⟩ = (j 1).val := by
  unfold ScatterDims.window
  rw [dif_pos]
  · rfl
  · show _ ∈ ([0, 1] : List (Fin 2))
    decide

/-- The update at (r, c) lands on the operand index (32 + r, c). -/
theorem k3_landing (idx : IVec S2 32) (h0 : idx (ix1 0) = 32#32) (h1 : idx (ix1 1) = 0#32) (r : Fin 32) (c : Fin 32) :
    scatter_S80x128_S2_S32x32_01_n_01_0.resultIdx? (ix2 r c) idx
      = some (ix2 (⟨32 + r.val, by omega⟩ : Fin 80) (⟨c.val, by omega⟩ : Fin 128)) := by
  apply resultIdx?_eq
  intro a
  have hs0 : (32#32 : BitVec 32).toInt = 32 := by decide
  have hz : (0#32 : BitVec 32).toInt = 0 := by decide
  match a with
  | ⟨0, _⟩ =>
    have hs := k3_start0 (ix2 r c) idx
    have hw := k3_window0 (ix2 r c)
    rw [hs, hw, h0, hs0]
    show (32 : Int) + (r.val : Int) = ((32 + r.val : Nat) : Int)
    omega
  | ⟨1, _⟩ =>
    have hs := k3_start1 (ix2 r c) idx
    have hw := k3_window1 (ix2 r c)
    rw [hs, hw, h1, hz]
    show (0 : Int) + (c.val : Int) = (c.val : Int)
    omega

/-- The coordinates of an update index that lands on a given operand index. -/
theorem k3_coords (idx : IVec S2 32) (h0 : idx (ix1 0) = 32#32) (h1 : idx (ix1 1) = 0#32) (j : S32x32.Idx) (i : S80x128.Idx)
    (h : scatter_S80x128_S2_S32x32_01_n_01_0.resultIdx? j idx = some i) :
    32 + (j 0).val = (i 0).val ∧ (j 1).val = (i 1).val := by
  have e0 := resultIdx?_some _ j idx i h ⟨0, by decide⟩
  have e1 := resultIdx?_some _ j idx i h ⟨1, by decide⟩
  have hs0 : (32#32 : BitVec 32).toInt = 32 := by decide
  have hz : (0#32 : BitVec 32).toInt = 0 := by decide
  rw [k3_start0, k3_window0, h0, hs0] at e0
  rw [k3_start1, k3_window1, h1, hz] at e1
  have e0' : (32 : Int) + ((j 0).val : Int) = ((i 0).val : Int) := e0
  have e1' : (0 : Int) + ((j 1).val : Int) = ((i 1).val : Int) := e1
  omega

/-- Inside the window the scatter reads the update. -/
theorem k3_hit (x : S80x128.Idx → α) (idx : IVec S2 32) (upd : S32x32.Idx → α)
    (h0 : idx (ix1 0) = 32#32) (h1 : idx (ix1 1) = 0#32) (r : Fin 32) (c : Fin 32) :
    Host.scatter scatter_S80x128_S2_S32x32_01_n_01_0 (fun _ b => b) x idx upd
      (ix2 (⟨32 + r.val, by omega⟩ : Fin 80) (⟨c.val, by omega⟩ : Fin 128)) = upd (ix2 r c) := by
  apply scatter_apply_hit _ x idx upd _ (ix2 r c) (k3_landing idx h0 h1 r c)
  intro j' hj'
  obtain ⟨e0, e1⟩ := k3_coords idx h0 h1 j' _ hj'
  have e0' : 32 + (j' 0).val = 32 + r.val := e0
  have e1' : (j' 1).val = c.val := e1
  rw [eq_ix2 j']
  have a0 : j' 0 = r := Fin.ext (by omega)
  have a1 : j' 1 = c := Fin.ext e1'
  rw [a0, a1]
  rfl

/-- Outside the window the scatter keeps the operand. -/
theorem k3_miss (x : S80x128.Idx → α) (idx : IVec S2 32) (upd : S32x32.Idx → α)
    (h0 : idx (ix1 0) = 32#32) (h1 : idx (ix1 1) = 0#32) (r : Fin 80) (c : Fin 128)
    (hrc : ¬(32 ≤ r.val ∧ r.val < 64 ∧ c.val < 32)) :
    Host.scatter scatter_S80x128_S2_S32x32_01_n_01_0 (fun _ b => b) x idx upd (ix2 r c) = x (ix2 r c) := by
  apply scatter_apply_miss
  intro j' hj'
  obtain ⟨e0, e1⟩ := k3_coords idx h0 h1 j' _ hj'
  have e0' : 32 + (j' 0).val = r.val := e0
  have e1' : (j' 1).val = c.val := e1
  have hlt0 := idx2_lt0 j'
  have hlt1 := idx2_lt1 j'
  omega

/-! ## The scatter of the 8×32 updates into the 80×128 operand at (64, 0) -/

theorem k4_siIdx (j : S8x32.Idx) (c : Fin scatter_S80x128_S2_S8x32_01_n_01_0.scatterDimsToOperandDims.length) :
    scatter_S80x128_S2_S8x32_01_n_01_0.siIdx j c = ix1 (⟨c.val, c.isLt⟩ : Fin 2) := by
  funext b
  match b with
  | ⟨0, _⟩ =>
    apply Fin.ext
    unfold ScatterDims.siIdx
    rw [dif_pos]
    all_goals rfl

theorem k4_start0 (j : S8x32.Idx) (idx : IVec S2 32) :
    scatter_S80x128_S2_S8x32_01_n_01_0.start j idx ⟨0, by decide⟩ = (idx (ix1 0)).toInt := by
  have hm : (⟨0, by decide⟩ : Fin S80x128.rank) ∈ scatter_S80x128_S2_S8x32_01_n_01_0.scatterDimsToOperandDims := by
    show _ ∈ ([0, 1] : List (Fin 2))
    decide
  unfold ScatterDims.start
  rw [dif_pos hm, k4_siIdx]
  rfl

theorem k4_start1 (j : S8x32.Idx) (idx : IVec S2 32) :
    scatter_S80x128_S2_S8x32_01_n_01_0.start j idx ⟨1, by decide⟩ = (idx (ix1 1)).toInt := by
  have hm : (⟨1, by decide⟩ : Fin S80x128.rank) ∈ scatter_S80x128_S2_S8x32_01_n_01_0.scatterDimsToOperandDims := by
    show _ ∈ ([0, 1] : List (Fin 2))
    decide
  unfold ScatterDims.start
  rw [dif_pos hm, k4_siIdx]
  rfl

theorem k4_window0 (j : S8x32.Idx) :
    scatter_S80x128_S2_S8x32_01_n_01_0.window j ⟨0, by decide⟩ = (j 0).val := by
  unfold ScatterDims.window
  rw [dif_pos]
  · rfl
  · show _ ∈ ([0, 1] : List (Fin 2))
    decide

theorem k4_window1 (j : S8x32.Idx) :
    scatter_S80x128_S2_S8x32_01_n_01_0.window j ⟨1, by decide⟩ = (j 1).val := by
  unfold ScatterDims.window
  rw [dif_pos]
  · rfl
  · show _ ∈ ([0, 1] : List (Fin 2))
    decide

/-- The update at (r, c) lands on the operand index (64 + r, c). -/
theorem k4_landing (idx : IVec S2 32) (h0 : idx (ix1 0) = 64#32) (h1 : idx (ix1 1) = 0#32) (r : Fin 8) (c : Fin 32) :
    scatter_S80x128_S2_S8x32_01_n_01_0.resultIdx? (ix2 r c) idx
      = some (ix2 (⟨64 + r.val, by omega⟩ : Fin 80) (⟨c.val, by omega⟩ : Fin 128)) := by
  apply resultIdx?_eq
  intro a
  have hs0 : (64#32 : BitVec 32).toInt = 64 := by decide
  have hz : (0#32 : BitVec 32).toInt = 0 := by decide
  match a with
  | ⟨0, _⟩ =>
    have hs := k4_start0 (ix2 r c) idx
    have hw := k4_window0 (ix2 r c)
    rw [hs, hw, h0, hs0]
    show (64 : Int) + (r.val : Int) = ((64 + r.val : Nat) : Int)
    omega
  | ⟨1, _⟩ =>
    have hs := k4_start1 (ix2 r c) idx
    have hw := k4_window1 (ix2 r c)
    rw [hs, hw, h1, hz]
    show (0 : Int) + (c.val : Int) = (c.val : Int)
    omega

/-- The coordinates of an update index that lands on a given operand index. -/
theorem k4_coords (idx : IVec S2 32) (h0 : idx (ix1 0) = 64#32) (h1 : idx (ix1 1) = 0#32) (j : S8x32.Idx) (i : S80x128.Idx)
    (h : scatter_S80x128_S2_S8x32_01_n_01_0.resultIdx? j idx = some i) :
    64 + (j 0).val = (i 0).val ∧ (j 1).val = (i 1).val := by
  have e0 := resultIdx?_some _ j idx i h ⟨0, by decide⟩
  have e1 := resultIdx?_some _ j idx i h ⟨1, by decide⟩
  have hs0 : (64#32 : BitVec 32).toInt = 64 := by decide
  have hz : (0#32 : BitVec 32).toInt = 0 := by decide
  rw [k4_start0, k4_window0, h0, hs0] at e0
  rw [k4_start1, k4_window1, h1, hz] at e1
  have e0' : (64 : Int) + ((j 0).val : Int) = ((i 0).val : Int) := e0
  have e1' : (0 : Int) + ((j 1).val : Int) = ((i 1).val : Int) := e1
  omega

/-- Inside the window the scatter reads the update. -/
theorem k4_hit (x : S80x128.Idx → α) (idx : IVec S2 32) (upd : S8x32.Idx → α)
    (h0 : idx (ix1 0) = 64#32) (h1 : idx (ix1 1) = 0#32) (r : Fin 8) (c : Fin 32) :
    Host.scatter scatter_S80x128_S2_S8x32_01_n_01_0 (fun _ b => b) x idx upd
      (ix2 (⟨64 + r.val, by omega⟩ : Fin 80) (⟨c.val, by omega⟩ : Fin 128)) = upd (ix2 r c) := by
  apply scatter_apply_hit _ x idx upd _ (ix2 r c) (k4_landing idx h0 h1 r c)
  intro j' hj'
  obtain ⟨e0, e1⟩ := k4_coords idx h0 h1 j' _ hj'
  have e0' : 64 + (j' 0).val = 64 + r.val := e0
  have e1' : (j' 1).val = c.val := e1
  rw [eq_ix2 j']
  have a0 : j' 0 = r := Fin.ext (by omega)
  have a1 : j' 1 = c := Fin.ext e1'
  rw [a0, a1]
  rfl

/-- Outside the window the scatter keeps the operand. -/
theorem k4_miss (x : S80x128.Idx → α) (idx : IVec S2 32) (upd : S8x32.Idx → α)
    (h0 : idx (ix1 0) = 64#32) (h1 : idx (ix1 1) = 0#32) (r : Fin 80) (c : Fin 128)
    (hrc : ¬(64 ≤ r.val ∧ r.val < 72 ∧ c.val < 32)) :
    Host.scatter scatter_S80x128_S2_S8x32_01_n_01_0 (fun _ b => b) x idx upd (ix2 r c) = x (ix2 r c) := by
  apply scatter_apply_miss
  intro j' hj'
  obtain ⟨e0, e1⟩ := k4_coords idx h0 h1 j' _ hj'
  have e0' : 64 + (j' 0).val = r.val := e0
  have e1' : (j' 1).val = c.val := e1
  have hlt0 := idx2_lt0 j'
  have hlt1 := idx2_lt1 j'
  omega

end Cert.KernelIdeal.Scat
-- ==== Proof.KerHostX.lean ====
/-
  The kernel program's first input slab as the region finds it, read at the entries the kernel body uses.

  The slab is the transposed 1048576×5 input written into rows 0–4 of a zero 8×1048576 array.  At the ideal instance the
  change of float format is the identity, so each entry is an entry of the input array or the zero.
-/
import proofs.«108916_g2000504823889788_pallasbulk_511_31_alg».proof.Proof.Gen.KernelIdeal.Frame
import proofs.«108916_g2000504823889788_pallasbulk_511_31_alg».proof.Proof.ScatterKer
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HostX

open Idealize.ShloMosaic Idealize.ShloMosaic.TcCoe Idealize.ShloMosaic.ValueIdx Idealize.SL.Sem Cert.KernelIdeal Cert.KernelIdeal.Gen
open Cert.KernelIdeal.Scat

variable (m : (ℓ : Loc nD τ sig) → Buf (Elt Ideal) ℓ) (c : Dev nD)

/-- The 16-bit zero pattern is the zero. -/
theorem bf16_zero : (Ideal.ofBits .bf16 0x0000#16 : EReal) = 0 := by simp [Ideal.ofBits, Ideal.ieee]

/-! ## The first slab -/

set_option maxHeartbeats 4000000 in
/-- The first slab as the host operations' term. -/
theorem v4_eq : (V (F := Ideal) m c main_v4 : S8x1048576.Idx → EReal) =
    Host.scatter scatter_S8x1048576_S1_S5x1048576_01_n_0_0 (fun _ b => b)
      (broadcastInDim S8x1048576 ![] Facts₀.bcast_S_S8x1048576 (constant (F := Ideal) S_ .bf16 0x0000#16))
      (broadcastInDim S1 ![] Facts₀.bcast_S_S1 (constantI S_ 32 0#32))
      (truncf .bf16 (transpose S5x1048576 [1, 0] (m ((c : Thread nD τ).loc main_arg0) : S1048576x5.Idx → EReal)
        Facts₀.transposes_S1048576x5_S5x1048576_1_0) Facts₀.bitsLt_bf16_f32) := by
  show StableHlo.after hostOps0 (fun b => m (c, b)) (Proc.devRef .tc main_v4) = _
  after_results

/-- Rows 5–7 of the first slab are zero. -/
theorem xt_pad (i : Fin 8) (hi : 5 ≤ i.val) (b : Fin 1048576) :
    (V (F := Ideal) m c main_v4 : S8x1048576.Idx → EReal) (ix2 i b) = (0 : EReal) := by
  rw [v4_eq]
  refine (k1_miss _ _ _ rfl i b hi).trans ?_
  exact bf16_zero

/-- Rows 0–4 of the first slab are the input's columns. -/
theorem xt_real (i : Fin 5) (b : Fin 1048576) :
    (V (F := Ideal) m c main_v4 : S8x1048576.Idx → EReal) (ix2 (⟨i.val, by omega⟩ : Fin 8) b)
      = (m ((c : Thread nD τ).loc main_arg0) : S1048576x5.Idx → EReal) (ix2 b i) := by
  rw [v4_eq]
  refine (k1_hit _ _ _ rfl i b).trans ?_
  show transpose S5x1048576 [1, 0] (m ((c : Thread nD τ).loc main_arg0) : S1048576x5.Idx → EReal)
    Facts₀.transposes_S1048576x5_S5x1048576_1_0 (ix2 i b) = _
  exact transpose_apply [1, 0] _ _ (ix2 i b) (ix2 b i) (fun a => match a with | ⟨0, _⟩ => rfl | ⟨1, _⟩ => rfl)

end Cert.KernelIdeal.HostX
-- ==== Proof.KerHostW.lean ====
/-
  The transposed-weight slab of the kernel program as the region finds it, read at the entries the kernel body loads.

  The slab is an 80×128 array of zeros into which three set-scatters write, in turn, three blocks of the second argument,
  each transposed and narrowed to the 16-bit float format (the identity on extended reals): rows 0‥7 (32 columns) as a
  32×8 block at row 0, rows 8‥39 (32 columns) as a 32×32 block at row 32, and rows 136‥167 (8 columns) as an 8×32 block
  at row 64.  The blocks occupy disjoint rows, so at a written entry the slab holds the argument's transposed entry.
-/
import proofs.«108916_g2000504823889788_pallasbulk_511_31_alg».proof.Proof.Gen.KernelIdeal.Frame
import proofs.«108916_g2000504823889788_pallasbulk_511_31_alg».proof.Proof.ScatterKer
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HostW

open Idealize.ShloMosaic Idealize.ShloMosaic.TcCoe Idealize.ShloMosaic.ValueIdx Idealize.SL.Sem Cert.KernelIdeal Cert.KernelIdeal.Gen

/-! ## The scatter indices and the written blocks, read at an index -/

/-- The first entry of two one-element vectors laid end to end is the first vector's. -/
theorem pair_apply0 (v w : BitVec 32) :
    ((concatenate S2 0 [⟨S1, broadcastInDim S1 ![] bcast_S_S1 (constantI S_ 32 v)⟩,
        ⟨S1, broadcastInDim S1 ![] bcast_S_S1 (constantI S_ 32 w)⟩] concatenates_S1_S1_S2_d0) : IVec S2 32) (ix1 0) = v := by
  refine (concatenate_pair_apply_left (t := S2) (s₁ := S1) (s₂ := S1) (0 : Fin 1) _ _ concatenates_S1_S1_S2_d0 (ix1 (0 : Fin 2)) rfl (ix1 (0 : Fin 1)) ?_).trans rfl
  intro b
  match b with
  | ⟨0, _⟩ => rfl

/-- The second entry of two one-element vectors laid end to end is the second vector's. -/
theorem pair_apply1 (v w : BitVec 32) :
    ((concatenate S2 0 [⟨S1, broadcastInDim S1 ![] bcast_S_S1 (constantI S_ 32 v)⟩,
        ⟨S1, broadcastInDim S1 ![] bcast_S_S1 (constantI S_ 32 w)⟩] concatenates_S1_S1_S2_d0) : IVec S2 32) (ix1 1) = w := by
  refine (concatenate_pair_apply_right (t := S2) (s₁ := S1) (s₂ := S1) (0 : Fin 1) _ _ concatenates_S1_S1_S2_d0 (ix1 (1 : Fin 2)) rfl rfl (ix1 (0 : Fin 1)) ?_ ?_).trans rfl
  · intro b hb
    match b with
    | ⟨0, _⟩ => exact absurd rfl hb
  · rfl

/-- The first block (rows 0‥7, 32 columns), transposed and narrowed, at `(k, i)`: the array's entry `(i, k)`. -/
theorem blk1_apply (A : S272x128.Idx → EReal) (k : Fin 32) (i : Fin 8) :
    ((truncf (F := Ideal) (φ := .f32) .bf16 (transpose S32x8 [1, 0] (extractStridedSlice S8x32 ![0, 0] A slices_S272x128_S8x32_0_0) transposes_S8x32_S32x8_1_0) bitsLt_bf16_f32) : S32x8.Idx → EReal) (ix2 k i)
      = A (ix2 (⟨i.val, by omega⟩ : Fin 272) (⟨k.val, by omega⟩ : Fin 128)) := by
  refine (truncf_apply (φ := .f32) (ψ := .bf16) _ bitsLt_bf16_f32 (ix2 k i)).trans ?_
  refine (transpose_apply [1, 0] _ transposes_S8x32_S32x8_1_0 (ix2 k i) (ix2 i k) ?_).trans ?_
  · intro b
    match b with
    | ⟨0, _⟩ => rfl
    | ⟨1, _⟩ => rfl
  · refine extractStridedSlice_apply _ A slices_S272x128_S8x32_0_0 (ix2 i k) _ ?_
    intro a
    match a with
    | ⟨0, _⟩ => show i.val = 0 + i.val; omega
    | ⟨1, _⟩ => show k.val = 0 + k.val; omega

/-- The second block (rows 8‥39, 32 columns), transposed and narrowed, at `(k, k')`: the array's entry `(8 + k', k)`. -/
theorem blk2_apply (A : S272x128.Idx → EReal) (k k' : Fin 32) :
    ((truncf (F := Ideal) (φ := .f32) .bf16 (transpose S32x32 [1, 0] (extractStridedSlice S32x32 ![8, 0] A slices_S272x128_S32x32_8_0) transposes_S32x32_S32x32_1_0) bitsLt_bf16_f32) : S32x32.Idx → EReal) (ix2 k k')
      = A (ix2 (⟨8 + k'.val, by omega⟩ : Fin 272) (⟨k.val, by omega⟩ : Fin 128)) := by
  refine (truncf_apply (φ := .f32) (ψ := .bf16) _ bitsLt_bf16_f32 (ix2 k k')).trans ?_
  refine (transpose_apply [1, 0] _ transposes_S32x32_S32x32_1_0 (ix2 k k') (ix2 k' k) ?_).trans ?_
  · intro b
    match b with
    | ⟨0, _⟩ => rfl
    | ⟨1, _⟩ => rfl
  · refine extractStridedSlice_apply _ A slices_S272x128_S32x32_8_0 (ix2 k' k) _ ?_
    intro a
    match a with
    | ⟨0, _⟩ => show 8 + k'.val = 8 + k'.val; rfl
    | ⟨1, _⟩ => show k.val = 0 + k.val; omega

/-- The third block (rows 136‥167, 8 columns), transposed and narrowed, at `(j, k)`: the array's entry `(136 + k, j)`. -/
theorem blk3_apply (A : S272x128.Idx → EReal) (j : Fin 8) (k : Fin 32) :
    ((truncf (F := Ideal) (φ := .f32) .bf16 (transpose S8x32 [1, 0] (extractStridedSlice S32x8 ![136, 0] A slices_S272x128_S32x8_136_0) transposes_S32x8_S8x32_1_0) bitsLt_bf16_f32) : S8x32.Idx → EReal) (ix2 j k)
      = A (ix2 (⟨136 + k.val, by omega⟩ : Fin 272) (⟨j.val, by omega⟩ : Fin 128)) := by
  refine (truncf_apply (φ := .f32) (ψ := .bf16) _ bitsLt_bf16_f32 (ix2 j k)).trans ?_
  refine (transpose_apply [1, 0] _ transposes_S32x8_S8x32_1_0 (ix2 j k) (ix2 k j) ?_).trans ?_
  · intro b
    match b with
    | ⟨0, _⟩ => rfl
    | ⟨1, _⟩ => rfl
  · refine extractStridedSlice_apply _ A slices_S272x128_S32x8_136_0 (ix2 k j) _ ?_
    intro a
    match a with
    | ⟨0, _⟩ => show 136 + k.val = 136 + k.val; rfl
    | ⟨1, _⟩ => show j.val = 0 + j.val; omega

/-! ## The slab as a function of the zero array and the argument -/

/-- The three scatters over an array `z`: the three transposed blocks of `A` at rows 0, 32 and 64. -/
def slabW (z : S80x128.Idx → EReal) (A : S272x128.Idx → EReal) : S80x128.Idx → EReal :=
  Host.scatter scatter_S80x128_S2_S8x32_01_n_01_0 (fun _ b => b)
    (Host.scatter scatter_S80x128_S2_S32x32_01_n_01_0 (fun _ b => b)
      (Host.scatter scatter_S80x128_S2_S32x8_01_n_01_0 (fun _ b => b) z
        (concatenate S2 0 [⟨S1, broadcastInDim S1 ![] bcast_S_S1 (constantI S_ 32 0#32)⟩,
        ⟨S1, broadcastInDim S1 ![] bcast_S_S1 (constantI S_ 32 0#32)⟩] concatenates_S1_S1_S2_d0)
        (truncf (F := Ideal) (φ := .f32) .bf16 (transpose S32x8 [1, 0] (extractStridedSlice S8x32 ![0, 0] A slices_S272x128_S8x32_0_0) transposes_S8x32_S32x8_1_0) bitsLt_bf16_f32))
      (concatenate S2 0 [⟨S1, broadcastInDim S1 ![] bcast_S_S1 (constantI S_ 32 32#32)⟩,
        ⟨S1, broadcastInDim S1 ![] bcast_S_S1 (constantI S_ 32 0#32)⟩] concatenates_S1_S1_S2_d0)
      (truncf (F := Ideal) (φ := .f32) .bf16 (transpose S32x32 [1, 0] (extractStridedSlice S32x32 ![8, 0] A slices_S272x128_S32x32_8_0) transposes_S32x32_S32x32_1_0) bitsLt_bf16_f32))
    (concatenate S2 0 [⟨S1, broadcastInDim S1 ![] bcast_S_S1 (constantI S_ 32 64#32)⟩,
        ⟨S1, broadcastInDim S1 ![] bcast_S_S1 (constantI S_ 32 0#32)⟩] concatenates_S1_S1_S2_d0)
    (truncf (F := Ideal) (φ := .f32) .bf16 (transpose S8x32 [1, 0] (extractStridedSlice S32x8 ![136, 0] A slices_S272x128_S32x8_136_0) transposes_S32x8_S8x32_1_0) bitsLt_bf16_f32)

/-- Rows 0‥31, columns 0‥7 hold the first block transposed: the last two scatters write rows 32‥71 only. -/
theorem slabW_blk1 (z : S80x128.Idx → EReal) (A : S272x128.Idx → EReal) (k : Fin 32) (i : Fin 8) :
    slabW z A (ix2 (⟨k.val, by omega⟩ : Fin 80) (⟨i.val, by omega⟩ : Fin 128))
      = A (ix2 (⟨i.val, by omega⟩ : Fin 272) (⟨k.val, by omega⟩ : Fin 128)) := by
  unfold slabW
  refine (Scat.k4_miss _ _ _ (pair_apply0 64#32 0#32) (pair_apply1 64#32 0#32) (⟨k.val, by omega⟩ : Fin 80) (⟨i.val, by omega⟩ : Fin 128)
    (fun h => by have h1 : 64 ≤ k.val := h.1; omega)).trans ?_
  refine (Scat.k3_miss _ _ _ (pair_apply0 32#32 0#32) (pair_apply1 32#32 0#32) (⟨k.val, by omega⟩ : Fin 80) (⟨i.val, by omega⟩ : Fin 128)
    (fun h => by have h1 : 32 ≤ k.val := h.1; omega)).trans ?_
  refine (Scat.k2_hit _ _ _ (pair_apply0 0#32 0#32) (pair_apply1 0#32 0#32) k i).trans ?_
  exact blk1_apply A k i

/-- Rows 32‥63, columns 0‥31 hold the second block transposed: the last scatter writes rows 64‥71 only. -/
theorem slabW_blk2 (z : S80x128.Idx → EReal) (A : S272x128.Idx → EReal) (k k' : Fin 32) :
    slabW z A (ix2 (⟨32 + k.val, by omega⟩ : Fin 80) (⟨k'.val, by omega⟩ : Fin 128))
      = A (ix2 (⟨8 + k'.val, by omega⟩ : Fin 272) (⟨k.val, by omega⟩ : Fin 128)) := by
  unfold slabW
  refine (Scat.k4_miss _ _ _ (pair_apply0 64#32 0#32) (pair_apply1 64#32 0#32) (⟨32 + k.val, by omega⟩ : Fin 80) (⟨k'.val, by omega⟩ : Fin 128)
    (fun h => by have h1 : 64 ≤ 32 + k.val := h.1; omega)).trans ?_
  refine (Scat.k3_hit _ _ _ (pair_apply0 32#32 0#32) (pair_apply1 32#32 0#32) k k').trans ?_
  exact blk2_apply A k k'

/-- Rows 64‥71, columns 0‥31 hold the third block transposed: the last scatter writes them. -/
theorem slabW_blk3 (z : S80x128.Idx → EReal) (A : S272x128.Idx → EReal) (j : Fin 8) (k : Fin 32) :
    slabW z A (ix2 (⟨64 + j.val, by omega⟩ : Fin 80) (⟨k.val, by omega⟩ : Fin 128))
      = A (ix2 (⟨136 + k.val, by omega⟩ : Fin 272) (⟨j.val, by omega⟩ : Fin 128)) := by
  unfold slabW
  refine (Scat.k4_hit _ _ _ (pair_apply0 64#32 0#32) (pair_apply1 64#32 0#32) j k).trans ?_
  exact blk3_apply A j k

/-! ## The slab's buffer when the region is entered -/

variable (m : (ℓ : Loc nD τ sig) → Buf (Elt Ideal) ℓ) (c : Dev nD)

set_option maxHeartbeats 4000000 in
/-- The slab's buffer when the region is entered: the three scatters over the zero array and the second argument,
    by running the host operations before the region. -/
theorem V_main_v26 :
    (V (F := Ideal) m c main_v26 : S80x128.Idx → EReal)
      = slabW (broadcastInDim S80x128 ![] bcast_S_S80x128 (constant (F := Ideal) S_ .bf16 0x0000#16))
          (m ((c : Thread nD τ).loc main_arg1) : S272x128.Idx → EReal) := by
  show StableHlo.after hostOps0 (fun b => m (c, b)) (Proc.devRef .tc main_v26) = _
  after_results
  rfl

/-- Rows 0‥31 of the slab are the first layer's weights, transposed. -/
theorem w1t (k : Fin 32) (i : Fin 8) :
    (V (F := Ideal) m c main_v26 : S80x128.Idx → EReal) (ix2 (⟨k.val, by omega⟩ : Fin 80) (⟨i.val, by omega⟩ : Fin 128))
      = (m ((c : Thread nD τ).loc main_arg1) : S272x128.Idx → EReal)
          (ix2 (⟨i.val, by omega⟩ : Fin 272) (⟨k.val, by omega⟩ : Fin 128)) :=
  (congrFun (V_main_v26 m c) _).trans (slabW_blk1 _ _ k i)

/-- Rows 32‥63 of the slab are the second layer's weights, transposed. -/
theorem w2t (k k' : Fin 32) :
    (V (F := Ideal) m c main_v26 : S80x128.Idx → EReal) (ix2 (⟨32 + k.val, by omega⟩ : Fin 80) (⟨k'.val, by omega⟩ : Fin 128))
      = (m ((c : Thread nD τ).loc main_arg1) : S272x128.Idx → EReal)
          (ix2 (⟨8 + k'.val, by omega⟩ : Fin 272) (⟨k.val, by omega⟩ : Fin 128)) :=
  (congrFun (V_main_v26 m c) _).trans (slabW_blk2 _ _ k k')

/-- Rows 64‥71 of the slab are the third layer's weights, transposed. -/
theorem w3t (j : Fin 8) (k : Fin 32) :
    (V (F := Ideal) m c main_v26 : S80x128.Idx → EReal) (ix2 (⟨64 + j.val, by omega⟩ : Fin 80) (⟨k.val, by omega⟩ : Fin 128))
      = (m ((c : Thread nD τ).loc main_arg1) : S272x128.Idx → EReal)
          (ix2 (⟨136 + k.val, by omega⟩ : Fin 272) (⟨j.val, by omega⟩ : Fin 128)) :=
  (congrFun (V_main_v26 m c) _).trans (slabW_blk3 _ _ j k)

end Cert.KernelIdeal.HostW

end
-- ==== Proof.ScatterCol.lean ====
/-
  A `stablehlo.scatter` that writes a rank-1 vector into one column of a rank-2 operand
  (`update_window_dims = [0]`, `inserted_window_dims = [1]`), read at one operand index.

  Update index `j` (one coordinate `j 0`) lands on the operand index whose row is the start row plus `j 0` and whose
  column is the start column; the start row and column are read signed off the scatter indices (the row is `0` when the
  map `scatter_dims_to_operand_dims` does not name axis 0).  The landing index is an injective function of `j`, so at a
  landing index the set-scatter returns the update's element, and everywhere else the operand's.
-/
import proofs.«108916_g2000504823889788_pallasbulk_511_31_alg».proof.KernelIdeal
import proofs.«108916_g2000504823889788_pallasbulk_511_31_alg».proof.Proof.LibScatter
import Idealize.ShloMosaic.Lib.ValueIdx

namespace Cert.KernelIdeal.ScatCol

open Idealize.ShloMosaic Idealize.ShloMosaic.ValueIdx Cert.KernelIdeal

variable [Facts₀] {α : Type}

/-- A small natural written as a 32-bit word reads back, signed, as itself. -/
theorem toInt_ofNat_small (c0 : Nat) (hc : c0 < 128) : (BitVec.ofNat 32 c0).toInt = (c0 : Int) := by
  rw [BitVec.toInt_eq_toNat_cond, BitVec.toNat_ofNat, Nat.mod_eq_of_lt (by omega)]
  rw [if_pos (by omega)]

/-! ## The scatter with one start component: the column -/

/-- Axis 0 (the rows) is not named by the map: the window starts at row 0. -/
theorem k5_start0 (j : S32.Idx) (idx : IVec S1 32) : scatter_S32x128_S1_S32_0_1_1_0.start j idx 0 = 0 := by
  unfold ScatterDims.start
  rw [dif_neg]
  show (0 : Fin 2) ∉ [1]
  decide

/-- Axis 1 (the columns) starts at the one scatter index, read signed. -/
theorem k5_start1 (c0 : Nat) (hc : c0 < 128) (idx : IVec S1 32) (h : idx (ix1 0) = BitVec.ofNat 32 c0) (j : S32.Idx) :
    scatter_S32x128_S1_S32_0_1_1_0.start j idx 1 = (c0 : Int) := by
  have hmem : (1 : Fin 2) ∈ scatter_S32x128_S1_S32_0_1_1_0.scatterDimsToOperandDims := List.mem_singleton.mpr rfl
  unfold ScatterDims.start
  rw [dif_pos hmem]
  have hsi : scatter_S32x128_S1_S32_0_1_1_0.siIdx j
      ⟨List.idxOf (1 : Fin 2) scatter_S32x128_S1_S32_0_1_1_0.scatterDimsToOperandDims, List.idxOf_lt_length_iff.2 hmem⟩ = ix1 0 := by
    funext b; refine Fin.ext ?_
    match b with
    | ⟨0, _⟩ => rfl
  rw [hsi, h]
  exact toInt_ofNat_small c0 hc

/-- Axis 0 is the one kept axis: its window coordinate is the update index's coordinate. -/
theorem k5_window0 (j : S32.Idx) : scatter_S32x128_S1_S32_0_1_1_0.window j 0 = (j 0).val := by
  have hmem : (0 : Fin 2) ∈ scatter_S32x128_S1_S32_0_1_1_0.sKept := by
    show (0 : Fin 2) ∈ [0]
    decide
  unfold ScatterDims.window
  rw [dif_pos hmem]
  rfl

/-- Axis 1 is inserted: its window coordinate is 0. -/
theorem k5_window1 (j : S32.Idx) : scatter_S32x128_S1_S32_0_1_1_0.window j 1 = 0 := by
  unfold ScatterDims.window
  rw [dif_neg]
  show (1 : Fin 2) ∉ [0]
  decide

/-- THE LANDING INDEX: update index `j` lands on row `j 0`, column `c0`. -/
theorem k5_resultIdx (c0 : Nat) (hc : c0 < 128) (idx : IVec S1 32) (h : idx (ix1 0) = BitVec.ofNat 32 c0) (j : S32.Idx) :
    scatter_S32x128_S1_S32_0_1_1_0.resultIdx? j idx = some (ix2 (⟨(j 0).val, (j 0).isLt⟩ : Fin 32) (⟨c0, hc⟩ : Fin 128)) := by
  have hs0 := k5_start0 j idx
  have hs1 := k5_start1 c0 hc idx h j
  have hw0 := k5_window0 j
  have hw1 := k5_window1 j
  have hj : (j 0).val < 32 := (j 0).isLt
  have hcond : ∀ a, 0 ≤ scatter_S32x128_S1_S32_0_1_1_0.start j idx a + scatter_S32x128_S1_S32_0_1_1_0.window j a ∧
      scatter_S32x128_S1_S32_0_1_1_0.start j idx a + scatter_S32x128_S1_S32_0_1_1_0.window j a < S32x128.size a := by
    intro a
    match a with
    | ⟨0, _⟩ =>
      show 0 ≤ scatter_S32x128_S1_S32_0_1_1_0.start j idx 0 + scatter_S32x128_S1_S32_0_1_1_0.window j 0 ∧
        scatter_S32x128_S1_S32_0_1_1_0.start j idx 0 + scatter_S32x128_S1_S32_0_1_1_0.window j 0 < (32 : Nat)
      rw [hs0, hw0]; omega
    | ⟨1, _⟩ =>
      show 0 ≤ scatter_S32x128_S1_S32_0_1_1_0.start j idx 1 + scatter_S32x128_S1_S32_0_1_1_0.window j 1 ∧
        scatter_S32x128_S1_S32_0_1_1_0.start j idx 1 + scatter_S32x128_S1_S32_0_1_1_0.window j 1 < (128 : Nat)
      rw [hs1, hw1]; omega
  unfold ScatterDims.resultIdx?
  rw [dif_pos hcond]
  congr 1
  funext a
  refine Fin.ext ?_
  match a with
  | ⟨0, _⟩ =>
    show (scatter_S32x128_S1_S32_0_1_1_0.start j idx 0 + scatter_S32x128_S1_S32_0_1_1_0.window j 0).toNat = (j 0).val
    rw [hs0, hw0]; omega
  | ⟨1, _⟩ =>
    show (scatter_S32x128_S1_S32_0_1_1_0.start j idx 1 + scatter_S32x128_S1_S32_0_1_1_0.window j 1).toNat = c0
    rw [hs1, hw1]; omega

/-- AT THE WRITTEN COLUMN: row `r` of column `c0` is the update's element `r`. -/
theorem k5_hit (c0 : Nat) (hc : c0 < 128) (x : S32x128.Idx → α) (idx : IVec S1 32) (upd : S32.Idx → α)
    (h : idx (ix1 0) = BitVec.ofNat 32 c0) (r : Fin 32) :
    Host.scatter scatter_S32x128_S1_S32_0_1_1_0 (fun _ b => b) x idx upd (ix2 r (⟨c0, hc⟩ : Fin 128)) = upd (ix1 r) := by
  refine ScatterSet.scatter_apply_hit _ x idx upd _ (ix1 r) (k5_resultIdx c0 hc idx h (ix1 r)) ?_
  intro j' hj'
  rw [k5_resultIdx c0 hc idx h j'] at hj'
  have e0 := congrArg Fin.val (congrFun (Option.some.inj hj') 0)
  rw [eq_ix1 j']
  congr 1
  exact Fin.ext e0

/-- OFF THE WRITTEN COLUMN the operand's element stays. -/
theorem k5_miss (c0 : Nat) (hc : c0 < 128) (x : S32x128.Idx → α) (idx : IVec S1 32) (upd : S32.Idx → α)
    (h : idx (ix1 0) = BitVec.ofNat 32 c0) (r : Fin 32) (c : Fin 128) (hne : c.val ≠ c0) :
    Host.scatter scatter_S32x128_S1_S32_0_1_1_0 (fun _ b => b) x idx upd (ix2 r c) = x (ix2 r c) := by
  refine ScatterSet.scatter_apply_miss _ _ x idx upd _ ?_
  intro j' hj'
  rw [k5_resultIdx c0 hc idx h j'] at hj'
  have e1 := congrArg Fin.val (congrFun (Option.some.inj hj') 1)
  exact hne e1.symm

/-! ## The scatter with two start components: row and column -/

/-- The scatter-indices index at which start component `c` is read is `c` itself. -/
theorem k6_siIdx0 (j : S8.Idx) (hlt : 0 < scatter_S32x128_S2_S8_0_1_01_0.scatterDimsToOperandDims.length) :
    scatter_S32x128_S2_S8_0_1_01_0.siIdx j ⟨0, hlt⟩ = ix1 (0 : Fin 2) := by
  funext b; refine Fin.ext ?_
  match b with
  | ⟨0, _⟩ => rfl

theorem k6_siIdx1 (j : S8.Idx) (hlt : 1 < scatter_S32x128_S2_S8_0_1_01_0.scatterDimsToOperandDims.length) :
    scatter_S32x128_S2_S8_0_1_01_0.siIdx j ⟨1, hlt⟩ = ix1 (1 : Fin 2) := by
  funext b; refine Fin.ext ?_
  match b with
  | ⟨0, _⟩ => rfl

/-- Axis 0 (the rows) starts at the first scatter index, read signed. -/
theorem k6_start0 (idx : IVec S2 32) (h0 : idx (ix1 0) = 0#32) (j : S8.Idx) :
    scatter_S32x128_S2_S8_0_1_01_0.start j idx 0 = 0 := by
  have hmem : (0 : Fin 2) ∈ scatter_S32x128_S2_S8_0_1_01_0.scatterDimsToOperandDims := by
    show (0 : Fin 2) ∈ [0, 1]
    decide
  unfold ScatterDims.start
  rw [dif_pos hmem]
  have hsi : scatter_S32x128_S2_S8_0_1_01_0.siIdx j
      ⟨List.idxOf (0 : Fin 2) scatter_S32x128_S2_S8_0_1_01_0.scatterDimsToOperandDims, List.idxOf_lt_length_iff.2 hmem⟩
      = ix1 (0 : Fin 2) := k6_siIdx0 j _
  rw [hsi, h0]
  rfl

/-- Axis 1 (the columns) starts at the second scatter index, read signed. -/
theorem k6_start1 (idx : IVec S2 32) (h1 : idx (ix1 1) = 2#32) (j : S8.Idx) :
    scatter_S32x128_S2_S8_0_1_01_0.start j idx 1 = 2 := by
  have hmem : (1 : Fin 2) ∈ scatter_S32x128_S2_S8_0_1_01_0.scatterDimsToOperandDims := by
    show (1 : Fin 2) ∈ [0, 1]
    decide
  unfold ScatterDims.start
  rw [dif_pos hmem]
  have hsi : scatter_S32x128_S2_S8_0_1_01_0.siIdx j
      ⟨List.idxOf (1 : Fin 2) scatter_S32x128_S2_S8_0_1_01_0.scatterDimsToOperandDims, List.idxOf_lt_length_iff.2 hmem⟩
      = ix1 (1 : Fin 2) := k6_siIdx1 j _
  rw [hsi, h1]
  rfl

/-- Axis 0 is the one kept axis: its window coordinate is the update index's coordinate. -/
theorem k6_window0 (j : S8.Idx) : scatter_S32x128_S2_S8_0_1_01_0.window j 0 = (j 0).val := by
  have hmem : (0 : Fin 2) ∈ scatter_S32x128_S2_S8_0_1_01_0.sKept := by
    show (0 : Fin 2) ∈ [0]
    decide
  unfold ScatterDims.window
  rw [dif_pos hmem]
  rfl

/-- Axis 1 is inserted: its window coordinate is 0. -/
theorem k6_window1 (j : S8.Idx) : scatter_S32x128_S2_S8_0_1_01_0.window j 1 = 0 := by
  unfold ScatterDims.window
  rw [dif_neg]
  show (1 : Fin 2) ∉ [0]
  decide

/-- THE LANDING INDEX: update index `j` lands on row `j 0`, column 2. -/
theorem k6_resultIdx (idx : IVec S2 32) (h0 : idx (ix1 0) = 0#32) (h1 : idx (ix1 1) = 2#32) (j : S8.Idx) :
    scatter_S32x128_S2_S8_0_1_01_0.resultIdx? j idx
      = some (ix2 (⟨(j 0).val, Nat.lt_trans (j 0).isLt (by decide : 8 < 32)⟩ : Fin 32) (⟨2, by decide⟩ : Fin 128)) := by
  have hs0 := k6_start0 idx h0 j
  have hs1 := k6_start1 idx h1 j
  have hw0 := k6_window0 j
  have hw1 := k6_window1 j
  have hj : (j 0).val < 8 := (j 0).isLt
  have hcond : ∀ a, 0 ≤ scatter_S32x128_S2_S8_0_1_01_0.start j idx a + scatter_S32x128_S2_S8_0_1_01_0.window j a ∧
      scatter_S32x128_S2_S8_0_1_01_0.start j idx a + scatter_S32x128_S2_S8_0_1_01_0.window j a < S32x128.size a := by
    intro a
    match a with
    | ⟨0, _⟩ =>
      show 0 ≤ scatter_S32x128_S2_S8_0_1_01_0.start j idx 0 + scatter_S32x128_S2_S8_0_1_01_0.window j 0 ∧
        scatter_S32x128_S2_S8_0_1_01_0.start j idx 0 + scatter_S32x128_S2_S8_0_1_01_0.window j 0 < (32 : Nat)
      rw [hs0, hw0]; omega
    | ⟨1, _⟩ =>
      show 0 ≤ scatter_S32x128_S2_S8_0_1_01_0.start j idx 1 + scatter_S32x128_S2_S8_0_1_01_0.window j 1 ∧
        scatter_S32x128_S2_S8_0_1_01_0.start j idx 1 + scatter_S32x128_S2_S8_0_1_01_0.window j 1 < (128 : Nat)
      rw [hs1, hw1]; omega
  unfold ScatterDims.resultIdx?
  rw [dif_pos hcond]
  congr 1
  funext a
  refine Fin.ext ?_
  match a with
  | ⟨0, _⟩ =>
    show (scatter_S32x128_S2_S8_0_1_01_0.start j idx 0 + scatter_S32x128_S2_S8_0_1_01_0.window j 0).toNat = (j 0).val
    rw [hs0, hw0]; omega
  | ⟨1, _⟩ =>
    show (scatter_S32x128_S2_S8_0_1_01_0.start j idx 1 + scatter_S32x128_S2_S8_0_1_01_0.window j 1).toNat = 2
    rw [hs1, hw1]; omega

/-- AT THE WRITTEN ROWS OF COLUMN 2: row `r < 8` of column 2 is the update's element `r`. -/
theorem k6_hit (x : S32x128.Idx → α) (idx : IVec S2 32) (upd : S8.Idx → α)
    (h0 : idx (ix1 0) = 0#32) (h1 : idx (ix1 1) = 2#32) (r : Fin 8) :
    Host.scatter scatter_S32x128_S2_S8_0_1_01_0 (fun _ b => b) x idx upd
      (ix2 (⟨r.val, Nat.lt_trans r.isLt (by decide : 8 < 32)⟩ : Fin 32) (⟨2, by decide⟩ : Fin 128)) = upd (ix1 r) := by
  refine ScatterSet.scatter_apply_hit _ x idx upd _ (ix1 r) (k6_resultIdx idx h0 h1 (ix1 r)) ?_
  intro j' hj'
  rw [k6_resultIdx idx h0 h1 j'] at hj'
  have e0 := congrArg Fin.val (congrFun (Option.some.inj hj') 0)
  rw [eq_ix1 j']
  congr 1
  exact Fin.ext e0

/-- OFF THE WRITTEN ROWS OF COLUMN 2 the operand's element stays. -/
theorem k6_miss (x : S32x128.Idx → α) (idx : IVec S2 32) (upd : S8.Idx → α)
    (h0 : idx (ix1 0) = 0#32) (h1 : idx (ix1 1) = 2#32) (r : Fin 32) (c : Fin 128) (hne : ¬(r.val < 8 ∧ c.val = 2)) :
    Host.scatter scatter_S32x128_S2_S8_0_1_01_0 (fun _ b => b) x idx upd (ix2 r c) = x (ix2 r c) := by
  refine ScatterSet.scatter_apply_miss _ _ x idx upd _ ?_
  intro j' hj'
  rw [k6_resultIdx idx h0 h1 j'] at hj'
  have e0 : (j' 0).val = r.val := congrArg Fin.val (congrFun (Option.some.inj hj') 0)
  have e1 : 2 = c.val := congrArg Fin.val (congrFun (Option.some.inj hj') 1)
  have hj : (j' 0).val < 8 := (j' 0).isLt
  exact hne ⟨by omega, e1.symm⟩

end Cert.KernelIdeal.ScatCol
-- ==== Proof.KerHostBias.lean ====
/-
  The bias slab of the kernel program as the region finds it, read at the entries the kernel body loads.

  The slab is a 32×128 array of zeros into which three set-scatters write, in turn: row 264 of the second argument
  (32 entries) into column 0, row 265 (32 entries) into column 1, and the first 8 entries of row 266 into rows 0‥7 of
  column 2.  Each written vector is a one-row slice of the argument reshaped to rank 1.  A later scatter writes a
  different column than an earlier one, so at a written entry the slab holds the argument's entry.
-/
import proofs.«108916_g2000504823889788_pallasbulk_511_31_alg».proof.Proof.Gen.KernelIdeal.Frame
import proofs.«108916_g2000504823889788_pallasbulk_511_31_alg».proof.Proof.ScatterCol
import Idealize.ShloMosaic.Lib.ValueIdx
import Idealize.ShloMosaic.Lib.Pipeline.Value
import Idealize.ShloMosaic.Lib.StableHlo.Run
import Idealize.ShloMosaic.Lib.Tactic

noncomputable section

namespace Cert.KernelIdeal.HostBias

open Idealize.ShloMosaic Idealize.ShloMosaic.TcCoe Idealize.ShloMosaic.ValueIdx Idealize.SL.Sem Cert.KernelIdeal Cert.KernelIdeal.Gen

/-! ## The written vectors and the scatter indices, read at an index -/

section Generic

variable {α : Type}

/-- Row `R` of the array, cut out as a 1×32 slice and reshaped to a vector, read at `k`: the array's entry `(R, k)`. -/
theorem row32_apply (R : Nat) (hR : R < 272) (A : S272x128.Idx → α) (h : S272x128.Slices ![R, 0] S1x32) (k : Fin 32) :
    shapeCast S32 (extractStridedSlice S1x32 ![R, 0] A h) shapeCasts_S1x32_S32 (ix1 k)
      = A (ix2 (⟨R, hR⟩ : Fin 272) (⟨k.val, by omega⟩ : Fin 128)) := by
  refine (shapeCast_apply _ _ (ix1 k) (ix2 (0 : Fin 1) k) ?_).trans ?_
  · rw [Shape.rowMajor_val_two, Shape.rowMajor_val_one]
    show (0 : Nat) * 32 + k.val = k.val
    omega
  · refine extractStridedSlice_apply _ A h (ix2 (0 : Fin 1) k) _ ?_
    intro a
    match a with
    | ⟨0, _⟩ => show R = R + 0; omega
    | ⟨1, _⟩ => show k.val = 0 + k.val; omega

/-- The first 8 entries of row `R`, cut out as a 1×8 slice and reshaped to a vector, read at `k`: the array's entry `(R, k)`. -/
theorem row8_apply (R : Nat) (hR : R < 272) (A : S272x128.Idx → α) (h : S272x128.Slices ![R, 0] S1x8) (k : Fin 8) :
    shapeCast S8 (extractStridedSlice S1x8 ![R, 0] A h) shapeCasts_S1x8_S8 (ix1 k)
      = A (ix2 (⟨R, hR⟩ : Fin 272) (⟨k.val, by omega⟩ : Fin 128)) := by
  refine (shapeCast_apply _ _ (ix1 k) (ix2 (0 : Fin 1) k) ?_).trans ?_
  · rw [Shape.rowMajor_val_two, Shape.rowMajor_val_one]
    show (0 : Nat) * 8 + k.val = k.val
    omega
  · refine extractStridedSlice_apply _ A h (ix2 (0 : Fin 1) k) _ ?_
    intro a
    match a with
    | ⟨0, _⟩ => show R = R + 0; omega
    | ⟨1, _⟩ => show k.val = 0 + k.val; omega

/-- A scalar word broadcast to a one-element vector holds the word. -/
theorem bcast1_apply (v : BitVec 32) :
    (broadcastInDim S1 ![] bcast_S_S1 (constantI S_ 32 v) : IVec S1 32) (ix1 0) = v := rfl

/-- The first entry of two one-element vectors laid end to end is the first vector's. -/
theorem pair_apply0 (v w : BitVec 32) :
    (concatenate S2 0 [⟨S1, broadcastInDim S1 ![] bcast_S_S1 (constantI S_ 32 v)⟩,
        ⟨S1, broadcastInDim S1 ![] bcast_S_S1 (constantI S_ 32 w)⟩] concatenates_S1_S1_S2_d0 : IVec S2 32) (ix1 0) = v := by
  refine (concatenate_pair_apply_left (t := S2) (s₁ := S1) (s₂ := S1) (0 : Fin 1) _ _ concatenates_S1_S1_S2_d0 (ix1 (0 : Fin 2)) rfl (ix1 (0 : Fin 1)) ?_).trans rfl
  intro b
  match b with
  | ⟨0, _⟩ => rfl

/-- The second entry of two one-element vectors laid end to end is the second vector's. -/
theorem pair_apply1 (v w : BitVec 32) :
    (concatenate S2 0 [⟨S1, broadcastInDim S1 ![] bcast_S_S1 (constantI S_ 32 v)⟩,
        ⟨S1, broadcastInDim S1 ![] bcast_S_S1 (constantI S_ 32 w)⟩] concatenates_S1_S1_S2_d0 : IVec S2 32) (ix1 1) = w := by
  refine (concatenate_pair_apply_right (t := S2) (s₁ := S1) (s₂ := S1) (0 : Fin 1) _ _ concatenates_S1_S1_S2_d0 (ix1 (1 : Fin 2)) rfl rfl (ix1 (0 : Fin 1)) ?_ ?_).trans rfl
  · intro b hb
    match b with
    | ⟨0, _⟩ => exact absurd rfl hb
  · rfl

end Generic

/-! ## The slab as a function of the zero array and the argument -/

section Slab

variable {α : Type}

/-- The three scatters over an array `z`: rows 264 and 265 of `A` into columns 0 and 1, the first 8 entries of row 266
    into rows 0‥7 of column 2. -/
def slab (z : S32x128.Idx → α) (A : S272x128.Idx → α) : S32x128.Idx → α :=
  Host.scatter scatter_S32x128_S2_S8_0_1_01_0 (fun _ b => b)
    (Host.scatter scatter_S32x128_S1_S32_0_1_1_0 (fun _ b => b)
      (Host.scatter scatter_S32x128_S1_S32_0_1_1_0 (fun _ b => b) z
        (broadcastInDim S1 ![] bcast_S_S1 (constantI S_ 32 0#32))
        (shapeCast S32 (extractStridedSlice S1x32 ![264, 0] A slices_S272x128_S1x32_264_0) shapeCasts_S1x32_S32))
      (broadcastInDim S1 ![] bcast_S_S1 (constantI S_ 32 1#32))
      (shapeCast S32 (extractStridedSlice S1x32 ![265, 0] A slices_S272x128_S1x32_265_0) shapeCasts_S1x32_S32))
    (concatenate S2 0 [⟨S1, broadcastInDim S1 ![] bcast_S_S1 (constantI S_ 32 0#32)⟩,
      ⟨S1, broadcastInDim S1 ![] bcast_S_S1 (constantI S_ 32 2#32)⟩] concatenates_S1_S1_S2_d0)
    (shapeCast S8 (extractStridedSlice S1x8 ![266, 0] A slices_S272x128_S1x8_266_0) shapeCasts_S1x8_S8)

/-- Rows 0‥7 of column 2 hold the first 8 entries of row 266: the last scatter writes them. -/
theorem slab_col2 (z : S32x128.Idx → α) (A : S272x128.Idx → α) (j : Fin 8) :
    slab z A (ix2 (⟨j.val, by omega⟩ : Fin 32) (⟨2, by decide⟩ : Fin 128))
      = A (ix2 (⟨266, by decide⟩ : Fin 272) (⟨j.val, by omega⟩ : Fin 128)) := by
  unfold slab
  refine (ScatCol.k6_hit _ _ _ (pair_apply0 0#32 2#32) (pair_apply1 0#32 2#32) j).trans ?_
  exact row8_apply 266 (by decide) A slices_S272x128_S1x8_266_0 j

/-- Column 1 holds row 265: the last scatter writes column 2 only, the second writes column 1. -/
theorem slab_col1 (z : S32x128.Idx → α) (A : S272x128.Idx → α) (k : Fin 32) :
    slab z A (ix2 k (⟨1, by decide⟩ : Fin 128))
      = A (ix2 (⟨265, by decide⟩ : Fin 272) (⟨k.val, by omega⟩ : Fin 128)) := by
  unfold slab
  refine (ScatCol.k6_miss _ _ _ (pair_apply0 0#32 2#32) (pair_apply1 0#32 2#32) k (⟨1, by decide⟩ : Fin 128)
    (fun h => absurd h.2 (by decide))).trans ?_
  refine (ScatCol.k5_hit 1 (by decide) _ _ _ (bcast1_apply 1#32) k).trans ?_
  exact row32_apply 265 (by decide) A slices_S272x128_S1x32_265_0 k

/-- Column 0 holds row 264: the last two scatters write columns 2 and 1 only, the first writes column 0. -/
theorem slab_col0 (z : S32x128.Idx → α) (A : S272x128.Idx → α) (k : Fin 32) :
    slab z A (ix2 k (⟨0, by decide⟩ : Fin 128))
      = A (ix2 (⟨264, by decide⟩ : Fin 272) (⟨k.val, by omega⟩ : Fin 128)) := by
  unfold slab
  refine (ScatCol.k6_miss _ _ _ (pair_apply0 0#32 2#32) (pair_apply1 0#32 2#32) k (⟨0, by decide⟩ : Fin 128)
    (fun h => absurd h.2 (by decide))).trans ?_
  refine (ScatCol.k5_miss 1 (by decide) _ _ _ (bcast1_apply 1#32) k (⟨0, by decide⟩ : Fin 128) (by decide)).trans ?_
  refine (ScatCol.k5_hit 0 (by decide) _ _ _ (bcast1_apply 0#32) k).trans ?_
  exact row32_apply 264 (by decide) A slices_S272x128_S1x32_264_0 k

end Slab

/-! ## The slab's buffer when the region is entered -/

variable (m : (ℓ : Loc nD τ sig) → Buf (Elt Ideal) ℓ) (c : Dev nD)

set_option maxHeartbeats 4000000 in
/-- The slab's buffer when the region is entered: the three scatters over the zero array and the second argument,
    by running the host operations before the region. -/
theorem V_main_v41 :
    (V (F := Ideal) m c main_v41 : S32x128.Idx → EReal)
      = slab (broadcastInDim S32x128 ![] bcast_S_S32x128 (constant (F := Ideal) S_ .f32 0x00000000#32))
          (m ((c : Thread nD τ).loc main_arg1) : S272x128.Idx → EReal) := by
  show StableHlo.after hostOps0 (fun b => m (c, b)) (Proc.devRef .tc main_v41) = _
  after_results
  rfl

/-- Column 0 of the slab is row 264 of the second argument. -/
theorem bias1 (k : Fin 32) :
    (V (F := Ideal) m c main_v41 : S32x128.Idx → EReal) (ix2 k (⟨0, by decide⟩ : Fin 128))
      = (m ((c : Thread nD τ).loc main_arg1) : S272x128.Idx → EReal)
          (ix2 (⟨264, by decide⟩ : Fin 272) (⟨k.val, by omega⟩ : Fin 128)) :=
  (congrFun (V_main_v41 m c) _).trans (slab_col0 _ _ k)

/-- Column 1 of the slab is row 265 of the second argument. -/
theorem bias2 (k : Fin 32) :
    (V (F := Ideal) m c main_v41 : S32x128.Idx → EReal) (ix2 k (⟨1, by decide⟩ : Fin 128))
      = (m ((c : Thread nD τ).loc main_arg1) : S272x128.Idx → EReal)
          (ix2 (⟨265, by decide⟩ : Fin 272) (⟨k.val, by omega⟩ : Fin 128)) :=
  (congrFun (V_main_v41 m c) _).trans (slab_col1 _ _ k)

/-- Rows 0‥7 of column 2 of the slab are the first 8 entries of row 266 of the second argument. -/
theorem bias3 (j : Fin 8) :
    (V (F := Ideal) m c main_v41 : S32x128.Idx → EReal) (ix2 (⟨j.val, by omega⟩ : Fin 32) (⟨2, by decide⟩ : Fin 128))
      = (m ((c : Thread nD τ).loc main_arg1) : S272x128.Idx → EReal)
          (ix2 (⟨266, by decide⟩ : Fin 272) (⟨j.val, by omega⟩ : Fin 128)) :=
  (congrFun (V_main_v41 m c) _).trans (slab_col2 _ _ j)

end Cert.KernelIdeal.HostBias

end
-- ==== Proof.KerRun.lean ====
/-
  The kernel program's run, read: every weakly fair execution terminates with the result buffer at the common
  result function of the two argument arrays, and the arguments unchanged.

  The kernel's output array is the feature-major network column by column (the blocks-to-array argument); the host
  keeps rows 0 and 1, transposes and widens.  The three slabs the host lays out before the call hold the input
  transposed and zero-padded to 8 rows, the three weight blocks transposed, and the three biases as columns, so the
  column network is the common result at that batch row.
-/
import proofs.«108916_g2000504823889788_pallasbulk_511_31_alg».proof.Proof.KerValue
import proofs.«108916_g2000504823889788_pallasbulk_511_31_alg».proof.Proof.KerTail
import proofs.«108916_g2000504823889788_pallasbulk_511_31_alg».proof.Proof.KerAlg
import proofs.«108916_g2000504823889788_pallasbulk_511_31_alg».proof.Proof.KerHostX
import proofs.«108916_g2000504823889788_pallasbulk_511_31_alg».proof.Proof.KerHostW
import proofs.«108916_g2000504823889788_pallasbulk_511_31_alg».proof.Proof.KerHostBias

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.Spec

/-- The column network of the blocks-to-array argument is the algebra module's. -/
theorem colNet_eq_kerNet (XT : S8x1048576.Idx → EReal) (WT : S80x128.Idx → EReal) (BS : S32x128.Idx → EReal)
    (j : Fin 8) (b : Fin 1048576) : colNet XT WT BS j b = kerNet XT WT BS j b := rfl

variable (m : (ℓ : Loc nD τ sig) → Buf (Elt Ideal) ℓ) (ρ : Dev nD → PrngReg)

/-- The result buffer after the host's slice, transpose and widening: the common result. -/
theorem result_eq (c : Dev nD) :
    (Pipeline.afterTail₀ cfgs (dats (F := Ideal) m) 0 (V0 m) [hostOps1] c main_v45 : S1048576x2.Idx → EReal)
      = result (m ((c : Thread nD τ).loc main_arg0)) (m ((c : Thread nD τ).loc main_arg1)) := by
  rw [Tail.tail_eq m c (Gker m c) (final m c)]
  have hX := HostX.xt_real m c
  have hXp := HostX.xt_pad m c
  have h1 := HostW.w1t m c
  have h2 := HostW.w2t m c
  have h3 := HostW.w3t m c
  have hb1 := HostBias.bias1 m c
  have hb2 := HostBias.bias2 m c
  have hb3 := HostBias.bias3 m c
  unfold Gker
  generalize V (F := Ideal) m c main_v4 = XT at hX hXp ⊢
  generalize V (F := Ideal) m c main_v26 = WT at h1 h2 h3 ⊢
  generalize V (F := Ideal) m c main_v41 = BS at hb1 hb2 hb3 ⊢
  funext j
  show colNet XT WT BS (Fin.castLE (by decide : 2 ≤ 8) (j 1 : Fin 2)) (j 0) = _
  refine (colNet_eq_kerNet XT WT BS _ _).trans ?_
  exact kerNet_eq XT WT BS _ _ hX (fun i hi b => hXp i hi b) h1 h2 h3 hb1 hb2 hb3 (Fin.castLE (by decide : 2 ≤ 8) (j 1 : Fin 2)) (j 0)

/-- THE RUN. -/
theorem run :
    θ_run defs (onTc (τ := τ) (main (F := Ideal))) ⟨m, fun _ => 0, ρ⟩ (fun r => ∀ c : Dev nD,
      r.2.mem ((c.tc : Thread nD τ).loc main_v45) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v45 (Pipeline.mem_restRefs_of main_v45 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Val

end
-- ==== Proof.lean ====
/-
  The certificate: the three frames, the (empty) idealization ledger, and the equality of the two idealized
  programs' results on the extended reals.

  Both programs are one three-layer network (5 → 32 → 32 → 2, ReLU, ReLU, tanh·10) applied to each of the
  1048576 batch rows.  The reference multiplies batch-major 512-row tiles through the parameter slab's three
  128-lane-padded weight blocks; the kernel transposes and repacks the real 32-wide blocks on the host and
  multiplies feature-major 131072-column tiles.  On the extended reals a change of float format is the identity
  and a product's factors commute, so the only difference is the reference's contraction over the 96 padded hidden
  lanes; the precondition's last two conjuncts say the slab's rows for those lanes (rows 40–135 and 168–263) are
  zero, which makes every padded term a product with zero.  Finiteness of the inputs is never used.

  Each side: the body's stored value at one index (three sums, biases, ReLUs, tanh), the blocks written back at
  the grid's points tiling the output array, the host operations before the call (the zero-padded scatters) read
  at an index, the host operations after it (slice, transpose, widening), and the run re-posted at the common
  result function `Cert.Spec.result`.
-/
import proofs.«108916_g2000504823889788_pallasbulk_511_31_alg».proof.Defs
import proofs.«108916_g2000504823889788_pallasbulk_511_31_alg».proof.Proof.Gen.Kernel.Frame
import proofs.«108916_g2000504823889788_pallasbulk_511_31_alg».proof.Proof.Gen.KernelIdeal.Frame
import proofs.«108916_g2000504823889788_pallasbulk_511_31_alg».proof.Proof.Gen.ReferenceIdeal.Frame
import proofs.«108916_g2000504823889788_pallasbulk_511_31_alg».proof.Proof.Gen.Pre_finite_inputs
import proofs.«108916_g2000504823889788_pallasbulk_511_31_alg».proof.Proof.PreZero
import proofs.«108916_g2000504823889788_pallasbulk_511_31_alg».proof.Proof.RefRun
import proofs.«108916_g2000504823889788_pallasbulk_511_31_alg».proof.Proof.KerRun
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote nothing. -/
theorem preserves : Cert.preserves_Kernel_KernelIdeal := trivial

/-- Both idealized programs end at the common result of their (agreeing) arguments. -/
theorem algebraic : Cert.algebraic_KernelIdeal_ReferenceIdeal := by
  intro m ρ m' ρ' hpre hagree
  refine ⟨fun c => Cert.Spec.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Val.run m ρ, ?_⟩
  have hz := fun c => Cert.PreZero.ker_rows_zero m hpre c
  refine (θ_run Cert.ReferenceIdeal.defs _ _).mono (fun _ h c => ⟨?_, (h c).2.1, (h c).2.2⟩)
    (Cert.ReferenceIdeal.Val.run m' ρ'
      (fun c r k h1 h2 => by
        show @Eq EReal (m' ((c : Thread Cert.ReferenceIdeal.nD Cert.ReferenceIdeal.τ).loc Cert.ReferenceIdeal.main_arg1) (ix2 r k)) 0
        rw [(hagree c).2]; exact (hz c).1 r k h1 h2)
      (fun c r k h1 h2 => by
        show @Eq EReal (m' ((c : Thread Cert.ReferenceIdeal.nD Cert.ReferenceIdeal.τ).loc Cert.ReferenceIdeal.main_arg1) (ix2 r k)) 0
        rw [(hagree c).2]; exact (hz c).2 r k h1 h2))
  rw [(h c).1, (hagree c).1, (hagree c).2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
